-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v139)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v139) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v227) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg5 : FVec F S3x128 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S3x128x128 .f32) (main_arg3 : FVec F S3x128 .f32) (main_arg4 : FVec F S3x128 .f32) (main_arg5 : FVec F S3x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x128x128 : Shape := ⟨3, ![1, 128, 128]⟩
abbrev S128x128 : Shape := ⟨2, ![128, 128]⟩
abbrev S2000x128 : Shape := ⟨2, ![2000, 128]⟩
abbrev S800000x128 : Shape := ⟨2, ![800000, 128]⟩
abbrev S1x128 : Shape := ⟨2, ![1, 128]⟩
abbrev S128 : Shape := ⟨1, ![128]⟩
abbrev S2000x1 : Shape := ⟨2, ![2000, 1]⟩
abbrev S2000 : Shape := ⟨1, ![2000]⟩

abbrev nBuf : Space → Nat
  | .hbm => 172
  | .vmem => 52
  | .smem => 0
  | _ => 0

abbrev hbmTy0_0 (i : Nat) : BufTy := match i % 128 with
  | 0 => ⟨S50000x128, .f32⟩
  | 1 => ⟨S2x800000, .i32⟩
  | 2 => ⟨S3x128x128, .f32⟩
  | 3 => ⟨S3x128, .f32⟩
  | 4 => ⟨S3x128, .f32⟩
  | 5 => ⟨S3x128, .f32⟩
  | 6 => ⟨S1x800000, .i32⟩
  | 7 => ⟨S800000, .i32⟩
  | 8 => ⟨S1x800000, .i32⟩
  | 9 => ⟨S800000, .i32⟩
  | 10 => ⟨S_, .f32⟩
  | 11 => ⟨S50000, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S_, .f32⟩
  | 21 => ⟨S800000, .f32⟩
  | 22 => ⟨S50000, .f32⟩
  | 23 => ⟨S_, .f32⟩
  | 24 => ⟨S50000, .f32⟩
  | 25 => ⟨S50000, .f32⟩
  | 26 => ⟨S50000, .f32⟩
  | 27 => ⟨S50000x1, .f32⟩
  | 28 => ⟨S1x128x128, .f32⟩
  | 29 => ⟨S128x128, .f32⟩
  | 30 => ⟨S50000x128, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000, .f32⟩
  | 49 => ⟨S800000, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x128, .f32⟩
  | 59 => ⟨S800000x1, .f32⟩
  | 60 => ⟨S800000x128, .f32⟩
  | 61 => ⟨S800000x128, .f32⟩
  | 62 => ⟨S_, .f32⟩
  | 63 => ⟨S50000x128, .f32⟩
  | 64 => ⟨S800000x1, .i32⟩
  | 65 => ⟨S50000x128, .f32⟩
  | 66 => ⟨S1x128, .f32⟩
  | 67 => ⟨S128, .f32⟩
  | 68 => ⟨S1x128, .f32⟩
  | 69 => ⟨S128, .f32⟩
  | 70 => ⟨S1x128, .f32⟩
  | 71 => ⟨S128, .f32⟩
  | 72 => ⟨S1x128, .f32⟩
  | 73 => ⟨S1x128, .f32⟩
  | 74 => ⟨S1x128, .f32⟩
  | 75 => ⟨S50000x128, .f32⟩
  | 76 => ⟨S1x128x128, .f32⟩
  | 77 => ⟨S128x128, .f32⟩
  | 78 => ⟨S50000x128, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000, .f32⟩
  | 97 => ⟨S800000, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x128, .f32⟩
  | 107 => ⟨S800000x1, .f32⟩
  | 108 => ⟨S800000x128, .f32⟩
  | 109 => ⟨S800000x128, .f32⟩
  | 110 => ⟨S_, .f32⟩
  | 111 => ⟨S50000x128, .f32⟩
  | 112 => ⟨S800000x1, .i32⟩
  | 113 => ⟨S50000x128, .f32⟩
  | 114 => ⟨S1x128, .f32⟩
  | 115 => ⟨S128, .f32⟩
  | 116 => ⟨S1x128, .f32⟩
  | 117 => ⟨S128, .f32⟩
  | 118 => ⟨S1x128, .f32⟩
  | 119 => ⟨S128, .f32⟩
  | 120 => ⟨S1x128, .f32⟩
  | 121 => ⟨S1x128, .f32⟩
  | 122 => ⟨S1x128, .f32⟩
  | 123 => ⟨S50000x128, .f32⟩
  | 124 => ⟨S1x128x128, .f32⟩
  | 125 => ⟨S128x128, .f32⟩
  | 126 => ⟨S50000x128, .f32⟩
  | 127 => ⟨S_, .i32⟩
  | _ => ⟨S50000x128, .f32⟩

abbrev hbmTy0_1 (i : Nat) : BufTy := match i % 128 with
  | 0 => ⟨S800000, .i32⟩
  | 1 => ⟨S800000, .i1⟩
  | 2 => ⟨S_, .i32⟩
  | 3 => ⟨S800000, .i32⟩
  | 4 => ⟨S800000, .i32⟩
  | 5 => ⟨S800000, .i32⟩
  | 6 => ⟨S800000x1, .i32⟩
  | 7 => ⟨S800000, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000, .f32⟩
  | 17 => ⟨S800000, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x128, .f32⟩
  | 27 => ⟨S800000x1, .f32⟩
  | 28 => ⟨S800000x128, .f32⟩
  | 29 => ⟨S800000x128, .f32⟩
  | 30 => ⟨S_, .f32⟩
  | 31 => ⟨S50000x128, .f32⟩
  | 32 => ⟨S800000x1, .i32⟩
  | 33 => ⟨S50000x128, .f32⟩
  | 34 => ⟨S1x128, .f32⟩
  | 35 => ⟨S128, .f32⟩
  | 36 => ⟨S1x128, .f32⟩
  | 37 => ⟨S128, .f32⟩
  | 38 => ⟨S1x128, .f32⟩
  | 39 => ⟨S128, .f32⟩
  | 40 => ⟨S1x128, .f32⟩
  | 41 => ⟨S1x128, .f32⟩
  | 42 => ⟨S1x128, .f32⟩
  | 43 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x1, .f32⟩
  | .local _ .vmem, ⟨26, _⟩ => ⟨S2000x1, .f32⟩
  | .local _ .vmem, ⟨27, _⟩ => ⟨S2000x128, .f32⟩
  | .local _ .vmem, ⟨28, _⟩ => ⟨S2000x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S128x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x1, .f32⟩
  | .local _ .vmem, ⟨44, _⟩ => ⟨S2000x1, .f32⟩
  | .local _ .vmem, ⟨45, _⟩ => ⟨S2000x128, .f32⟩
  | .local _ .vmem, ⟨46, _⟩ => ⟨S2000x128, .f32⟩
  | .local _ .vmem, ⟨47, _⟩ => ⟨S1x128, .f32⟩
  | .local _ .vmem, ⟨48, _⟩ => ⟨S1x128, .f32⟩
  | .local _ .vmem, ⟨49, _⟩ => ⟨S1x128, .f32⟩
  | .local _ .vmem, ⟨50, _⟩ => ⟨S2000x128, .f32⟩
  | .local _ .vmem, ⟨51, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_c_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_c_10 : Ref sig .tc := ⟨.hbm, 79, rfl⟩
abbrev main_v61 : Ref sig .tc := ⟨.hbm, 80, rfl⟩
abbrev main_v62 : Ref sig .tc := ⟨.hbm, 81, rfl⟩
abbrev main_c_11 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_c_12 : Ref sig .tc := ⟨.hbm, 88, rfl⟩
abbrev main_v68 : Ref sig .tc := ⟨.hbm, 89, rfl⟩
abbrev main_v69 : Ref sig .tc := ⟨.hbm, 90, rfl⟩
abbrev main_c_13 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_c_14 : Ref sig .tc := ⟨.hbm, 98, rfl⟩
abbrev main_v76 : Ref sig .tc := ⟨.hbm, 99, rfl⟩
abbrev main_v77 : Ref sig .tc := ⟨.hbm, 100, rfl⟩
abbrev main_c_15 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_16 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_c_17 : Ref sig .tc := ⟨.hbm, 127, rfl⟩
abbrev main_v102 : Ref sig .tc := ⟨.hbm, 128, rfl⟩
abbrev main_v103 : Ref sig .tc := ⟨.hbm, 129, rfl⟩
abbrev main_c_18 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_c_19 : Ref sig .tc := ⟨.hbm, 136, rfl⟩
abbrev main_v109 : Ref sig .tc := ⟨.hbm, 137, rfl⟩
abbrev main_v110 : Ref sig .tc := ⟨.hbm, 138, rfl⟩
abbrev main_c_20 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_c_21 : Ref sig .tc := ⟨.hbm, 146, rfl⟩
abbrev main_v117 : Ref sig .tc := ⟨.hbm, 147, rfl⟩
abbrev main_v118 : Ref sig .tc := ⟨.hbm, 148, rfl⟩
abbrev main_c_22 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_cst_23 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg6_0 : Ref sig .tc := ⟨.vmem, 31, rfl⟩
abbrev cc3_stg7_0 : Ref sig .tc := ⟨.vmem, 32, rfl⟩
abbrev cc3_stg7_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg2_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg2_1 : Ref sig .tc := ⟨.vmem, 44, rfl⟩
abbrev cc5_stg3_0 : Ref sig .tc := ⟨.vmem, 45, rfl⟩
abbrev cc5_stg3_1 : Ref sig .tc := ⟨.vmem, 46, rfl⟩
abbrev cc5_stg4_0 : Ref sig .tc := ⟨.vmem, 47, rfl⟩
abbrev cc5_stg5_0 : Ref sig .tc := ⟨.vmem, 48, rfl⟩
abbrev cc5_stg6_0 : Ref sig .tc := ⟨.vmem, 49, rfl⟩
abbrev cc5_stg7_0 : Ref sig .tc := ⟨.vmem, 50, rfl⟩
abbrev cc5_stg7_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem3_1 : DmaSem sig := 28
abbrev cc3_sem4_0 : DmaSem sig := 29
abbrev cc3_sem5_0 : DmaSem sig := 30
abbrev cc3_sem6_0 : DmaSem sig := 31
abbrev cc3_sem7_0 : DmaSem sig := 32
abbrev cc3_sem7_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem2_1 : DmaSem sig := 38
abbrev cc5_sem0_0 : DmaSem sig := 39
abbrev cc5_sem0_1 : DmaSem sig := 40
abbrev cc5_sem1_0 : DmaSem sig := 41
abbrev cc5_sem1_1 : DmaSem sig := 42
abbrev cc5_sem2_0 : DmaSem sig := 43
abbrev cc5_sem2_1 : DmaSem sig := 44
abbrev cc5_sem3_0 : DmaSem sig := 45
abbrev cc5_sem3_1 : DmaSem sig := 46
abbrev cc5_sem4_0 : DmaSem sig := 47
abbrev cc5_sem5_0 : DmaSem sig := 48
abbrev cc5_sem6_0 : DmaSem sig := 49
abbrev cc5_sem7_0 : DmaSem sig := 50
abbrev cc5_sem7_1 : DmaSem sig := 51

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S2000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  shapeCasts_S50000_S50000x1 : S50000.ShapeCasts S50000x1
  slices_S3x128x128_S1x128x128_0_0_0 : S3x128x128.Slices ![0, 0, 0] S1x128x128
  shapeCasts_S1x128x128_S128x128 : S1x128x128.ShapeCasts S128x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  shapeCasts_S128_S1x128 : S128.ShapeCasts S1x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S2000x128_S2000x128 : S2000x128.ShapeCasts S2000x128
  reduces_S2000x128_S2000 : S2000x128.Reduces [1] S2000
  shapeCasts_S2000_S2000x1 : S2000.ShapeCasts S2000x1
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x128.size a ≤ S50000x128.size a
  hwx3_7 : ∀ i : grid3.Coords, EltTy.bits .f32 = 32 ∨ (Rect.block (s := S50000x128) S2000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .f32 = 32 ∨ (Rect.block (s := S50000x128) S2000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .f32 = 32 ∨ (Rect.block (s := S50000x1) S2000x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S50000x128.size a
  hwx5_3 : ∀ i : grid5.Coords, EltTy.bits .f32 = 32 ∨ (Rect.block (s := S50000x128) S2000x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S2000x128.size a ≤ S50000x128.size a
  hwx5_7 : ∀ i : grid5.Coords, EltTy.bits .f32 = 32 ∨ (Rect.block (s := S50000x128) S2000x128.size (cc5_transform_7 i) (hinb5_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v54) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v55) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v56) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v57) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v57) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v88) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v16) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v57) S2000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v95) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v96) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v97) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v98) S2000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v98) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v100) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v101) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v129) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v101) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v16) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v98) S2000x128.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v136) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v137) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v138) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v139) S2000x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S800000x128 : Shape := ⟨2, ![800000, 128]⟩
abbrev S50000x1 : Shape := ⟨2, ![50000, 1]⟩

abbrev nBuf : Space → Nat
  | .hbm => 281
  | .vmem => 0
  | .smem => 0
  | _ => 0

abbrev hbmTy0_0 (i : Nat) : BufTy := match i % 128 with
  | 0 => ⟨S50000x128, .f32⟩
  | 1 => ⟨S2x800000, .i32⟩
  | 2 => ⟨S3x128x128, .f32⟩
  | 3 => ⟨S3x128, .f32⟩
  | 4 => ⟨S3x128, .f32⟩
  | 5 => ⟨S3x128, .f32⟩
  | 6 => ⟨S1x800000, .i32⟩
  | 7 => ⟨S800000, .i32⟩
  | 8 => ⟨S1x800000, .i32⟩
  | 9 => ⟨S800000, .i32⟩
  | 10 => ⟨S_, .f32⟩
  | 11 => ⟨S50000, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S_, .f32⟩
  | 21 => ⟨S800000, .f32⟩
  | 22 => ⟨S50000, .f32⟩
  | 23 => ⟨S_, .f32⟩
  | 24 => ⟨S50000, .f32⟩
  | 25 => ⟨S50000, .f32⟩
  | 26 => ⟨S50000, .f32⟩
  | 27 => ⟨S1x128x128, .f32⟩
  | 28 => ⟨S128x128, .f32⟩
  | 29 => ⟨S1x128, .f32⟩
  | 30 => ⟨S128, .f32⟩
  | 31 => ⟨S50000x128, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000, .f32⟩
  | 50 => ⟨S800000, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x128, .f32⟩
  | 60 => ⟨S800000x1, .f32⟩
  | 61 => ⟨S800000x128, .f32⟩
  | 62 => ⟨S800000x128, .f32⟩
  | 63 => ⟨S_, .f32⟩
  | 64 => ⟨S50000x128, .f32⟩
  | 65 => ⟨S800000x1, .i32⟩
  | 66 => ⟨S50000x128, .f32⟩
  | 67 => ⟨S50000, .f32⟩
  | 68 => ⟨S50000x1, .f32⟩
  | 69 => ⟨S50000x128, .f32⟩
  | 70 => ⟨S50000x128, .f32⟩
  | 71 => ⟨S50000x128, .f32⟩
  | 72 => ⟨S1x128, .f32⟩
  | 73 => ⟨S50000x128, .f32⟩
  | 74 => ⟨S50000x128, .f32⟩
  | 75 => ⟨S1x128, .f32⟩
  | 76 => ⟨S128, .f32⟩
  | 77 => ⟨S1x128, .f32⟩
  | 78 => ⟨S128, .f32⟩
  | 79 => ⟨S_, .f32⟩
  | 80 => ⟨S50000, .f32⟩
  | 81 => ⟨S50000x1, .f32⟩
  | 82 => ⟨S_, .f32⟩
  | 83 => ⟨S50000x1, .f32⟩
  | 84 => ⟨S50000x1, .f32⟩
  | 85 => ⟨S50000x128, .f32⟩
  | 86 => ⟨S50000x128, .f32⟩
  | 87 => ⟨S50000x128, .f32⟩
  | 88 => ⟨S_, .f32⟩
  | 89 => ⟨S50000, .f32⟩
  | 90 => ⟨S50000x1, .f32⟩
  | 91 => ⟨S_, .f32⟩
  | 92 => ⟨S50000x1, .f32⟩
  | 93 => ⟨S50000x1, .f32⟩
  | 94 => ⟨S50000x128, .f32⟩
  | 95 => ⟨S50000x128, .f32⟩
  | 96 => ⟨S_, .f32⟩
  | 97 => ⟨S50000x1, .f32⟩
  | 98 => ⟨S50000x1, .f32⟩
  | 99 => ⟨S50000x1, .f32⟩
  | 100 => ⟨S50000x128, .f32⟩
  | 101 => ⟨S50000x128, .f32⟩
  | 102 => ⟨S1x128, .f32⟩
  | 103 => ⟨S50000x128, .f32⟩
  | 104 => ⟨S50000x128, .f32⟩
  | 105 => ⟨S1x128, .f32⟩
  | 106 => ⟨S50000x128, .f32⟩
  | 107 => ⟨S50000x128, .f32⟩
  | 108 => ⟨S_, .f32⟩
  | 109 => ⟨S50000x128, .f32⟩
  | 110 => ⟨S50000x128, .f32⟩
  | 111 => ⟨S1x128x128, .f32⟩
  | 112 => ⟨S128x128, .f32⟩
  | 113 => ⟨S1x128, .f32⟩
  | 114 => ⟨S128, .f32⟩
  | 115 => ⟨S50000x128, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S800000, .f32⟩
  | 125 => ⟨S_, .i32⟩
  | 126 => ⟨S800000, .i32⟩
  | 127 => ⟨S800000, .i1⟩
  | _ => ⟨S50000x128, .f32⟩

abbrev hbmTy0_1 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S800000, .f32⟩
  | 6 => ⟨S800000, .f32⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S800000x128, .f32⟩
  | 16 => ⟨S800000x1, .f32⟩
  | 17 => ⟨S800000x128, .f32⟩
  | 18 => ⟨S800000x128, .f32⟩
  | 19 => ⟨S_, .f32⟩
  | 20 => ⟨S50000x128, .f32⟩
  | 21 => ⟨S800000x1, .i32⟩
  | 22 => ⟨S50000x128, .f32⟩
  | 23 => ⟨S50000, .f32⟩
  | 24 => ⟨S50000x1, .f32⟩
  | 25 => ⟨S50000x128, .f32⟩
  | 26 => ⟨S50000x128, .f32⟩
  | 27 => ⟨S50000x128, .f32⟩
  | 28 => ⟨S1x128, .f32⟩
  | 29 => ⟨S50000x128, .f32⟩
  | 30 => ⟨S50000x128, .f32⟩
  | 31 => ⟨S1x128, .f32⟩
  | 32 => ⟨S128, .f32⟩
  | 33 => ⟨S1x128, .f32⟩
  | 34 => ⟨S128, .f32⟩
  | 35 => ⟨S_, .f32⟩
  | 36 => ⟨S50000, .f32⟩
  | 37 => ⟨S50000x1, .f32⟩
  | 38 => ⟨S_, .f32⟩
  | 39 => ⟨S50000x1, .f32⟩
  | 40 => ⟨S50000x1, .f32⟩
  | 41 => ⟨S50000x128, .f32⟩
  | 42 => ⟨S50000x128, .f32⟩
  | 43 => ⟨S50000x128, .f32⟩
  | 44 => ⟨S_, .f32⟩
  | 45 => ⟨S50000, .f32⟩
  | 46 => ⟨S50000x1, .f32⟩
  | 47 => ⟨S_, .f32⟩
  | 48 => ⟨S50000x1, .f32⟩
  | 49 => ⟨S50000x1, .f32⟩
  | 50 => ⟨S50000x128, .f32⟩
  | 51 => ⟨S50000x128, .f32⟩
  | 52 => ⟨S_, .f32⟩
  | 53 => ⟨S50000x1, .f32⟩
  | 54 => ⟨S50000x1, .f32⟩
  | 55 => ⟨S50000x1, .f32⟩
  | 56 => ⟨S50000x128, .f32⟩
  | 57 => ⟨S50000x128, .f32⟩
  | 58 => ⟨S1x128, .f32⟩
  | 59 => ⟨S50000x128, .f32⟩
  | 60 => ⟨S50000x128, .f32⟩
  | 61 => ⟨S1x128, .f32⟩
  | 62 => ⟨S50000x128, .f32⟩
  | 63 => ⟨S50000x128, .f32⟩
  | 64 => ⟨S_, .f32⟩
  | 65 => ⟨S50000x128, .f32⟩
  | 66 => ⟨S50000x128, .f32⟩
  | 67 => ⟨S50000x128, .f32⟩
  | 68 => ⟨S1x128x128, .f32⟩
  | 69 => ⟨S128x128, .f32⟩
  | 70 => ⟨S1x128, .f32⟩
  | 71 => ⟨S128, .f32⟩
  | 72 => ⟨S50000x128, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000, .f32⟩
  | 91 => ⟨S800000, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x128, .f32⟩
  | 101 => ⟨S800000x1, .f32⟩
  | 102 => ⟨S800000x128, .f32⟩
  | 103 => ⟨S800000x128, .f32⟩
  | 104 => ⟨S_, .f32⟩
  | 105 => ⟨S50000x128, .f32⟩
  | 106 => ⟨S800000x1, .i32⟩
  | 107 => ⟨S50000x128, .f32⟩
  | 108 => ⟨S50000, .f32⟩
  | 109 => ⟨S50000x1, .f32⟩
  | 110 => ⟨S50000x128, .f32⟩
  | 111 => ⟨S50000x128, .f32⟩
  | 112 => ⟨S50000x128, .f32⟩
  | 113 => ⟨S1x128, .f32⟩
  | 114 => ⟨S50000x128, .f32⟩
  | 115 => ⟨S50000x128, .f32⟩
  | 116 => ⟨S1x128, .f32⟩
  | 117 => ⟨S128, .f32⟩
  | 118 => ⟨S1x128, .f32⟩
  | 119 => ⟨S128, .f32⟩
  | 120 => ⟨S_, .f32⟩
  | 121 => ⟨S50000, .f32⟩
  | 122 => ⟨S50000x1, .f32⟩
  | 123 => ⟨S_, .f32⟩
  | 124 => ⟨S50000x1, .f32⟩
  | 125 => ⟨S50000x1, .f32⟩
  | 126 => ⟨S50000x128, .f32⟩
  | 127 => ⟨S50000x128, .f32⟩
  | _ => ⟨S50000x128, .f32⟩

abbrev hbmTy0_2 (i : Nat) : BufTy := match i % 128 with
  | 0 => ⟨S50000x128, .f32⟩
  | 1 => ⟨S_, .f32⟩
  | 2 => ⟨S50000, .f32⟩
  | 3 => ⟨S50000x1, .f32⟩
  | 4 => ⟨S_, .f32⟩
  | 5 => ⟨S50000x1, .f32⟩
  | 6 => ⟨S50000x1, .f32⟩
  | 7 => ⟨S50000x128, .f32⟩
  | 8 => ⟨S50000x128, .f32⟩
  | 9 => ⟨S_, .f32⟩
  | 10 => ⟨S50000x1, .f32⟩
  | 11 => ⟨S50000x1, .f32⟩
  | 12 => ⟨S50000x1, .f32⟩
  | 13 => ⟨S50000x128, .f32⟩
  | 14 => ⟨S50000x128, .f32⟩
  | 15 => ⟨S1x128, .f32⟩
  | 16 => ⟨S50000x128, .f32⟩
  | 17 => ⟨S50000x128, .f32⟩
  | 18 => ⟨S1x128, .f32⟩
  | 19 => ⟨S50000x128, .f32⟩
  | 20 => ⟨S50000x128, .f32⟩
  | 21 => ⟨S_, .f32⟩
  | 22 => ⟨S50000x128, .f32⟩
  | 23 => ⟨S50000x128, .f32⟩
  | 24 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_7 : Ref sig .tc := ⟨.hbm, 51, rfl⟩
abbrev main_v36 : Ref sig .tc := ⟨.hbm, 52, rfl⟩
abbrev main_v37 : Ref sig .tc := ⟨.hbm, 53, rfl⟩
abbrev main_c_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_10 : Ref sig .tc := ⟨.hbm, 79, rfl⟩
abbrev main_v61 : Ref sig .tc := ⟨.hbm, 80, rfl⟩
abbrev main_v62 : Ref sig .tc := ⟨.hbm, 81, rfl⟩
abbrev main_cst_11 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_12 : Ref sig .tc := ⟨.hbm, 88, rfl⟩
abbrev main_v68 : Ref sig .tc := ⟨.hbm, 89, rfl⟩
abbrev main_v69 : Ref sig .tc := ⟨.hbm, 90, rfl⟩
abbrev main_cst_13 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_14 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_call0_cst : Ref sig .tc := ⟨.hbm, 108, rfl⟩
abbrev main_call0_v0 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_c_15 : Ref sig .tc := ⟨.hbm, 116, rfl⟩
abbrev main_v91 : Ref sig .tc := ⟨.hbm, 117, rfl⟩
abbrev main_v92 : Ref sig .tc := ⟨.hbm, 118, rfl⟩
abbrev main_c_16 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_c_17 : Ref sig .tc := ⟨.hbm, 125, rfl⟩
abbrev main_v98 : Ref sig .tc := ⟨.hbm, 126, rfl⟩
abbrev main_v99 : Ref sig .tc := ⟨.hbm, 127, rfl⟩
abbrev main_c_18 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_c_19 : Ref sig .tc := ⟨.hbm, 135, rfl⟩
abbrev main_v106 : Ref sig .tc := ⟨.hbm, 136, rfl⟩
abbrev main_v107 : Ref sig .tc := ⟨.hbm, 137, rfl⟩
abbrev main_c_20 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_cst_21 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_cst_22 : Ref sig .tc := ⟨.hbm, 163, rfl⟩
abbrev main_v131 : Ref sig .tc := ⟨.hbm, 164, rfl⟩
abbrev main_v132 : Ref sig .tc := ⟨.hbm, 165, rfl⟩
abbrev main_cst_23 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_cst_24 : Ref sig .tc := ⟨.hbm, 172, rfl⟩
abbrev main_v138 : Ref sig .tc := ⟨.hbm, 173, rfl⟩
abbrev main_v139 : Ref sig .tc := ⟨.hbm, 174, rfl⟩
abbrev main_cst_25 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_cst_26 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_call1_cst : Ref sig .tc := ⟨.hbm, 192, rfl⟩
abbrev main_call1_v0 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_c_27 : Ref sig .tc := ⟨.hbm, 201, rfl⟩
abbrev main_v162 : Ref sig .tc := ⟨.hbm, 202, rfl⟩
abbrev main_v163 : Ref sig .tc := ⟨.hbm, 203, rfl⟩
abbrev main_c_28 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_c_29 : Ref sig .tc := ⟨.hbm, 210, rfl⟩
abbrev main_v169 : Ref sig .tc := ⟨.hbm, 211, rfl⟩
abbrev main_v170 : Ref sig .tc := ⟨.hbm, 212, rfl⟩
abbrev main_c_30 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_c_31 : Ref sig .tc := ⟨.hbm, 220, rfl⟩
abbrev main_v177 : Ref sig .tc := ⟨.hbm, 221, rfl⟩
abbrev main_v178 : Ref sig .tc := ⟨.hbm, 222, rfl⟩
abbrev main_c_32 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_cst_33 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_cst_34 : Ref sig .tc := ⟨.hbm, 248, rfl⟩
abbrev main_v202 : Ref sig .tc := ⟨.hbm, 249, rfl⟩
abbrev main_v203 : Ref sig .tc := ⟨.hbm, 250, rfl⟩
abbrev main_cst_35 : Ref sig .tc := ⟨.hbm, 251, rfl⟩
abbrev main_v204 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_cst_36 : Ref sig .tc := ⟨.hbm, 257, rfl⟩
abbrev main_v209 : Ref sig .tc := ⟨.hbm, 258, rfl⟩
abbrev main_v210 : Ref sig .tc := ⟨.hbm, 259, rfl⟩
abbrev main_cst_37 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_cst_38 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_v225 : Ref sig .tc := ⟨.hbm, 276, rfl⟩
abbrev main_call2_cst : Ref sig .tc := ⟨.hbm, 277, rfl⟩
abbrev main_call2_v0 : Ref sig .tc := ⟨.hbm, 278, rfl⟩
abbrev main_v226 : Ref sig .tc := ⟨.hbm, 279, rfl⟩
abbrev main_v227 : Ref sig .tc := ⟨.hbm, 280, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KRun.lean ====
/-
  The idealized kernel's run with its result named.

  The program is twelve segments: six stretches of host operations and six pipelined kernel launches.  Every buffer that
  is not scoped to a launch ends at the contents the segments' fold `Gen.W12` assigns to it, so in particular the result
  buffer does; the six argument arrays end as launched.  Which array of numbers `Gen.W12` holds at the result buffer is
  the subject of the other modules.
-/
import proofs.«167512_j63471026700852_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents, and the arguments end as launched. -/
theorem run_value : θ_run defs (onTc (τ := τ) (main (F := F))) ⟨m, fun _ => 0, ρ⟩ (fun r => ∀ c : Dev nD,
      r.2.mem ((c.tc : Thread nD τ).loc main_v139) = W12 m ρ c (Proc.devRef .tc main_v139)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v139 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c)⟩)

end Cert.KernelIdeal.RunValue

end
-- ==== Proof.Spec.lean ====
/-
  The mathematics of one graph-convolution layer, stated once over the extended reals with no program in sight.

  A layer takes the node features `h` ([50000, 128]), multiplies them by a weight matrix (`mm`), aggregates the
  products along the edges (a gather / scatter-add pair that both programs perform with the same host operations and that
  is therefore never opened here), and then, row by row, adds the self-loop term and the bias, normalises the row
  (mean, variance, reciprocal square root), scales and shifts it, and clamps it at zero (`lnRelu`).  From the second
  layer on the layer's input is added back (`fusedRes`).  Every sum is over the 128 features of one row, so nothing
  here depends on how the 50000 rows are cut into blocks.
-/
import Idealize.ShloMosaic.PureOps.Ideal
import Idealize.ShloMosaic.Lib.ValueIdx

noncomputable section

namespace Cert.Gcn

open Idealize.ShloMosaic Idealize.ShloMosaic.ValueIdx

/-- The literal shapes: node features, a weight matrix, a per-node vector, a per-feature vector. -/
abbrev SNxD : Shape := ⟨2, ![50000, 128]⟩
abbrev SDxD : Shape := ⟨2, ![128, 128]⟩
abbrev SNx1 : Shape := ⟨2, ![50000, 1]⟩
abbrev S1xD : Shape := ⟨2, ![1, 128]⟩
abbrev SNv : Shape := ⟨1, ![50000]⟩
abbrev SDv : Shape := ⟨1, ![128]⟩

/-- The number 128 (the row length the mean divides by), the variance's epsilon and the clamp's zero, each as the
    extended real its f32 pattern denotes. Both programs spell the same three patterns, so none is ever evaluated. -/
def c128 : EReal := Ideal.ofBits .f32 0x43000000#32
def eps : EReal := Ideal.ofBits .f32 0x3727C5AC#32
def zero : EReal := Ideal.ofBits .f32 0x00000000#32

/-- Entry (r, j) of the product of the feature matrix with a weight matrix. -/
def mm (x : SNxD.Idx → EReal) (w : SDxD.Idx → EReal) (r : Fin 50000) (j : Fin 128) : EReal :=
  ∑ k : Fin 128, x (ix2 r k) * w (ix2 k j)

/-- The product as an array. -/
def mmA (x : SNxD.Idx → EReal) (w : SDxD.Idx → EReal) : SNxD.Idx → EReal :=
  fun i => mm x w (i 0) (i 1)

/-- The mean of a row of 128 entries. -/
def mean (p : Fin 128 → EReal) : EReal := Ideal.div (∑ k : Fin 128, p k) c128

/-- Entry j of a row after layer normalisation with scale `g` and shift `be`, clamped at zero:
    max (((p j − μ) · rsqrt (σ² + ε)) · g j + be j, 0), μ the row's mean and σ² the mean of the squared deviations. -/
def lnRelu (p g be : Fin 128 → EReal) (j : Fin 128) : EReal :=
  max (((p j - mean p) * Ideal.rsqrt (mean (fun k => (p k - mean p) * (p k - mean p)) + eps)) * g j + be j) zero

/-- Entry k of row r before normalisation: the aggregated messages, plus the node's own product scaled by the square
    of its normalising factor (the self loop), plus the bias — added in this order. -/
def pre (agg hmm : SNxD.Idx → EReal) (d : Fin 50000 → EReal) (b : Fin 128 → EReal) (r : Fin 50000) (k : Fin 128) : EReal :=
  (agg (ix2 r k) + hmm (ix2 r k) * (d r * d r)) + b k

/-- A layer's output array without the residual: each row normalised and clamped. -/
def fused (agg hmm : SNxD.Idx → EReal) (d : Fin 50000 → EReal) (b g be : Fin 128 → EReal) : SNxD.Idx → EReal :=
  fun i => lnRelu (pre agg hmm d b (i 0)) g be (i 1)

/-- A layer's output array with the residual: the layer's input plus the normalised, clamped row. -/
def fusedRes (agg hmm hin : SNxD.Idx → EReal) (d : Fin 50000 → EReal) (b g be : Fin 128 → EReal) : SNxD.Idx → EReal :=
  fun i => hin i + fused agg hmm d b g be i

end Cert.Gcn

end
-- ==== Proof.Glue.lean ====
/-
  The host operations that both programs apply unchanged, named once.

  Both the kernel's program and the reference compute, with the same host operations in the same order:
  the edge list's two rows (`srcOf`, `dstOf`), the nodes' normalising factors from the in-degrees
  (`dinvOf`: one over the square root of in-degree plus one), the wrap of a possibly negative index (`wrap`),
  the aggregation of a layer's products along the edges (`aggOf`: gather at the sources, scale by the two
  endpoints' factors, scatter-add at the destinations), and the slices of the stacked parameters (`wOf`, `vecOf`).
  None of them is opened by the proof: it only needs that equal inputs give equal outputs.  `forward` composes them
  with the layer's arithmetic into the network's result, the function both programs are shown to compute.
-/
import proofs.«167512_j63471026700852_1_alg».proof.KernelIdeal
import proofs.«167512_j63471026700852_1_alg».proof.Proof.Spec

noncomputable section

namespace Cert.Gcn

open Idealize.ShloMosaic Idealize.ShloMosaic.ValueIdx Cert.KernelIdeal Cert.KernelIdeal.Facts₀

variable [Cert.KernelIdeal.Facts]

abbrev FArr (s : Shape) := FVec Ideal s .f32
abbrev IArr (s : Shape) := IVec s 32

/-- Row 0 of the edge list: the edges' sources. -/
def srcOf (e : IArr S2x800000) : IArr S800000 :=
  shapeCast _ (extractStridedSlice S1x800000 ![0, 0] e slices_S2x800000_S1x800000_0_0) shapeCasts_S1x800000_S800000

/-- Row 1 of the edge list: the edges' destinations. -/
def dstOf (e : IArr S2x800000) : IArr S800000 :=
  shapeCast _ (extractStridedSlice S1x800000 ![1, 0] e slices_S2x800000_S1x800000_1_0) shapeCasts_S1x800000_S800000

/-- An index vector with negative entries wrapped around by 50000, as a column of indices. -/
def wrap (v : IArr S800000) : IArr S800000x1 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The nodes' normalising factors: one over the square root of (in-degree + 1). -/
def dinvOf (e : IArr S2x800000) : FArr S50000 :=
  Host.rsqrt (addf
    (Host.scatterAdd scatter_S50000_S800000x1_S800000_n_0_0_1
      (broadcastInDim S50000 ![] bcast_S_S50000 (constant S_ .f32 0x00000000#32))
      (wrap (dstOf e))
      (broadcastInDim S800000 ![] bcast_S_S800000 (constant S_ .f32 0x3F800000#32)))
    (broadcastInDim S50000 ![] bcast_S_S50000 (constant S_ .f32 0x3F800000#32)))

/-- A layer's products aggregated along the edges: row `src` of the products, scaled by the two endpoints' factors,
    added into row `dst`. -/
def aggOf (hmm : FArr S50000x128) (src dst : IArr S800000) (dinv : FArr S50000) : FArr S50000x128 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (mulf (Host.gather gather_S50000x128_S800000x1_S800000x128_1_0_n_n_0_1_1128 hmm (wrap src))
      (broadcastInDim S800000x128 ![0, 1] bcast_S800000x1_S800000x128_0_1
        (broadcastInDim S800000x1 ![0] bcast_S800000_S800000x1_0
          (mulf (Host.gather gather_S50000_S800000x1_S800000_n_0_n_n_0_1_1 dinv (wrap src))
            (Host.gather gather_S50000_S800000x1_S800000_n_0_n_n_0_1_1 dinv (wrap dst))))))

/-- Layer `l`'s weight matrix out of the stacked weights. -/
def wOf0 (a : FArr S3x128x128) : FArr S128x128 :=
  shapeCast _ (extractStridedSlice S1x128x128 ![0, 0, 0] a slices_S3x128x128_S1x128x128_0_0_0) shapeCasts_S1x128x128_S128x128
def wOf1 (a : FArr S3x128x128) : FArr S128x128 :=
  shapeCast _ (extractStridedSlice S1x128x128 ![1, 0, 0] a slices_S3x128x128_S1x128x128_1_0_0) shapeCasts_S1x128x128_S128x128
def wOf2 (a : FArr S3x128x128) : FArr S128x128 :=
  shapeCast _ (extractStridedSlice S1x128x128 ![2, 0, 0] a slices_S3x128x128_S1x128x128_2_0_0) shapeCasts_S1x128x128_S128x128

/-- Layer `l`'s row out of a stacked per-feature parameter (bias, scale or shift). -/
def vecOf0 (a : FArr S3x128) : FArr S128 :=
  shapeCast _ (extractStridedSlice S1x128 ![0, 0] a slices_S3x128_S1x128_0_0) shapeCasts_S1x128_S128
def vecOf1 (a : FArr S3x128) : FArr S128 :=
  shapeCast _ (extractStridedSlice S1x128 ![1, 0] a slices_S3x128_S1x128_1_0) shapeCasts_S1x128_S128
def vecOf2 (a : FArr S3x128) : FArr S128 :=
  shapeCast _ (extractStridedSlice S1x128 ![2, 0] a slices_S3x128_S1x128_2_0) shapeCasts_S1x128_S128

/-- A per-node vector and a per-feature vector read at a node and at a feature. -/
abbrev atNode (d : FArr S50000) : Fin 50000 → EReal := fun r => d (ix1 r)
abbrev atFeat (v : FArr S128) : Fin 128 → EReal := fun k => v (ix1 k)

/-- The first layer: no residual. -/
def layer0 (h : FArr S50000x128) (e : IArr S2x800000) (w : FArr S128x128) (b g be : FArr S128) : FArr S50000x128 :=
  fused (aggOf (mmA h w) (srcOf e) (dstOf e) (dinvOf e)) (mmA h w) (atNode (dinvOf e)) (atFeat b) (atFeat g) (atFeat be)

/-- A later layer: the layer's input is added back. -/
def layerR (h : FArr S50000x128) (e : IArr S2x800000) (w : FArr S128x128) (b g be : FArr S128) : FArr S50000x128 :=
  fusedRes (aggOf (mmA h w) (srcOf e) (dstOf e) (dinvOf e)) (mmA h w) h (atNode (dinvOf e)) (atFeat b) (atFeat g) (atFeat be)

/-- The network: three layers over the same graph. -/
def forward (x : FArr S50000x128) (e : IArr S2x800000) (ws : FArr S3x128x128) (bs gs bes : FArr S3x128) : FArr S50000x128 :=
  layerR (layerR (layer0 x e (wOf0 ws) (vecOf0 bs) (vecOf0 gs) (vecOf0 bes))
      e (wOf1 ws) (vecOf1 bs) (vecOf1 gs) (vecOf1 bes))
    e (wOf2 ws) (vecOf2 bs) (vecOf2 gs) (vecOf2 bes)

end Cert.Gcn

end
-- ==== Proof.Keep.lean ====
/-
  What each stretch of host operations leaves alone.

  The program's buffer contents are followed through twelve boundaries: before and after each of six stretches of host
  operations and six launches.  A stretch changes only the buffers its operations write, and a launch only its result
  array; every other buffer holds at the next boundary what it held at the previous one.  This module lists, per stretch, the
  buffers it writes, and states the "left alone" fact once per stretch.
-/
import proofs.«167512_j63471026700852_1_alg».proof.Proof.Gen.KernelIdeal.Frame

set_option maxRecDepth 16384

noncomputable section

namespace Cert.KernelIdeal.Keep

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- The buffers stretch 0's operations write. -/
abbrev hostOps0_W : List (Ref sig .tc) := [main_v0, main_v1, main_v2, main_v3, main_cst, main_v4, main_c, main_v5, main_v6, main_c_0, main_v7, main_v8, main_v9, main_v10, main_cst_1, main_v11, main_v12, main_cst_2, main_v13, main_v14, main_v15, main_v16, main_v17, main_v18]
theorem hostOps0_writes : (hostOps0 : List (HloOp τ sig (Elt F))).Forall fun op => op.writes ⊆ (hostOps0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer stretch 0 does not write holds after it what it held before. -/
theorem keepH0 (c : Dev nD) (r : Ref sig .tc) (h : r ∉ (hostOps0_W : List (Ref sig .tc))) :
    W1 m ρ c (Proc.devRef .tc r) = W0 m ρ c (Proc.devRef .tc r) :=
  StableHlo.after_of_writes_sub hostOps0 _ (hostOps0_writes (F := F)) h

/-- The buffers stretch 1's operations write. -/
abbrev hostOps1_W : List (Ref sig .tc) := [main_c_3, main_v20, main_v21, main_c_4, main_v22, main_v23, main_v24, main_v25, main_v26, main_c_5, main_v27, main_v28, main_c_6, main_v29, main_v30, main_v31, main_v32, main_v33, main_v34, main_c_7, main_v35, main_v36, main_c_8, main_v37, main_v38, main_v39, main_v40, main_v41, main_v42, main_v43, main_v44, main_cst_9, main_v45, main_v46, main_v47, main_v48, main_v49, main_v50, main_v51, main_v52, main_v53, main_v54, main_v55, main_v56]
theorem hostOps1_writes : (hostOps1 : List (HloOp τ sig (Elt F))).Forall fun op => op.writes ⊆ (hostOps1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer stretch 1 does not write holds after it what it held before. -/
theorem keepH1 (c : Dev nD) (r : Ref sig .tc) (h : r ∉ (hostOps1_W : List (Ref sig .tc))) :
    W3 m ρ c (Proc.devRef .tc r) = W2 m ρ c (Proc.devRef .tc r) :=
  StableHlo.after_of_writes_sub hostOps1 _ (hostOps1_writes (F := F)) h

/-- The buffers stretch 2's operations write. -/
abbrev hostOps2_W : List (Ref sig .tc) := [main_v58, main_v59]
theorem hostOps2_writes : (hostOps2 : List (HloOp τ sig (Elt F))).Forall fun op => op.writes ⊆ (hostOps2_W.map (Proc.devRef (τ := τ) .tc)).toFinset := by
  simp only [List.Forall]
  refine ⟨?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer stretch 2 does not write holds after it what it held before. -/
theorem keepH2 (c : Dev nD) (r : Ref sig .tc) (h : r ∉ (hostOps2_W : List (Ref sig .tc))) :
    W5 m ρ c (Proc.devRef .tc r) = W4 m ρ c (Proc.devRef .tc r) :=
  StableHlo.after_of_writes_sub hostOps2 _ (hostOps2_writes (F := F)) h

/-- The buffers stretch 3's operations write. -/
abbrev hostOps3_W : List (Ref sig .tc) := [main_c_10, main_v61, main_v62, main_c_11, main_v63, main_v64, main_v65, main_v66, main_v67, main_c_12, main_v68, main_v69, main_c_13, main_v70, main_v71, main_v72, main_v73, main_v74, main_v75, main_c_14, main_v76, main_v77, main_c_15, main_v78, main_v79, main_v80, main_v81, main_v82, main_v83, main_v84, main_v85, main_cst_16, main_v86, main_v87, main_v88, main_v89, main_v90, main_v91, main_v92, main_v93, main_v94, main_v95, main_v96, main_v97]
theorem hostOps3_writes : (hostOps3 : List (HloOp τ sig (Elt F))).Forall fun op => op.writes ⊆ (hostOps3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer stretch 3 does not write holds after it what it held before. -/
theorem keepH3 (c : Dev nD) (r : Ref sig .tc) (h : r ∉ (hostOps3_W : List (Ref sig .tc))) :
    W7 m ρ c (Proc.devRef .tc r) = W6 m ρ c (Proc.devRef .tc r) :=
  StableHlo.after_of_writes_sub hostOps3 _ (hostOps3_writes (F := F)) h

/-- The buffers stretch 4's operations write. -/
abbrev hostOps4_W : List (Ref sig .tc) := [main_v99, main_v100]
theorem hostOps4_writes : (hostOps4 : List (HloOp τ sig (Elt F))).Forall fun op => op.writes ⊆ (hostOps4_W.map (Proc.devRef (τ := τ) .tc)).toFinset := by
  simp only [List.Forall]
  refine ⟨?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer stretch 4 does not write holds after it what it held before. -/
theorem keepH4 (c : Dev nD) (r : Ref sig .tc) (h : r ∉ (hostOps4_W : List (Ref sig .tc))) :
    W9 m ρ c (Proc.devRef .tc r) = W8 m ρ c (Proc.devRef .tc r) :=
  StableHlo.after_of_writes_sub hostOps4 _ (hostOps4_writes (F := F)) h

/-- The buffers stretch 5's operations write. -/
abbrev hostOps5_W : List (Ref sig .tc) := [main_c_17, main_v102, main_v103, main_c_18, main_v104, main_v105, main_v106, main_v107, main_v108, main_c_19, main_v109, main_v110, main_c_20, main_v111, main_v112, main_v113, main_v114, main_v115, main_v116, main_c_21, main_v117, main_v118, main_c_22, main_v119, main_v120, main_v121, main_v122, main_v123, main_v124, main_v125, main_v126, main_cst_23, main_v127, main_v128, main_v129, main_v130, main_v131, main_v132, main_v133, main_v134, main_v135, main_v136, main_v137, main_v138]
theorem hostOps5_writes : (hostOps5 : List (HloOp τ sig (Elt F))).Forall fun op => op.writes ⊆ (hostOps5_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer stretch 5 does not write holds after it what it held before. -/
theorem keepH5 (c : Dev nD) (r : Ref sig .tc) (h : r ∉ (hostOps5_W : List (Ref sig .tc))) :
    W11 m ρ c (Proc.devRef .tc r) = W10 m ρ c (Proc.devRef .tc r) :=
  StableHlo.after_of_writes_sub hostOps5 _ (hostOps5_writes (F := F)) h

end Cert.KernelIdeal.Keep

end
-- ==== Proof.Blocks.lean ====
/-
  Each launch's body, read at an entry of the block it stores.

  A dense-product launch stores, at row p and column q of its block, the sum over k of the left block's entry (p, k) times
  the weight matrix's entry (k, q).  A fused launch stores the normalised, clamped row entry: the pre-normalisation row is
  the aggregated messages plus the node's own product scaled by the square of its factor plus the bias; from the second
  layer on the layer's input is added in front.
-/
import proofs.«167512_j63471026700852_1_alg».proof.Proof.Gen.KernelIdeal.Frame
import proofs.«167512_j63471026700852_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Blocks

open Idealize.ShloMosaic Idealize.ShloMosaic.ValueIdx Cert.KernelIdeal Cert.KernelIdeal.Gen

variable [Cert.KernelIdeal.Facts]

/-! ## Layout operations of a row-wise body, read at an entry -/

section Layout
variable {α : Type}

/-- Both offsets of a whole-block rectangle are zero. -/
theorem zeros2 : (![0, 0] : Fin 2 → Nat) = fun _ => 0 := funext fun a => by fin_cases a <;> rfl

/-- A vector of length `a` viewed as a column `[a, 1]` reads, at `(i, u)`, the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows of an `[a, b]` array reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The sum along the 128 entries of each row: the reduction of a `[2000, 128]` array along its second axis, from a zero
    accumulator, reads at row `r` the bare sum of the row's entries. -/
theorem rowSum_apply (src : FVec Ideal S2000x128 .f32) (h : S2000x128.Reduces [1] S2000) (hφ : FKind.Formats .f32)
    (hacc : (0x00000000#32 : BitVec 32) = 0x00000000#32) (r : Fin 2000) :
    multiReduction .add [1] S2000 src 0x00000000#32 h hφ hacc (ix1 r) = ∑ k : Fin 128, src (ix2 r k) := by
  refine (Ideal.multiReduction_add_single src 0x00000000#32 h hφ hacc (ix1 r)).trans ?_
  refine Finset.sum_congr rfl fun k _ => congrArg src ?_
  funext c
  apply Fin.ext
  match c with
  | ⟨0, _⟩ => rfl
  | ⟨1, _⟩ => rfl

/-! ## The dense product -/

/-- The left operand's row coordinate at output entry `i` is `i`'s row. -/
theorem lhsIdx_row (i : S2000x128.Idx) (c : dot_S2000x128_S128x128_S2000x128_1_0_0_1_n_n.contr.Idx) :
    (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- The right operand's column coordinate at output entry `i` is `i`'s column. -/
theorem rhsIdx_col (i : S2000x128.Idx) (c : dot_S2000x128_S128x128_S2000x128_1_0_0_1_n_n.contr.Idx) :
    (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The matrix product into a zero accumulator, read at entry (p, q): the sum over the 128 contracted positions. -/
theorem matmul_ix_apply (a : FVec Ideal S2000x128 .bf16) (b : FVec Ideal S128x128 .bf16) (p : Fin 2000) (q : Fin 128) :
    matmul dot_S2000x128_S128x128_S2000x128_1_0_0_1_n_n none a b (constant S2000x128 .f32 0x00000000#32) (ix2 p q)
      = ∑ k : Fin 128, a (ix2 p k) * b (ix2 k q) := by
  refine (Ideal.matmul_constant_zero_apply dot_S2000x128_S128x128_S2000x128_1_0_0_1_n_n none a b (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k :=
    funext fun c => Fin.ext (by
      match c with
      | ⟨0, _⟩ => exact lhsIdx_row (ix2 p q) _
      | ⟨1, _⟩ => exact (dot_S2000x128_S128x128_S2000x128_1_0_0_1_n_n.lhsIdx_val_of_single rfl (ix2 p q) _).trans hk)
  have er : dot_S2000x128_S128x128_S2000x128_1_0_0_1_n_n.rhsIdx (ix2 p q) ((contrEquiv1 dot_S2000x128_S128x128_S2000x128_1_0_0_1_n_n 128 rfl rfl).symm k) = ix2 k q :=
    funext fun c => Fin.ext (by
      match c with
      | ⟨0, _⟩ => exact (dot_S2000x128_S128x128_S2000x128_1_0_0_1_n_n.rhsIdx_val_of_single rfl (ix2 p q) _).trans hk
      | ⟨1, _⟩ => exact rhsIdx_col (ix2 p q) _)
  rw [el, er]

/-- The first dense product's body at entry (p, q): the narrowing of both operands is the identity on extended reals. -/
theorem k0_pay1_apply (v0 : Vec Ideal S2000x128 .f32) (v2 : Vec Ideal S128x128 .f32) (p : Fin 2000) (q : Fin 128) :
    k0_pay1 (F := Ideal) v0 v2 (ix2 p q) = ∑ k : Fin 128, v0 (ix2 p k) * v2 (ix2 k q) := by
  unfold k0_pay1
  refine (matmul_ix_apply _ _ p q).trans ?_
  refine Finset.sum_congr rfl fun k _ => ?_
  rw [shapeCast_self]
  rfl

/-- The later dense products' body: the same, its left operand cast to its own shape first. -/
theorem k2_pay1_apply (v0 : Vec Ideal S2000x128 .f32) (v3 : Vec Ideal S128x128 .f32) (p : Fin 2000) (q : Fin 128) :
    k2_pay1 (F := Ideal) v0 v3 (ix2 p q) = ∑ k : Fin 128, v0 (ix2 p k) * v3 (ix2 k q) := by
  unfold k2_pay1
  refine (matmul_ix_apply _ _ p q).trans ?_
  refine Finset.sum_congr rfl fun k _ => ?_
  rw [shapeCast_self, shapeCast_self]
  rfl

theorem k4_pay1_apply (v0 : Vec Ideal S2000x128 .f32) (v3 : Vec Ideal S128x128 .f32) (p : Fin 2000) (q : Fin 128) :
    k4_pay1 (F := Ideal) v0 v3 (ix2 p q) = ∑ k : Fin 128, v0 (ix2 p k) * v3 (ix2 k q) :=
  k2_pay1_apply v0 v3 p q

theorem out0_2_apply (x0 : Vec Ideal S2000x128 .f32) (x1 : Vec Ideal S128x128 .f32) (y : S2000x128.Idx) :
    out0_2 (F := Ideal) x0 x1 y = ∑ k : Fin 128, x0 (ix2 (y 0) k) * x1 (ix2 k (y 1)) := by
  obtain ⟨p, q, rfl⟩ : ∃ (p : Fin 2000) (q : Fin 128), y = ix2 p q := ⟨y 0, y 1, eq_ix2 y⟩
  unfold out0_2
  rw [View.canon_unit_zero (S := S2000x128) zeros2, View.ld_unit_zero (S := S2000x128) zeros2,
    View.ld_unit_zero (S := S128x128) zeros2]
  exact k0_pay1_apply x0 x1 p q

theorem out2_2_apply (x0 : Vec Ideal S2000x128 .f32) (x1 : Vec Ideal S128x128 .f32) (y : S2000x128.Idx) :
    out2_2 (F := Ideal) x0 x1 y = ∑ k : Fin 128, x0 (ix2 (y 0) k) * x1 (ix2 k (y 1)) := by
  obtain ⟨p, q, rfl⟩ : ∃ (p : Fin 2000) (q : Fin 128), y = ix2 p q := ⟨y 0, y 1, eq_ix2 y⟩
  unfold out2_2
  rw [View.canon_unit_zero (S := S2000x128) zeros2, View.ld_unit_zero (S := S2000x128) zeros2,
    View.ld_unit_zero (S := S128x128) zeros2]
  exact k2_pay1_apply x0 x1 p q

theorem out4_2_apply (x0 : Vec Ideal S2000x128 .f32) (x1 : Vec Ideal S128x128 .f32) (y : S2000x128.Idx) :
    out4_2 (F := Ideal) x0 x1 y = ∑ k : Fin 128, x0 (ix2 (y 0) k) * x1 (ix2 k (y 1)) := by
  obtain ⟨p, q, rfl⟩ : ∃ (p : Fin 2000) (q : Fin 128), y = ix2 p q := ⟨y 0, y 1, eq_ix2 y⟩
  unfold out4_2
  rw [View.canon_unit_zero (S := S2000x128) zeros2, View.ld_unit_zero (S := S2000x128) zeros2,
    View.ld_unit_zero (S := S128x128) zeros2]
  exact k4_pay1_apply x0 x1 p q

/-! ## The fused body: self loop, bias, normalisation of the row, clamp -/

/-- The reciprocal square root of a vector at an entry is that of the entry. -/
theorem rsqrt_apply {s : Shape} {φ : FTy} (v : FVec Ideal s φ) (i : s.Idx) : rsqrt v i = Ideal.rsqrt (v i) := rfl

/-- The row before normalisation at (r, k): the aggregated messages, plus the node's own product times the square of the
    node's factor (the factor column read twice and multiplied), plus the bias, in this order. -/
theorem k1_pay4_apply (v0 v2 : Vec Ideal S2000x1 .f32) (v7 : Vec Ideal S1x128 .f32) (v19 v21 : Vec Ideal S2000x128 .f32) (r : Fin 2000) (k : Fin 128) :
    k1_pay4 (F := Ideal) v0 v2 v7 v19 v21 (ix2 r k)
      = (v19 (ix2 r k) + v21 (ix2 r k) * (v0 (ix2 r (0 : Fin 1)) * v2 (ix2 r (0 : Fin 1)))) + v7 (ix2 (0 : Fin 1) k) := by
  unfold k1_pay4
  simp only [shapeCast_self, addf_apply, mulf_apply, broadcastTo_a1_ab_apply, broadcastTo_1b_ab_apply]

/-- The row's mean, kept as a column: the bare sum of the row over 128. -/
theorem k1_pay5_apply (v0 v2 : Vec Ideal S2000x1 .f32) (v7 : Vec Ideal S1x128 .f32) (v19 v21 : Vec Ideal S2000x128 .f32) (r : Fin 2000) (u : Fin 1) :
    k1_pay5 (F := Ideal) v0 v2 v7 v19 v21 (ix2 r u) = Gcn.mean (fun k => k1_pay4 (F := Ideal) v0 v2 v7 v19 v21 (ix2 r k)) := by
  unfold k1_pay5
  simp only [divf_apply, broadcast_apply, shapeCast_a_a1_apply]
  rw [rowSum_apply]
  rfl

/-- The deviation from the mean at (r, k). -/
theorem k1_pay7_apply (v0 v2 : Vec Ideal S2000x1 .f32) (v7 : Vec Ideal S1x128 .f32) (v19 v21 : Vec Ideal S2000x128 .f32) (r : Fin 2000) (k : Fin 128) :
    k1_pay7 (F := Ideal) v0 v2 v7 v19 v21 (ix2 r k)
      = k1_pay4 (F := Ideal) v0 v2 v7 v19 v21 (ix2 r k) - Gcn.mean (fun k => k1_pay4 (F := Ideal) v0 v2 v7 v19 v21 (ix2 r k)) := by
  unfold k1_pay7
  simp only [subf_apply, broadcastTo_a1_ab_apply, k1_pay5_apply]

/-- The row's variance, kept as a column: the mean of the squared deviations. -/
theorem k1_pay6_apply (v0 v2 : Vec Ideal S2000x1 .f32) (v7 : Vec Ideal S1x128 .f32) (v19 v21 : Vec Ideal S2000x128 .f32) (r : Fin 2000) (u : Fin 1) :
    k1_pay6 (F := Ideal) v0 v2 v7 v19 v21 (ix2 r u)
      = Gcn.mean (fun k => (k1_pay4 (F := Ideal) v0 v2 v7 v19 v21 (ix2 r k) - Gcn.mean (fun k => k1_pay4 (F := Ideal) v0 v2 v7 v19 v21 (ix2 r k)))
          * (k1_pay4 (F := Ideal) v0 v2 v7 v19 v21 (ix2 r k) - Gcn.mean (fun k => k1_pay4 (F := Ideal) v0 v2 v7 v19 v21 (ix2 r k)))) := by
  unfold k1_pay6
  simp only [divf_apply, broadcast_apply, shapeCast_a_a1_apply]
  rw [rowSum_apply]
  simp only [mulf_apply, subf_apply, broadcastTo_a1_ab_apply, k1_pay5_apply]
  rfl

/-- The scale row broadcast over the block reads the row's entry k. -/
theorem k1_pay2_apply (v11 : Vec Ideal S1x128 .f32) (r : Fin 2000) (k : Fin 128) :
    k1_pay2 (F := Ideal) v11 (ix2 r k) = v11 (ix2 (0 : Fin 1) k) := by
  unfold k1_pay2
  simp only [shapeCast_self, broadcastTo_1b_ab_apply]

/-- The shift row broadcast over the block reads the row's entry k. -/
theorem k1_pay3_apply (v15 : Vec Ideal S1x128 .f32) (r : Fin 2000) (k : Fin 128) :
    k1_pay3 (F := Ideal) v15 (ix2 r k) = v15 (ix2 (0 : Fin 1) k) := by
  unfold k1_pay3
  simp only [shapeCast_self, broadcastTo_1b_ab_apply]

/-- The variance's epsilon as a column. -/
theorem k1_pay8_apply (r : Fin 2000) (u : Fin 1) : k1_pay8 (F := Ideal) (ix2 r u) = Gcn.eps := rfl

/-- The stored entry from the deviation, the variance, the epsilon, the scale and the shift: normalise, scale, shift, clamp. -/
theorem k1_pay1_apply (v14 v18 : FVec Ideal S2000x128 .f32) (v36 : FVec Ideal S2000x1 .f32) (v38 : FVec Ideal S2000x128 .f32)
    (v39 : FVec Ideal S2000x1 .f32) (r : Fin 2000) (k : Fin 128) :
    k1_pay1 (F := Ideal) v14 v18 v36 v38 v39 (ix2 r k)
      = max ((v38 (ix2 r k) * Ideal.rsqrt (v36 (ix2 r (0 : Fin 1)) + v39 (ix2 r (0 : Fin 1)))) * v14 (ix2 r k) + v18 (ix2 r k))
          Gcn.zero := by
  unfold k1_pay1
  simp only [maximumf_apply, addf_apply, mulf_apply, broadcastTo_a1_ab_apply, broadcast_apply, rsqrt_apply]
  rfl

/-- The same with the layer's input added in front. -/
theorem k3_pay1_apply (v14 v18 : FVec Ideal S2000x128 .f32) (v36 : FVec Ideal S2000x1 .f32) (v38 : FVec Ideal S2000x128 .f32)
    (v39 : FVec Ideal S2000x1 .f32) (v48 : Vec Ideal S2000x128 .f32) (r : Fin 2000) (k : Fin 128) :
    k3_pay1 (F := Ideal) v14 v18 v36 v38 v39 v48 (ix2 r k)
      = v48 (ix2 r k) + max ((v38 (ix2 r k) * Ideal.rsqrt (v36 (ix2 r (0 : Fin 1)) + v39 (ix2 r (0 : Fin 1)))) * v14 (ix2 r k) + v18 (ix2 r k))
          Gcn.zero := by
  unfold k3_pay1
  simp only [shapeCast_self, maximumf_apply, addf_apply, mulf_apply, broadcastTo_a1_ab_apply, broadcast_apply, rsqrt_apply]
  rfl

/-- The fused body's entry (p, q) from its seven parts, as the specification's normalised, clamped row entry. -/
theorem fused_entry (x0 x1 : Vec Ideal S2000x128 .f32) (x2 : Vec Ideal S2000x1 .f32) (x3 x4 x5 : Vec Ideal S1x128 .f32)
    (p : Fin 2000) (q : Fin 128) :
    k1_pay1 (F := Ideal) (k1_pay2 x4) (k1_pay3 x5) (k1_pay6 x2 x2 x3 x0 x1) (k1_pay7 x2 x2 x3 x0 x1) (k1_pay8 (F := Ideal)) (ix2 p q)
      = Gcn.lnRelu (fun k => (x0 (ix2 p k) + x1 (ix2 p k) * (x2 (ix2 p (0 : Fin 1)) * x2 (ix2 p (0 : Fin 1)))) + x3 (ix2 (0 : Fin 1) k))
          (fun k => x4 (ix2 (0 : Fin 1) k)) (fun k => x5 (ix2 (0 : Fin 1) k)) q := by
  rw [k1_pay1_apply]
  simp only [k1_pay2_apply, k1_pay3_apply, k1_pay6_apply, k1_pay7_apply, k1_pay8_apply, k1_pay4_apply]
  rfl

/-- The later fused launches' parts are the first one's, term for term. -/
theorem k3_pay2_eq : k3_pay2 (F := Ideal) = k1_pay2 (F := Ideal) := rfl
theorem k3_pay3_eq : k3_pay3 (F := Ideal) = k1_pay3 (F := Ideal) := rfl
theorem k3_pay6_eq : k3_pay6 (F := Ideal) = k1_pay6 (F := Ideal) := rfl
theorem k3_pay7_eq : k3_pay7 (F := Ideal) = k1_pay7 (F := Ideal) := rfl
theorem k3_pay8_eq : k3_pay8 (F := Ideal) = k1_pay8 (F := Ideal) := rfl
theorem k5_pay1_eq : k5_pay1 (F := Ideal) = k3_pay1 (F := Ideal) := rfl
theorem k5_pay2_eq : k5_pay2 (F := Ideal) = k1_pay2 (F := Ideal) := rfl
theorem k5_pay3_eq : k5_pay3 (F := Ideal) = k1_pay3 (F := Ideal) := rfl
theorem k5_pay6_eq : k5_pay6 (F := Ideal) = k1_pay6 (F := Ideal) := rfl
theorem k5_pay7_eq : k5_pay7 (F := Ideal) = k1_pay7 (F := Ideal) := rfl
theorem k5_pay8_eq : k5_pay8 (F := Ideal) = k1_pay8 (F := Ideal) := rfl

/-- The residual fused body's entry (p, q): the layer's input plus the normalised, clamped row entry. -/
theorem fusedRes_entry (x0 x1 : Vec Ideal S2000x128 .f32) (x2 : Vec Ideal S2000x1 .f32) (x3 : Vec Ideal S2000x128 .f32)
    (x4 x5 x6 : Vec Ideal S1x128 .f32) (p : Fin 2000) (q : Fin 128) :
    k3_pay1 (F := Ideal) (k1_pay2 x5) (k1_pay3 x6) (k1_pay6 x2 x2 x4 x0 x1) (k1_pay7 x2 x2 x4 x0 x1) (k1_pay8 (F := Ideal)) x3 (ix2 p q)
      = x3 (ix2 p q) + Gcn.lnRelu (fun k => (x0 (ix2 p k) + x1 (ix2 p k) * (x2 (ix2 p (0 : Fin 1)) * x2 (ix2 p (0 : Fin 1)))) + x4 (ix2 (0 : Fin 1) k))
          (fun k => x5 (ix2 (0 : Fin 1) k)) (fun k => x6 (ix2 (0 : Fin 1) k)) q := by
  rw [k3_pay1_apply]
  simp only [k1_pay2_apply, k1_pay3_apply, k1_pay6_apply, k1_pay7_apply, k1_pay8_apply, k1_pay4_apply]
  rfl

theorem out1_6_apply (x0 x1 : Vec Ideal S2000x128 .f32) (x2 : Vec Ideal S2000x1 .f32) (x3 x4 x5 : Vec Ideal S1x128 .f32) (y : S2000x128.Idx) :
    out1_6 (F := Ideal) x0 x1 x2 x3 x4 x5 y
      = Gcn.lnRelu (fun k => (x0 (ix2 (y 0) k) + x1 (ix2 (y 0) k) * (x2 (ix2 (y 0) (0 : Fin 1)) * x2 (ix2 (y 0) (0 : Fin 1)))) + x3 (ix2 (0 : Fin 1) k))
          (fun k => x4 (ix2 (0 : Fin 1) k)) (fun k => x5 (ix2 (0 : Fin 1) k)) (y 1) := by
  obtain ⟨p, q, rfl⟩ : ∃ (p : Fin 2000) (q : Fin 128), y = ix2 p q := ⟨y 0, y 1, eq_ix2 y⟩
  unfold out1_6
  rw [View.canon_unit_zero (S := S2000x128) zeros2]
  simp only [View.ld_unit_zero (S := S2000x128) zeros2, View.ld_unit_zero (S := S2000x1) zeros2,
    View.ld_unit_zero (S := S1x128) zeros2]
  exact fused_entry x0 x1 x2 x3 x4 x5 p q

theorem out3_7_apply (x0 x1 : Vec Ideal S2000x128 .f32) (x2 : Vec Ideal S2000x1 .f32) (x3 : Vec Ideal S2000x128 .f32) (x4 x5 x6 : Vec Ideal S1x128 .f32) (y : S2000x128.Idx) :
    out3_7 (F := Ideal) x0 x1 x2 x3 x4 x5 x6 y
      = x3 y + Gcn.lnRelu (fun k => (x0 (ix2 (y 0) k) + x1 (ix2 (y 0) k) * (x2 (ix2 (y 0) (0 : Fin 1)) * x2 (ix2 (y 0) (0 : Fin 1)))) + x4 (ix2 (0 : Fin 1) k))
          (fun k => x5 (ix2 (0 : Fin 1) k)) (fun k => x6 (ix2 (0 : Fin 1) k)) (y 1) := by
  obtain ⟨p, q, rfl⟩ : ∃ (p : Fin 2000) (q : Fin 128), y = ix2 p q := ⟨y 0, y 1, eq_ix2 y⟩
  unfold out3_7
  rw [View.canon_unit_zero (S := S2000x128) zeros2]
  simp only [View.ld_unit_zero (S := S2000x128) zeros2, View.ld_unit_zero (S := S2000x1) zeros2,
    View.ld_unit_zero (S := S1x128) zeros2]
  rw [k3_pay2_eq, k3_pay3_eq, k3_pay6_eq, k3_pay7_eq, k3_pay8_eq]
  exact fusedRes_entry x0 x1 x2 x3 x4 x5 x6 p q

theorem out5_7_apply (x0 x1 : Vec Ideal S2000x128 .f32) (x2 : Vec Ideal S2000x1 .f32) (x3 : Vec Ideal S2000x128 .f32) (x4 x5 x6 : Vec Ideal S1x128 .f32) (y : S2000x128.Idx) :
    out5_7 (F := Ideal) x0 x1 x2 x3 x4 x5 x6 y
      = x3 y + Gcn.lnRelu (fun k => (x0 (ix2 (y 0) k) + x1 (ix2 (y 0) k) * (x2 (ix2 (y 0) (0 : Fin 1)) * x2 (ix2 (y 0) (0 : Fin 1)))) + x4 (ix2 (0 : Fin 1) k))
          (fun k => x5 (ix2 (0 : Fin 1) k)) (fun k => x6 (ix2 (0 : Fin 1) k)) (y 1) := by
  obtain ⟨p, q, rfl⟩ : ∃ (p : Fin 2000) (q : Fin 128), y = ix2 p q := ⟨y 0, y 1, eq_ix2 y⟩
  unfold out5_7
  rw [View.canon_unit_zero (S := S2000x128) zeros2]
  simp only [View.ld_unit_zero (S := S2000x128) zeros2, View.ld_unit_zero (S := S2000x1) zeros2,
    View.ld_unit_zero (S := S1x128) zeros2]
  rw [k5_pay1_eq, k5_pay2_eq, k5_pay3_eq, k5_pay6_eq, k5_pay7_eq, k5_pay8_eq]
  exact fusedRes_entry x0 x1 x2 x3 x4 x5 x6 p q

end Cert.KernelIdeal.Blocks

end
-- ==== Proof.RegionsMM.lean ====
/-
  The three dense-product launches, from blocks to arrays.

  Each launch cuts the 50000 rows into 25 blocks of 2000.  Grid point t reads row block t of the left operand and the whole
  weight matrix and writes row block t of the result; since a row of the product depends only on the same row of the left
  operand, what point t writes back is block t of the whole product, and the 25 blocks cover the result array.
-/
import proofs.«167512_j63471026700852_1_alg».proof.Proof.Gen.KernelIdeal.Frame
import proofs.«167512_j63471026700852_1_alg».proof.Proof.Spec
import proofs.«167512_j63471026700852_1_alg».proof.Proof.Blocks
import Idealize.ShloMosaic.Lib.Pipeline.Value

set_option maxRecDepth 16384

noncomputable section

namespace Cert.KernelIdeal.RegionsMM

open Idealize.ShloMosaic Idealize.ShloMosaic.TcCoe Idealize.ShloMosaic.ValueIdx Idealize.SL.Sem
open Idealize.ShloMosaic.Pipeline (Dat)
open Cert.KernelIdeal Cert.KernelIdeal.Gen

-- the contents of the TensorCore's buffers when the launch is entered
variable (V : (c : Dev nD) → (b : Ref sig .tc) → Buf (Elt Ideal) ((c : Thread nD τ).loc b))

/-! ## Launch 0: a dense product, 2000 rows at a time -/

/-- Where the three windows' blocks sit at grid point `t`: the row blocks of the left operand and of the result are block
    `t`, the weight matrix is one block. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays as the launch finds them. -/
theorem flushed0 (c : Dev nD) (t : Fin cfg0.N) :
    (dat0 V c).flushed 2 t
      = ((cfg0.win 2).blk t).view.read (Elt Ideal) (Gcn.mmA (V c main_arg0) (V c main_v18)) := by
  show (cfg0.win 2).cut (grid0.coords t) ((dat0 V c).after 2 t) = _
  rw [after0_2]
  obtain ⟨e00, e01, e10, e11, e20, e21⟩ := idx_facts0 t
  refine funext fun (j : S2000x128.Idx) => ?_
  have hj0 : (j 0).val < 2000 := (j 0).isLt
  have hj1 : (j 1).val < 128 := (j 1).isLt
  refine (Blocks.out0_2_apply (iblk0 V c 0 t) (iblk0 V c 1 t) j).trans ?_
  show _ = Gcn.mm (V c main_arg0) (V c main_v18) ((((cfg0.win 2).blk t).view.emb j) 0) ((((cfg0.win 2).blk t).view.emb j) 1)
  unfold Gcn.mm
  refine Finset.sum_congr rfl fun k _ => ?_
  have hk : k.val < 128 := k.isLt
  have hl : ((cfg0.win 0).blk t).view.emb (@ix2 2000 128 (j 0) k) = @ix2 50000 128 ((((cfg0.win 2).blk t).view.emb j) 0) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  have hr : ((cfg0.win 1).blk t).view.emb (@ix2 128 128 k (j 1)) = @ix2 128 128 k ((((cfg0.win 2).blk t).view.emb j) 1) := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  have eL : iblk0 V c 0 t (@ix2 2000 128 (j 0) k) = V c main_arg0 (@ix2 50000 128 ((((cfg0.win 2).blk t).view.emb j) 0) k) :=
    (show iblk0 V c 0 t (@ix2 2000 128 (j 0) k) = V c main_arg0 (((cfg0.win 0).blk t).view.emb (@ix2 2000 128 (j 0) k)) from rfl).trans (congrArg (V c main_arg0) hl)
  have eR : iblk0 V c 1 t (@ix2 128 128 k (j 1)) = V c main_v18 (@ix2 128 128 k ((((cfg0.win 2).blk t).view.emb j) 1)) :=
    (show iblk0 V c 1 t (@ix2 128 128 k (j 1)) = V c main_v18 (((cfg0.win 1).blk t).view.emb (@ix2 128 128 k (j 1))) from rfl).trans (congrArg (V c main_v18) hr)
  rw [eL, eR]

/-- An index of the result array is in point `t`'s block iff each coordinate is in the block's range. -/
theorem mem_blk0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v19).slice (win0_2.rect t)).set ↔ _
  rw [View.set_slice_whole, Rect.mem_set_unit]
  exact Iff.rfl

/-- Row `r` of the result is written by point `r / 2000`. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  have ht : t.val = (i 0).val / 2000 := rfl
  obtain ⟨e00, e01, e10, e11, e20, e21⟩ := idx_facts0 t
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- After launch 0 its result array is the product of its two operand arrays. -/
theorem final0 (c : Dev nD) : (dat0 V c).arrAt 2 cfg0.N = Gcn.mmA (V c main_arg0) (V c main_v18) :=
  (dat0 V c).arrAt_eq_of_cover 2 (Gcn.mmA (V c main_arg0) (V c main_v18)) (fun t _ => flushed0 V c t) (cover0)

/-! ## Launch 2: a dense product, 2000 rows at a time -/

/-- Where the three windows' blocks sit at grid point `t`: the row blocks of the left operand and of the result are block
    `t`, the weight matrix is one block. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the two arrays as the launch finds them. -/
theorem flushed2 (c : Dev nD) (t : Fin cfg2.N) :
    (dat2 V c).flushed 2 t
      = ((cfg2.win 2).blk t).view.read (Elt Ideal) (Gcn.mmA (V c main_v57) (V c main_v59)) := by
  show (cfg2.win 2).cut (grid2.coords t) ((dat2 V c).after 2 t) = _
  rw [after2_2]
  obtain ⟨e00, e01, e10, e11, e20, e21⟩ := idx_facts2 t
  refine funext fun (j : S2000x128.Idx) => ?_
  have hj0 : (j 0).val < 2000 := (j 0).isLt
  have hj1 : (j 1).val < 128 := (j 1).isLt
  refine (Blocks.out2_2_apply (iblk2 V c 0 t) (iblk2 V c 1 t) j).trans ?_
  show _ = Gcn.mm (V c main_v57) (V c main_v59) ((((cfg2.win 2).blk t).view.emb j) 0) ((((cfg2.win 2).blk t).view.emb j) 1)
  unfold Gcn.mm
  refine Finset.sum_congr rfl fun k _ => ?_
  have hk : k.val < 128 := k.isLt
  have hl : ((cfg2.win 0).blk t).view.emb (@ix2 2000 128 (j 0) k) = @ix2 50000 128 ((((cfg2.win 2).blk t).view.emb j) 0) k := by
    funext a; apply Fin.ext
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 128 + 1 * k.val = k.val; omega
  have hr : ((cfg2.win 1).blk t).view.emb (@ix2 128 128 k (j 1)) = @ix2 128 128 k ((((cfg2.win 2).blk t).view.emb j) 1) := by
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  have eL : iblk2 V c 0 t (@ix2 2000 128 (j 0) k) = V c main_v57 (@ix2 50000 128 ((((cfg2.win 2).blk t).view.emb j) 0) k) :=
    (show iblk2 V c 0 t (@ix2 2000 128 (j 0) k) = V c main_v57 (((cfg2.win 0).blk t).view.emb (@ix2 2000 128 (j 0) k)) from rfl).trans (congrArg (V c main_v57) hl)
  have eR : iblk2 V c 1 t (@ix2 128 128 k (j 1)) = V c main_v59 (@ix2 128 128 k ((((cfg2.win 2).blk t).view.emb j) 1)) :=
    (show iblk2 V c 1 t (@ix2 128 128 k (j 1)) = V c main_v59 (((cfg2.win 1).blk t).view.emb (@ix2 128 128 k (j 1))) from rfl).trans (congrArg (V c main_v59) hr)
  rw [eL, eR]

/-- An index of the result array is in point `t`'s block iff each coordinate is in the block's range. -/
theorem mem_blk2 (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v60).slice (win2_2.rect t)).set ↔ _
  rw [View.set_slice_whole, Rect.mem_set_unit]
  exact Iff.rfl

/-- Row `r` of the result is written by point `r / 2000`. -/
theorem cover2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 25 := N_2
  let t : Fin cfg2.N := ⟨(i 0).val / 2000, by rw [hN]; omega⟩
  have ht : t.val = (i 0).val / 2000 := rfl
  obtain ⟨e00, e01, e10, e11, e20, e21⟩ := idx_facts2 t
  refine ⟨t, flush2_2 t, ?_⟩
  rw [mem_blk2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- After launch 2 its result array is the product of its two operand arrays. -/
theorem final2 (c : Dev nD) : (dat2 V c).arrAt 2 cfg2.N = Gcn.mmA (V c main_v57) (V c main_v59) :=
  (dat2 V c).arrAt_eq_of_cover 2 (Gcn.mmA (V c main_v57) (V c main_v59)) (fun t _ => flushed2 V c t) (cover2)

/-! ## Launch 4: a dense product, 2000 rows at a time -/

/-- Where the three windows' blocks sit at grid point `t`: the row blocks of the left operand and of the result are block
    `t`, the weight matrix is one block. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the product of the two arrays as the launch finds them. -/
theorem flushed4 (c : Dev nD) (t : Fin cfg4.N) :
    (dat4 V c).flushed 2 t
      = ((cfg4.win 2).blk t).view.read (Elt Ideal) (Gcn.mmA (V c main_v98) (V c main_v100)) := by
  show (cfg4.win 2).cut (grid4.coords t) ((dat4 V c).after 2 t) = _
  rw [after4_2]
  obtain ⟨e00, e01, e10, e11, e20, e21⟩ := idx_facts4 t
  refine funext fun (j : S2000x128.Idx) => ?_
  have hj0 : (j 0).val < 2000 := (j 0).isLt
  have hj1 : (j 1).val < 128 := (j 1).isLt
  refine (Blocks.out4_2_apply (iblk4 V c 0 t) (iblk4 V c 1 t) j).trans ?_
  show _ = Gcn.mm (V c main_v98) (V c main_v100) ((((cfg4.win 2).blk t).view.emb j) 0) ((((cfg4.win 2).blk t).view.emb j) 1)
  unfold Gcn.mm
  refine Finset.sum_congr rfl fun k _ => ?_
  have hk : k.val < 128 := k.isLt
  have hl : ((cfg4.win 0).blk t).view.emb (@ix2 2000 128 (j 0) k) = @ix2 50000 128 ((((cfg4.win 2).blk t).view.emb j) 0) k := by
    funext a; apply Fin.ext
    match a with
    | ⟨0, _⟩ => show win4_0.index t (0 : Fin 2) * 2000 + 1 * (j 0).val = win4_2.index t (0 : Fin 2) * 2000 + 1 * (j 0).val; omega
    | ⟨1, _⟩ => show win4_0.index t (1 : Fin 2) * 128 + 1 * k.val = k.val; omega
  have hr : ((cfg4.win 1).blk t).view.emb (@ix2 128 128 k (j 1)) = @ix2 128 128 k ((((cfg4.win 2).blk t).view.emb j) 1) := by
    funext a; apply Fin.ext
    match a with
    | ⟨0, _⟩ => show win4_1.index t (0 : Fin 2) * 128 + 1 * k.val = k.val; omega
    | ⟨1, _⟩ => show win4_1.index t (1 : Fin 2) * 128 + 1 * (j 1).val = win4_2.index t (1 : Fin 2) * 128 + 1 * (j 1).val; omega
  have eL : iblk4 V c 0 t (@ix2 2000 128 (j 0) k) = V c main_v98 (@ix2 50000 128 ((((cfg4.win 2).blk t).view.emb j) 0) k) :=
    (show iblk4 V c 0 t (@ix2 2000 128 (j 0) k) = V c main_v98 (((cfg4.win 0).blk t).view.emb (@ix2 2000 128 (j 0) k)) from rfl).trans (congrArg (V c main_v98) hl)
  have eR : iblk4 V c 1 t (@ix2 128 128 k (j 1)) = V c main_v100 (@ix2 128 128 k ((((cfg4.win 2).blk t).view.emb j) 1)) :=
    (show iblk4 V c 1 t (@ix2 128 128 k (j 1)) = V c main_v100 (((cfg4.win 1).blk t).view.emb (@ix2 128 128 k (j 1))) from rfl).trans (congrArg (V c main_v100) hr)
  rw [eL, eR]

/-- An index of the result array is in point `t`'s block iff each coordinate is in the block's range. -/
theorem mem_blk4 (t : Fin cfg4.N) (i : S50000x128.Idx) :
    i ∈ ((cfg4.win 2).blk t).view.set ↔ ∀ a : Fin 2, win4_2.index t a * S2000x128.size a ≤ (i a).val ∧ (i a).val < win4_2.index t a * S2000x128.size a + S2000x128.size a := by
  show i ∈ ((View.whole main_v101).slice (win4_2.rect t)).set ↔ _
  rw [View.set_slice_whole, Rect.mem_set_unit]
  exact Iff.rfl

/-- Row `r` of the result is written by point `r / 2000`. -/
theorem cover4 (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 25 := N_4
  let t : Fin cfg4.N := ⟨(i 0).val / 2000, by rw [hN]; omega⟩
  have ht : t.val = (i 0).val / 2000 := rfl
  obtain ⟨e00, e01, e10, e11, e20, e21⟩ := idx_facts4 t
  refine ⟨t, flush4_2 t, ?_⟩
  rw [mem_blk4]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 128 ≤ (i 1).val ∧ (i 1).val < win4_2.index t (1 : Fin 2) * 128 + 128; omega

/-- After launch 4 its result array is the product of its two operand arrays. -/
theorem final4 (c : Dev nD) : (dat4 V c).arrAt 2 cfg4.N = Gcn.mmA (V c main_v98) (V c main_v100) :=
  (dat4 V c).arrAt_eq_of_cover 2 (Gcn.mmA (V c main_v98) (V c main_v100)) (fun t _ => flushed4 V c t) (cover4)

end Cert.KernelIdeal.RegionsMM

end
-- ==== Proof.RegionsLN.lean ====
/-
  The three fused launches, from blocks to arrays.

  Each launch cuts the 50000 rows into 25 blocks of 2000.  Grid point t reads row block t of the aggregated messages, of the
  layer's products, of the nodes' factor column and (from the second layer on) of the layer's input, and the three per-feature
  rows whole, and writes row block t of the result.  The normalisation works row by row, so what point t writes back is block
  t of the layer's row function of the whole arrays, and the 25 blocks cover the result array.
-/
import proofs.«167512_j63471026700852_1_alg».proof.Proof.Gen.KernelIdeal.Frame
import proofs.«167512_j63471026700852_1_alg».proof.Proof.Spec
import proofs.«167512_j63471026700852_1_alg».proof.Proof.Blocks
import Idealize.ShloMosaic.Lib.Pipeline.Value

set_option maxRecDepth 16384

noncomputable section

namespace Cert.KernelIdeal.RegionsLN

open Idealize.ShloMosaic Idealize.ShloMosaic.TcCoe Idealize.ShloMosaic.ValueIdx Idealize.SL.Sem
open Idealize.ShloMosaic.Pipeline (Dat)
open Cert.KernelIdeal Cert.KernelIdeal.Gen

-- the contents of the TensorCore's buffers when the launch is entered
variable (V : (c : Dev nD) → (b : Ref sig .tc) → Buf (Elt Ideal) ((c : Thread nD τ).loc b))

/-! ## Launch 1: the fused row normalisation, 2000 rows at a time -/

/-- Where the windows' blocks sit at grid point `t`: every per-node operand and the result are at row block `t`, the three
    per-feature rows are one block each. -/
theorem idx_facts1 : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_6.index t (0 : Fin 2) = t.val
    ∧ win1_6.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0 :=
  (by decide +kernel : ∀ t : Fin grid1.N, _)

/-- What point `t` writes back is block `t` of the layer's row function of the arrays as the launch finds them. -/
theorem flushed1 (c : Dev nD) (t : Fin cfg1.N) :
    (dat1 V c).flushed 6 t
      = ((cfg1.win 6).blk t).view.read (Elt Ideal) (Gcn.fused (V c main_v47) (V c main_v19) (fun r => V c main_v16 (@ix2 50000 1 r 0)) (fun k => V c main_v54 (@ix2 1 128 0 k)) (fun k => V c main_v55 (@ix2 1 128 0 k)) (fun k => V c main_v56 (@ix2 1 128 0 k))) := by
  show (cfg1.win 6).cut (grid1.coords t) ((dat1 V c).after 6 t) = _
  rw [after1_6]
  obtain ⟨f0, f1, f2, f3, f4, f5, f6, f7, f8, f9, f10, f11, f12, f13⟩ := idx_facts1 t
  refine funext fun (j : S2000x128.Idx) => ?_
  have hj0 : (j 0).val < 2000 := (j 0).isLt
  have hj1 : (j 1).val < 128 := (j 1).isLt
  refine (Blocks.out1_6_apply (iblk1 V c 0 t) (iblk1 V c 1 t) (iblk1 V c 2 t) (iblk1 V c 3 t) (iblk1 V c 4 t) (iblk1 V c 5 t) j).trans ?_
  have h0 : ∀ k : Fin 128, iblk1 V c 0 t (@ix2 2000 128 (j 0) k) = V c main_v47 (@ix2 50000 128 ((((cfg1.win 6).blk t).view.emb j) 0) k) := fun k => by
    have hk : k.val < 128 := k.isLt
    have he : ((cfg1.win 0).blk t).view.emb (@ix2 2000 128 (j 0) k) = @ix2 50000 128 ((((cfg1.win 6).blk t).view.emb j) 0) k := by
      funext a; apply Fin.ext
      match a with
      | ⟨0, _⟩ => show win1_0.index t (0 : Fin 2) * 2000 + 1 * (j 0).val = win1_6.index t (0 : Fin 2) * 2000 + 1 * (j 0).val; omega
      | ⟨1, _⟩ => show win1_0.index t (1 : Fin 2) * 128 + 1 * k.val = k.val; omega
    exact (show iblk1 V c 0 t (@ix2 2000 128 (j 0) k) = V c main_v47 (((cfg1.win 0).blk t).view.emb (@ix2 2000 128 (j 0) k)) from rfl).trans (congrArg (V c main_v47) he)
  have h1 : ∀ k : Fin 128, iblk1 V c 1 t (@ix2 2000 128 (j 0) k) = V c main_v19 (@ix2 50000 128 ((((cfg1.win 6).blk t).view.emb j) 0) k) := fun k => by
    have hk : k.val < 128 := k.isLt
    have he : ((cfg1.win 1).blk t).view.emb (@ix2 2000 128 (j 0) k) = @ix2 50000 128 ((((cfg1.win 6).blk t).view.emb j) 0) k := by
      funext a; apply Fin.ext
      match a with
      | ⟨0, _⟩ => show win1_1.index t (0 : Fin 2) * 2000 + 1 * (j 0).val = win1_6.index t (0 : Fin 2) * 2000 + 1 * (j 0).val; omega
      | ⟨1, _⟩ => show win1_1.index t (1 : Fin 2) * 128 + 1 * k.val = k.val; omega
    exact (show iblk1 V c 1 t (@ix2 2000 128 (j 0) k) = V c main_v19 (((cfg1.win 1).blk t).view.emb (@ix2 2000 128 (j 0) k)) from rfl).trans (congrArg (V c main_v19) he)
  have h2 : iblk1 V c 2 t (@ix2 2000 1 (j 0) 0) = V c main_v16 (@ix2 50000 1 ((((cfg1.win 6).blk t).view.emb j) 0) 0) := by
    have he : ((cfg1.win 2).blk t).view.emb (@ix2 2000 1 (j 0) 0) = @ix2 50000 1 ((((cfg1.win 6).blk t).view.emb j) 0) 0 := by
      funext a; apply Fin.ext
      match a with
      | ⟨0, _⟩ => show win1_2.index t (0 : Fin 2) * 2000 + 1 * (j 0).val = win1_6.index t (0 : Fin 2) * 2000 + 1 * (j 0).val; omega
      | ⟨1, _⟩ => show win1_2.index t (1 : Fin 2) * 1 + 1 * 0 = 0; omega
    exact (show iblk1 V c 2 t (@ix2 2000 1 (j 0) 0) = V c main_v16 (((cfg1.win 2).blk t).view.emb (@ix2 2000 1 (j 0) 0)) from rfl).trans (congrArg (V c main_v16) he)
  have hb : ∀ k : Fin 128, iblk1 V c 3 t (@ix2 1 128 0 k) = V c main_v54 (@ix2 1 128 0 k) := fun k => by
    have hk : k.val < 128 := k.isLt
    have he : ((cfg1.win 3).blk t).view.emb (@ix2 1 128 0 k) = @ix2 1 128 0 k := by
      funext a; apply Fin.ext
      match a with
      | ⟨0, _⟩ => show win1_3.index t (0 : Fin 2) * 1 + 1 * 0 = 0; omega
      | ⟨1, _⟩ => show win1_3.index t (1 : Fin 2) * 128 + 1 * k.val = k.val; omega
    exact (show iblk1 V c 3 t (@ix2 1 128 0 k) = V c main_v54 (((cfg1.win 3).blk t).view.emb (@ix2 1 128 0 k)) from rfl).trans (congrArg (V c main_v54) he)
  have hg : ∀ k : Fin 128, iblk1 V c 4 t (@ix2 1 128 0 k) = V c main_v55 (@ix2 1 128 0 k) := fun k => by
    have hk : k.val < 128 := k.isLt
    have he : ((cfg1.win 4).blk t).view.emb (@ix2 1 128 0 k) = @ix2 1 128 0 k := by
      funext a; apply Fin.ext
      match a with
      | ⟨0, _⟩ => show win1_4.index t (0 : Fin 2) * 1 + 1 * 0 = 0; omega
      | ⟨1, _⟩ => show win1_4.index t (1 : Fin 2) * 128 + 1 * k.val = k.val; omega
    exact (show iblk1 V c 4 t (@ix2 1 128 0 k) = V c main_v55 (((cfg1.win 4).blk t).view.emb (@ix2 1 128 0 k)) from rfl).trans (congrArg (V c main_v55) he)
  have hbe : ∀ k : Fin 128, iblk1 V c 5 t (@ix2 1 128 0 k) = V c main_v56 (@ix2 1 128 0 k) := fun k => by
    have hk : k.val < 128 := k.isLt
    have he : ((cfg1.win 5).blk t).view.emb (@ix2 1 128 0 k) = @ix2 1 128 0 k := by
      funext a; apply Fin.ext
      match a with
      | ⟨0, _⟩ => show win1_5.index t (0 : Fin 2) * 1 + 1 * 0 = 0; omega
      | ⟨1, _⟩ => show win1_5.index t (1 : Fin 2) * 128 + 1 * k.val = k.val; omega
    exact (show iblk1 V c 5 t (@ix2 1 128 0 k) = V c main_v56 (((cfg1.win 5).blk t).view.emb (@ix2 1 128 0 k)) from rfl).trans (congrArg (V c main_v56) he)
  have hq : (j 1 : Fin 128) = (((cfg1.win 6).blk t).view.emb j) 1 := Fin.ext (by
    show (j 1).val = win1_6.index t (1 : Fin 2) * 128 + 1 * (j 1).val; omega)
  simp only [h0, h1, h2, hb, hg, hbe]
  rw [hq]
  rfl

/-- An index of the result array is in point `t`'s block iff each coordinate is in the block's range. -/
theorem mem_blk1 (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v57).slice (win1_6.rect t)).set ↔ _
  rw [View.set_slice_whole, Rect.mem_set_unit]
  exact Iff.rfl

/-- Row `r` of the result is written by point `r / 2000`. -/
theorem cover1 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  have ht : t.val = (i 0).val / 2000 := rfl
  obtain ⟨f0, f1, f2, f3, f4, f5, f6, f7, f8, f9, f10, f11, f12, f13⟩ := idx_facts1 t
  refine ⟨t, flush1_6 t, ?_⟩
  rw [mem_blk1]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 128 ≤ (i 1).val ∧ (i 1).val < win1_6.index t (1 : Fin 2) * 128 + 128; omega

/-- After launch 1 its result array is the layer's row function of its operand arrays. -/
theorem final1 (c : Dev nD) : (dat1 V c).arrAt 6 cfg1.N = Gcn.fused (V c main_v47) (V c main_v19) (fun r => V c main_v16 (@ix2 50000 1 r 0)) (fun k => V c main_v54 (@ix2 1 128 0 k)) (fun k => V c main_v55 (@ix2 1 128 0 k)) (fun k => V c main_v56 (@ix2 1 128 0 k)) :=
  (dat1 V c).arrAt_eq_of_cover 6 _ (fun t _ => flushed1 V c t) (cover1)

/-! ## Launch 3: the fused row normalisation with the residual, 2000 rows at a time -/

/-- Where the windows' blocks sit at grid point `t`: every per-node operand and the result are at row block `t`, the three
    per-feature rows are one block each. -/
theorem idx_facts3 : ∀ t : Fin cfg3.N,
    win3_0.index t (0 : Fin 2) = t.val
    ∧ win3_0.index t (1 : Fin 2) = 0
    ∧ win3_1.index t (0 : Fin 2) = t.val
    ∧ win3_1.index t (1 : Fin 2) = 0
    ∧ win3_3.index t (0 : Fin 2) = t.val
    ∧ win3_3.index t (1 : Fin 2) = 0
    ∧ win3_7.index t (0 : Fin 2) = t.val
    ∧ win3_7.index t (1 : Fin 2) = 0
    ∧ win3_2.index t (0 : Fin 2) = t.val
    ∧ win3_2.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0 :=
  (by decide +kernel : ∀ t : Fin grid3.N, _)

/-- What point `t` writes back is block `t` of the layer's row function of the arrays as the launch finds them. -/
theorem flushed3 (c : Dev nD) (t : Fin cfg3.N) :
    (dat3 V c).flushed 7 t
      = ((cfg3.win 7).blk t).view.read (Elt Ideal) (Gcn.fusedRes (V c main_v88) (V c main_v60) (V c main_v57) (fun r => V c main_v16 (@ix2 50000 1 r 0)) (fun k => V c main_v95 (@ix2 1 128 0 k)) (fun k => V c main_v96 (@ix2 1 128 0 k)) (fun k => V c main_v97 (@ix2 1 128 0 k))) := by
  show (cfg3.win 7).cut (grid3.coords t) ((dat3 V c).after 7 t) = _
  rw [after3_7]
  obtain ⟨f0, f1, f2, f3, f4, f5, f6, f7, f8, f9, f10, f11, f12, f13, f14, f15⟩ := idx_facts3 t
  refine funext fun (j : S2000x128.Idx) => ?_
  have hj0 : (j 0).val < 2000 := (j 0).isLt
  have hj1 : (j 1).val < 128 := (j 1).isLt
  refine (Blocks.out3_7_apply (iblk3 V c 0 t) (iblk3 V c 1 t) (iblk3 V c 2 t) (iblk3 V c 3 t) (iblk3 V c 4 t) (iblk3 V c 5 t) (iblk3 V c 6 t) j).trans ?_
  have h0 : ∀ k : Fin 128, iblk3 V c 0 t (@ix2 2000 128 (j 0) k) = V c main_v88 (@ix2 50000 128 ((((cfg3.win 7).blk t).view.emb j) 0) k) := fun k => by
    have hk : k.val < 128 := k.isLt
    have he : ((cfg3.win 0).blk t).view.emb (@ix2 2000 128 (j 0) k) = @ix2 50000 128 ((((cfg3.win 7).blk t).view.emb j) 0) k := by
      funext a; apply Fin.ext
      match a with
      | ⟨0, _⟩ => show win3_0.index t (0 : Fin 2) * 2000 + 1 * (j 0).val = win3_7.index t (0 : Fin 2) * 2000 + 1 * (j 0).val; omega
      | ⟨1, _⟩ => show win3_0.index t (1 : Fin 2) * 128 + 1 * k.val = k.val; omega
    exact (show iblk3 V c 0 t (@ix2 2000 128 (j 0) k) = V c main_v88 (((cfg3.win 0).blk t).view.emb (@ix2 2000 128 (j 0) k)) from rfl).trans (congrArg (V c main_v88) he)
  have h1 : ∀ k : Fin 128, iblk3 V c 1 t (@ix2 2000 128 (j 0) k) = V c main_v60 (@ix2 50000 128 ((((cfg3.win 7).blk t).view.emb j) 0) k) := fun k => by
    have hk : k.val < 128 := k.isLt
    have he : ((cfg3.win 1).blk t).view.emb (@ix2 2000 128 (j 0) k) = @ix2 50000 128 ((((cfg3.win 7).blk t).view.emb j) 0) k := by
      funext a; apply Fin.ext
      match a with
      | ⟨0, _⟩ => show win3_1.index t (0 : Fin 2) * 2000 + 1 * (j 0).val = win3_7.index t (0 : Fin 2) * 2000 + 1 * (j 0).val; omega
      | ⟨1, _⟩ => show win3_1.index t (1 : Fin 2) * 128 + 1 * k.val = k.val; omega
    exact (show iblk3 V c 1 t (@ix2 2000 128 (j 0) k) = V c main_v60 (((cfg3.win 1).blk t).view.emb (@ix2 2000 128 (j 0) k)) from rfl).trans (congrArg (V c main_v60) he)
  have h2 : iblk3 V c 2 t (@ix2 2000 1 (j 0) 0) = V c main_v16 (@ix2 50000 1 ((((cfg3.win 7).blk t).view.emb j) 0) 0) := by
    have he : ((cfg3.win 2).blk t).view.emb (@ix2 2000 1 (j 0) 0) = @ix2 50000 1 ((((cfg3.win 7).blk t).view.emb j) 0) 0 := by
      funext a; apply Fin.ext
      match a with
      | ⟨0, _⟩ => show win3_2.index t (0 : Fin 2) * 2000 + 1 * (j 0).val = win3_7.index t (0 : Fin 2) * 2000 + 1 * (j 0).val; omega
      | ⟨1, _⟩ => show win3_2.index t (1 : Fin 2) * 1 + 1 * 0 = 0; omega
    exact (show iblk3 V c 2 t (@ix2 2000 1 (j 0) 0) = V c main_v16 (((cfg3.win 2).blk t).view.emb (@ix2 2000 1 (j 0) 0)) from rfl).trans (congrArg (V c main_v16) he)
  have hb : ∀ k : Fin 128, iblk3 V c 4 t (@ix2 1 128 0 k) = V c main_v95 (@ix2 1 128 0 k) := fun k => by
    have hk : k.val < 128 := k.isLt
    have he : ((cfg3.win 4).blk t).view.emb (@ix2 1 128 0 k) = @ix2 1 128 0 k := by
      funext a; apply Fin.ext
      match a with
      | ⟨0, _⟩ => show win3_4.index t (0 : Fin 2) * 1 + 1 * 0 = 0; omega
      | ⟨1, _⟩ => show win3_4.index t (1 : Fin 2) * 128 + 1 * k.val = k.val; omega
    exact (show iblk3 V c 4 t (@ix2 1 128 0 k) = V c main_v95 (((cfg3.win 4).blk t).view.emb (@ix2 1 128 0 k)) from rfl).trans (congrArg (V c main_v95) he)
  have hg : ∀ k : Fin 128, iblk3 V c 5 t (@ix2 1 128 0 k) = V c main_v96 (@ix2 1 128 0 k) := fun k => by
    have hk : k.val < 128 := k.isLt
    have he : ((cfg3.win 5).blk t).view.emb (@ix2 1 128 0 k) = @ix2 1 128 0 k := by
      funext a; apply Fin.ext
      match a with
      | ⟨0, _⟩ => show win3_5.index t (0 : Fin 2) * 1 + 1 * 0 = 0; omega
      | ⟨1, _⟩ => show win3_5.index t (1 : Fin 2) * 128 + 1 * k.val = k.val; omega
    exact (show iblk3 V c 5 t (@ix2 1 128 0 k) = V c main_v96 (((cfg3.win 5).blk t).view.emb (@ix2 1 128 0 k)) from rfl).trans (congrArg (V c main_v96) he)
  have hbe : ∀ k : Fin 128, iblk3 V c 6 t (@ix2 1 128 0 k) = V c main_v97 (@ix2 1 128 0 k) := fun k => by
    have hk : k.val < 128 := k.isLt
    have he : ((cfg3.win 6).blk t).view.emb (@ix2 1 128 0 k) = @ix2 1 128 0 k := by
      funext a; apply Fin.ext
      match a with
      | ⟨0, _⟩ => show win3_6.index t (0 : Fin 2) * 1 + 1 * 0 = 0; omega
      | ⟨1, _⟩ => show win3_6.index t (1 : Fin 2) * 128 + 1 * k.val = k.val; omega
    exact (show iblk3 V c 6 t (@ix2 1 128 0 k) = V c main_v97 (((cfg3.win 6).blk t).view.emb (@ix2 1 128 0 k)) from rfl).trans (congrArg (V c main_v97) he)
  have hq : (j 1 : Fin 128) = (((cfg3.win 7).blk t).view.emb j) 1 := Fin.ext (by
    show (j 1).val = win3_7.index t (1 : Fin 2) * 128 + 1 * (j 1).val; omega)
  have h3 : iblk3 V c 3 t j = V c main_v57 (((cfg3.win 7).blk t).view.emb j) := by
    have he : ((cfg3.win 3).blk t).view.emb j = (((cfg3.win 7).blk t).view.emb j) := by
      funext a; apply Fin.ext
      match a with
      | ⟨0, _⟩ => show win3_3.index t (0 : Fin 2) * 2000 + 1 * (j 0).val = win3_7.index t (0 : Fin 2) * 2000 + 1 * (j 0).val; omega
      | ⟨1, _⟩ => show win3_3.index t (1 : Fin 2) * 128 + 1 * (j 1).val = win3_7.index t (1 : Fin 2) * 128 + 1 * (j 1).val; omega
    exact (show iblk3 V c 3 t j = V c main_v57 (((cfg3.win 3).blk t).view.emb j) from rfl).trans (congrArg (V c main_v57) he)
  simp only [h0, h1, h2, hb, hg, hbe, h3]
  rw [hq]
  rfl

/-- An index of the result array is in point `t`'s block iff each coordinate is in the block's range. -/
theorem mem_blk3 (t : Fin cfg3.N) (i : S50000x128.Idx) :
    i ∈ ((cfg3.win 7).blk t).view.set ↔ ∀ a : Fin 2, win3_7.index t a * S2000x128.size a ≤ (i a).val ∧ (i a).val < win3_7.index t a * S2000x128.size a + S2000x128.size a := by
  show i ∈ ((View.whole main_v98).slice (win3_7.rect t)).set ↔ _
  rw [View.set_slice_whole, Rect.mem_set_unit]
  exact Iff.rfl

/-- Row `r` of the result is written by point `r / 2000`. -/
theorem cover3 (i : S50000x128.Idx) :
    ∃ t : Fin cfg3.N, (cfg3.win 7).flush t = true ∧ i ∈ ((cfg3.win 7).blk t).view.set := by
  have hi0 : (i 0).val < 50000 := (i 0).isLt
  have hi1 : (i 1).val < 128 := (i 1).isLt
  have hN : cfg3.N = 25 := N_3
  let t : Fin cfg3.N := ⟨(i 0).val / 2000, by rw [hN]; omega⟩
  have ht : t.val = (i 0).val / 2000 := rfl
  obtain ⟨f0, f1, f2, f3, f4, f5, f6, f7, f8, f9, f10, f11, f12, f13, f14, f15⟩ := idx_facts3 t
  refine ⟨t, flush3_7 t, ?_⟩
  rw [mem_blk3]
  intro a
  match a with
  | ⟨0, _⟩ => show win3_7.index t (0 : Fin 2) * 2000 ≤ (i 0).val ∧ (i 0).val < win3_7.index t (0 : Fin 2) * 2000 + 2000; omega
  | ⟨1, _⟩ => show win3_7.index t (1 : Fin 2) * 128 ≤ (i 1).val ∧ (i 1).val < win3_7.index t (1 : Fin 2) * 128 + 128; omega

/-- After launch 3 its result array is the layer's row function of its operand arrays. -/
theorem final3 (c : Dev nD) : (dat3 V c).arrAt 7 cfg3.N = Gcn.fusedRes (V c main_v88) (V c main_v60) (V c main_v57) (fun r => V c main_v16 (@ix2 50000 1 r 0)) (fun k => V c main_v95 (@ix2 1 128 0 k)) (fun k => V c main_v96 (@ix2 1 128 0 k)) (fun k => V c main_v97 (@ix2 1 128 0 k)) :=
  (dat3 V c).arrAt_eq_of_cover 7 _ (fun t _ => flushed3 V c t) (cover3)

/-! ## Launch 5: the fused row normalisation with the residual, 2000 rows at a time -/

/-- Where the windows' blocks sit at grid point `t`: every per-node operand and the result are at row block `t`, the three
    per-feature rows are one block each. -/
theorem idx_facts5 : ∀ t : Fin cfg5.N,
    win5_0.index t (0 : Fin 2) = t.val
    ∧ win5_0.index t (1 : Fin 2) = 0
    ∧ win5_1.index t (0 : Fin 2) = t.val
    ∧ win5_1.index t (1 : Fin 2) = 0
    ∧ win5_3.index t (0 : Fin 2) = t.val
    ∧ win5_3.index t (1 : Fin 2) = 0
    ∧ win5_7.index t (0 : Fin 2) = t.val
    ∧ win5_7.index t (1 : Fin 2) = 0
    ∧ win5_2.index t (0 : Fin 2) = t.val
    ∧ win5_2.index t (1 : Fin 2) = 0
    ∧ win5_4.index t (0 : Fin 2) = 0
    ∧ win5_4.index t (1 : Fin 2) = 0
    ∧ win5_5.index t (0 : Fin 2) = 0
    ∧ win5_5.index t (1 : Fin 2) = 0
    ∧ win5_6.index t (0 : Fin 2) = 0
    ∧ win5_6.index t (1 : Fin 2) = 0 :=
  (by decide +kernel : ∀ t : Fin grid5.N, _)

/-- What point `t` writes back is block `t` of the layer's row function of the arrays as the launch finds them. -/
theorem flushed5 (c : Dev nD) (t : Fin cfg5.N) :
    (dat5 V c).flushed 7 t
      = ((cfg5.win 7).blk t).view.read (Elt Ideal) (Gcn.fusedRes (V c main_v129) (V c main_v101) (V c main_v98) (fun r => V c main_v16 (@ix2 50000 1 r 0)) (fun k => V c main_v136 (@ix2 1 128 0 k)) (fun k => V c main_v137 (@ix2 1 128 0 k)) (fun k => V c main_v138 (@ix2 1 128 0 k))) := by
  show (cfg5.win 7).cut (grid5.coords t) ((dat5 V c).after 7 t) = _
  rw [after5_7]
  obtain ⟨f0, f1, f2, f3, f4, f5, f6, f7, f8, f9, f10, f11, f12, f13, f14, f15⟩ := idx_facts5 t
  refine funext fun (j : S2000x128.Idx) => ?_
  have hj0 : (j 0).val < 2000 := (j 0).isLt
  have hj1 : (j 1).val < 128 := (j 1).isLt
  refine (Blocks.out5_7_apply (iblk5 V c 0 t) (iblk5 V c 1 t) (iblk5 V c 2 t) (iblk5 V c 3 t) (iblk5 V c 4 t) (iblk5 V c 5 t) (iblk5 V c 6 t) j).trans ?_
  have h0 : ∀ k : Fin 128, iblk5 V c 0 t (@ix2 2000 128 (j 0) k) = V c main_v129 (@ix2 50000 128 ((((cfg5.win 7).blk t).view.emb j) 0) k) := fun k => by
    have hk : k.val < 128 := k.isLt
    have he : ((cfg5.win 0).blk t).view.emb (@ix2 2000 128 (j 0) k) = @ix2 50000 128 ((((cfg5.win 7).blk t).view.emb j) 0) k := by
      funext a; apply Fin.ext
      match a with
      | ⟨0, _⟩ => show win5_0.index t (0 : Fin 2) * 2000 + 1 * (j 0).val = win5_7.index t (0 : Fin 2) * 2000 + 1 * (j 0).val; omega
      | ⟨1, _⟩ => show win5_0.index t (1 : Fin 2) * 128 + 1 * k.val = k.val; omega
    exact (show iblk5 V c 0 t (@ix2 2000 128 (j 0) k) = V c main_v129 (((cfg5.win 0).blk t).view.emb (@ix2 2000 128 (j 0) k)) from rfl).trans (congrArg (V c main_v129) he)
  have h1 : ∀ k : Fin 128, iblk5 V c 1 t (@ix2 2000 128 (j 0) k) = V c main_v101 (@ix2 50000 128 ((((cfg5.win 7).blk t).view.emb j) 0) k) := fun k => by
    have hk : k.val < 128 := k.isLt
    have he : ((cfg5.win 1).blk t).view.emb (@ix2 2000 128 (j 0) k) = @ix2 50000 128 ((((cfg5.win 7).blk t).view.emb j) 0) k := by
      funext a; apply Fin.ext
      match a with
      | ⟨0, _⟩ => show win5_1.index t (0 : Fin 2) * 2000 + 1 * (j 0).val = win5_7.index t (0 : Fin 2) * 2000 + 1 * (j 0).val; omega
      | ⟨1, _⟩ => show win5_1.index t (1 : Fin 2) * 128 + 1 * k.val = k.val; omega
    exact (show iblk5 V c 1 t (@ix2 2000 128 (j 0) k) = V c main_v101 (((cfg5.win 1).blk t).view.emb (@ix2 2000 128 (j 0) k)) from rfl).trans (congrArg (V c main_v101) he)
  have h2 : iblk5 V c 2 t (@ix2 2000 1 (j 0) 0) = V c main_v16 (@ix2 50000 1 ((((cfg5.win 7).blk t).view.emb j) 0) 0) := by
    have he : ((cfg5.win 2).blk t).view.emb (@ix2 2000 1 (j 0) 0) = @ix2 50000 1 ((((cfg5.win 7).blk t).view.emb j) 0) 0 := by
      funext a; apply Fin.ext
      match a with
      | ⟨0, _⟩ => show win5_2.index t (0 : Fin 2) * 2000 + 1 * (j 0).val = win5_7.index t (0 : Fin 2) * 2000 + 1 * (j 0).val; omega
      | ⟨1, _⟩ => show win5_2.index t (1 : Fin 2) * 1 + 1 * 0 = 0; omega
    exact (show iblk5 V c 2 t (@ix2 2000 1 (j 0) 0) = V c main_v16 (((cfg5.win 2).blk t).view.emb (@ix2 2000 1 (j 0) 0)) from rfl).trans (congrArg (V c main_v16) he)
  have hb : ∀ k : Fin 128, iblk5 V c 4 t (@ix2 1 128 0 k) = V c main_v136 (@ix2 1 128 0 k) := fun k => by
    have hk : k.val < 128 := k.isLt
    have he : ((cfg5.win 4).blk t).view.emb (@ix2 1 128 0 k) = @ix2 1 128 0 k := by
      funext a; apply Fin.ext
      match a with
      | ⟨0, _⟩ => show win5_4.index t (0 : Fin 2) * 1 + 1 * 0 = 0; omega
      | ⟨1, _⟩ => show win5_4.index t (1 : Fin 2) * 128 + 1 * k.val = k.val; omega
    exact (show iblk5 V c 4 t (@ix2 1 128 0 k) = V c main_v136 (((cfg5.win 4).blk t).view.emb (@ix2 1 128 0 k)) from rfl).trans (congrArg (V c main_v136) he)
  have hg : ∀ k : Fin 128, iblk5 V c 5 t (@ix2 1 128 0 k) = V c main_v137 (@ix2 1 128 0 k) := fun k => by
    have hk : k.val < 128 := k.isLt
    have he : ((cfg5.win 5).blk t).view.emb (@ix2 1 128 0 k) = @ix2 1 128 0 k := by
      funext a; apply Fin.ext
      match a with
      | ⟨0, _⟩ => show win5_5.index t (0 : Fin 2) * 1 + 1 * 0 = 0; omega
      | ⟨1, _⟩ => show win5_5.index t (1 : Fin 2) * 128 + 1 * k.val = k.val; omega
    exact (show iblk5 V c 5 t (@ix2 1 128 0 k) = V c main_v137 (((cfg5.win 5).blk t).view.emb (@ix2 1 128 0 k)) from rfl).trans (congrArg (V c main_v137) he)
  have hbe : ∀ k : Fin 128, iblk5 V c 6 t (@ix2 1 128 0 k) = V c main_v138 (@ix2 1 128 0 k) := fun k => by
    have hk : k.val < 128 := k.isLt
    have he : ((cfg5.win 6).blk t).view.emb (@ix2 1 128 0 k) = @ix2 1 128 0 k := by
      funext a; apply Fin.ext
      match a with
      | ⟨0, _⟩ => show win5_6.index t (0 : Fin 2) * 1 + 1 * 0 = 0; omega
      | ⟨1, _⟩ => show win5_6.index t (1 : Fin 2) * 128 + 1 * k.val = k.val; omega
    exact (show iblk5 V c 6 t (@ix2 1 128 0 k) = V c main_v138 (((cfg5.win 6).blk t).view.emb (@ix2 1 128 0 k)) from rfl).trans (congrArg (V c main_v138) he)
  have hq : (j 1 : Fin 128) = (((cfg5.win 7).blk t).view.emb j) 1 := Fin.ext (by
    show (j 1).val = win5_7.index t (1 : Fin 2) * 128 + 1 * (j 1).val; omega)
  have h3 : iblk5 V c 3 t j = V c main_v98 (((cfg5.win 7).blk t).view.emb j) := by
    have he : ((cfg5.win 3).blk t).view.emb j = (((cfg5.win 7).blk t).view.emb j) := by
      funext a; apply Fin.ext
      match a with
      | ⟨0, _⟩ => show win5_3.index t (0 : Fin 2) * 2000 + 1 * (j 0).val = win5_7.index t (0 : Fin 2) * 2000 + 1 * (j 0).val; omega
      | ⟨1, _⟩ => show win5_3.index t (1 : Fin 2) * 128 + 1 * (j 1).val = win5_7.index t (1 : Fin 2) * 128 + 1 * (j 1).val; omega
    exact (show iblk5 V c 3 t j = V c main_v98 (((cfg5.win 3).blk t).view.emb j) from rfl).trans (congrArg (V c main_v98) he)
  simp only [h0, h1, h2, hb, hg, hbe, h3]
  rw [hq]
  rfl

/-- An index of the result array is in point `t`'s block iff each coordinate is in the block's range. -/
theorem mem_blk5 (t : Fin cfg5.N) (i : S50000x128.Idx) :
    i ∈ ((cfg5.win 7).blk t).view.set ↔ ∀ a : Fin 2, win5_7.index t a * S2000x128.size a ≤ (i a).val ∧ (i a).val < win5_7.index t a * S2000x128.size a + S2000x128.size a := by
  show i ∈ ((View.whole main_v139).slice (win5_7.rect t)).set ↔ _
  rw [View.set_slice_whole, Rect.mem_set_unit]
  exact Iff.rfl

/-- Row `r` of the result is written by point `r / 2000`. -/
theorem cover5 (i : S50000x128.Idx) :
    ∃ t : Fin cfg5.N, (cfg5.win 7).flush t = true ∧ i ∈ ((cfg5.win 7).blk t).view.set := by
  have hi0 : (i 0).val < 50000 := (i 0).isLt
  have hi1 : (i 1).val < 128 := (i 1).isLt
  have hN : cfg5.N = 25 := N_5
  let t : Fin cfg5.N := ⟨(i 0).val / 2000, by rw [hN]; omega⟩
  have ht : t.val = (i 0).val / 2000 := rfl
  obtain ⟨f0, f1, f2, f3, f4, f5, f6, f7, f8, f9, f10, f11, f12, f13, f14, f15⟩ := idx_facts5 t
  refine ⟨t, flush5_7 t, ?_⟩
  rw [mem_blk5]
  intro a
  match a with
  | ⟨0, _⟩ => show win5_7.index t (0 : Fin 2) * 2000 ≤ (i 0).val ∧ (i 0).val < win5_7.index t (0 : Fin 2) * 2000 + 2000; omega
  | ⟨1, _⟩ => show win5_7.index t (1 : Fin 2) * 128 ≤ (i 1).val ∧ (i 1).val < win5_7.index t (1 : Fin 2) * 128 + 128; omega

/-- After launch 5 its result array is the layer's row function of its operand arrays. -/
theorem final5 (c : Dev nD) : (dat5 V c).arrAt 7 cfg5.N = Gcn.fusedRes (V c main_v129) (V c main_v101) (V c main_v98) (fun r => V c main_v16 (@ix2 50000 1 r 0)) (fun k => V c main_v136 (@ix2 1 128 0 k)) (fun k => V c main_v137 (@ix2 1 128 0 k)) (fun k => V c main_v138 (@ix2 1 128 0 k)) :=
  (dat5 V c).arrAt_eq_of_cover 7 _ (fun t _ => flushed5 V c t) (cover5)

end Cert.KernelIdeal.RegionsLN

end
-- ==== Proof.LibColumnCast.lean ====
/-
  A vector cast to a column.  A length-a array reshaped to [a, 1] reads, at (i, u), the array at i, whatever the
  unit coordinate u: row-major order numbers both (i, u) and i by i.
-/
import Idealize.ShloMosaic.Lib.Pipeline.Value
import Idealize.ShloMosaic.Lib.ValueIdx

noncomputable section

namespace Cert.LibColumnCast

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast

end
-- ==== Proof.Fold.lean ====
/-
  The buffer contents followed through the program: what the result buffer holds at the end.

  At every boundary eight buffers still hold what the first stretch of host operations (or the launch) put there:
  the edges' sources and destinations, the nodes' normalising factors as a vector and as a column, and the four stacked
  parameter arrays (`Persist`).  Between them the layers' values appear one after the other: a product array after each
  dense-product launch, a layer's output after each fused launch.  Reading the six launches' result arrays by the block
  lemmas and the host stretches' results as the named host functions, the result buffer ends at `Gcn.forward` of the
  argument arrays.
-/
import proofs.«167512_j63471026700852_1_alg».proof.Proof.Gen.KernelIdeal.Frame
import proofs.«167512_j63471026700852_1_alg».proof.Proof.Glue
import proofs.«167512_j63471026700852_1_alg».proof.Proof.Keep
import proofs.«167512_j63471026700852_1_alg».proof.Proof.RegionsMM
import proofs.«167512_j63471026700852_1_alg».proof.Proof.RegionsLN
import proofs.«167512_j63471026700852_1_alg».proof.Proof.LibColumnCast
import Idealize.ShloMosaic.Lib.ValueLayout
import Idealize.ShloMosaic.Lib.StableHlo.Run

set_option maxRecDepth 16384

noncomputable section

namespace Cert.KernelIdeal.Fold

open Idealize.ShloMosaic Idealize.ShloMosaic.TcCoe Idealize.ShloMosaic.ValueIdx Idealize.SL.Sem Idealize.ShloMosaic.StableHlo
open Cert.KernelIdeal Cert.KernelIdeal.Gen Cert.KernelIdeal.Facts₀ Cert.KernelIdeal.Keep

variable (m : (ℓ : Loc nD τ sig) → Buf (Elt Ideal) ℓ) (ρ : Dev nD → PrngReg) (c : Dev nD)

/-- The six argument arrays as launched. -/
abbrev A0 : Gcn.FArr S50000x128 := m ((c : Thread nD τ).loc main_arg0)
abbrev A1 : Gcn.IArr S2x800000 := m ((c : Thread nD τ).loc main_arg1)
abbrev A2 : Gcn.FArr S3x128x128 := m ((c : Thread nD τ).loc main_arg2)
abbrev A3 : Gcn.FArr S3x128 := m ((c : Thread nD τ).loc main_arg3)
abbrev A4 : Gcn.FArr S3x128 := m ((c : Thread nD τ).loc main_arg4)
abbrev A5 : Gcn.FArr S3x128 := m ((c : Thread nD τ).loc main_arg5)

/-- The nodes' factors as a column. -/
abbrev dcol : Gcn.FArr S50000x1 := shapeCast _ (Gcn.dinvOf (A1 m c)) Facts₀.shapeCasts_S50000_S50000x1

/-- A per-feature vector as a one-row matrix. -/
abbrev asRow (v : Gcn.FArr S128) : Gcn.FArr S1x128 := shapeCast _ v Facts₀.shapeCasts_S128_S1x128

/-- What a boundary's contents `W` hold at the eight long-lived buffers. -/
def Persist (W : Valuation τ sig (Elt Ideal)) : Prop :=
  W (Proc.devRef .tc main_v1) = Gcn.srcOf (A1 m c) ∧ W (Proc.devRef .tc main_v3) = Gcn.dstOf (A1 m c)
  ∧ W (Proc.devRef .tc main_v15) = Gcn.dinvOf (A1 m c) ∧ W (Proc.devRef .tc main_v16) = dcol m c
  ∧ W (Proc.devRef .tc main_arg2) = A2 m c ∧ W (Proc.devRef .tc main_arg3) = A3 m c
  ∧ W (Proc.devRef .tc main_arg4) = A4 m c ∧ W (Proc.devRef .tc main_arg5) = A5 m c

/-- The long-lived buffers other than the factor column (which three launches read as an operand). -/
abbrev longLived : List (Ref sig .tc) := [main_v1, main_v3, main_v15, main_arg2, main_arg3, main_arg4, main_arg5]

/-- If the next boundary agrees with this one on the eight buffers, it holds the same there. -/
theorem Persist.step {W W' : Valuation τ sig (Elt Ideal)} (h : Persist m c W)
    (hs : ∀ r ∈ longLived, W' (Proc.devRef .tc r) = W (Proc.devRef .tc r))
    (h16 : W' (Proc.devRef .tc main_v16) = W (Proc.devRef .tc main_v16)) : Persist m c W' :=
  ⟨(hs main_v1 (by decide)).trans h.1, (hs main_v3 (by decide)).trans h.2.1, (hs main_v15 (by decide)).trans h.2.2.1,
    h16.trans h.2.2.2.1, (hs main_arg2 (by decide)).trans h.2.2.2.2.1, (hs main_arg3 (by decide)).trans h.2.2.2.2.2.1,
    (hs main_arg4 (by decide)).trans h.2.2.2.2.2.2.1, (hs main_arg5 (by decide)).trans h.2.2.2.2.2.2.2⟩

/-! ## The eight buffers at every boundary -/

theorem persist1 : Persist m c (W1 m ρ c) := by
  refine ⟨?_, ?_, ?_, ?_, keepH0 m ρ c main_arg2 (by decide), keepH0 m ρ c main_arg3 (by decide),
    keepH0 m ρ c main_arg4 (by decide), keepH0 m ρ c main_arg5 (by decide)⟩ <;>
  (dsimp only [W1, hostOps0]; after_results_simp) <;> rfl

theorem persist2 : Persist m c (W2 m ρ c) :=
  (persist1 m ρ c).step m c (fun r hr => W2_of_ne m ρ c r ((by decide : ∀ r ∈ longLived, ∀ w, Pipeline.arrRef spec0 w ≠ r) r hr))
    (W2_of_ne m ρ c main_v16 (by decide))

theorem persist3 : Persist m c (W3 m ρ c) :=
  (persist2 m ρ c).step m c (fun r hr => keepH1 m ρ c r ((by decide : ∀ r ∈ longLived, r ∉ hostOps1_W) r hr))
    (keepH1 m ρ c main_v16 (by decide))

theorem persist4 : Persist m c (W4 m ρ c) :=
  (persist3 m ρ c).step m c (fun r hr => W4_of_ne m ρ c r ((by decide : ∀ r ∈ longLived, ∀ w, Pipeline.arrRef spec1 w ≠ r) r hr))
    ((W4_arr m ρ c 2).trans (((dat1 (V3 m ρ) c).arrAt_in 2 rfl _).trans (A_eq1 (V3 m ρ) c 2)))

theorem persist5 : Persist m c (W5 m ρ c) :=
  (persist4 m ρ c).step m c (fun r hr => keepH2 m ρ c r ((by decide : ∀ r ∈ longLived, r ∉ hostOps2_W) r hr))
    (keepH2 m ρ c main_v16 (by decide))

theorem persist6 : Persist m c (W6 m ρ c) :=
  (persist5 m ρ c).step m c (fun r hr => W6_of_ne m ρ c r ((by decide : ∀ r ∈ longLived, ∀ w, Pipeline.arrRef spec2 w ≠ r) r hr))
    (W6_of_ne m ρ c main_v16 (by decide))

theorem persist7 : Persist m c (W7 m ρ c) :=
  (persist6 m ρ c).step m c (fun r hr => keepH3 m ρ c r ((by decide : ∀ r ∈ longLived, r ∉ hostOps3_W) r hr))
    (keepH3 m ρ c main_v16 (by decide))

theorem persist8 : Persist m c (W8 m ρ c) :=
  (persist7 m ρ c).step m c (fun r hr => W8_of_ne m ρ c r ((by decide : ∀ r ∈ longLived, ∀ w, Pipeline.arrRef spec3 w ≠ r) r hr))
    ((W8_arr m ρ c 2).trans (((dat3 (V7 m ρ) c).arrAt_in 2 rfl _).trans (A_eq3 (V7 m ρ) c 2)))

theorem persist9 : Persist m c (W9 m ρ c) :=
  (persist8 m ρ c).step m c (fun r hr => keepH4 m ρ c r ((by decide : ∀ r ∈ longLived, r ∉ hostOps4_W) r hr))
    (keepH4 m ρ c main_v16 (by decide))

theorem persist10 : Persist m c (W10 m ρ c) :=
  (persist9 m ρ c).step m c (fun r hr => W10_of_ne m ρ c r ((by decide : ∀ r ∈ longLived, ∀ w, Pipeline.arrRef spec4 w ≠ r) r hr))
    (W10_of_ne m ρ c main_v16 (by decide))

theorem persist11 : Persist m c (W11 m ρ c) :=
  (persist10 m ρ c).step m c (fun r hr => keepH5 m ρ c r ((by decide : ∀ r ∈ longLived, r ∉ hostOps5_W) r hr))
    (keepH5 m ρ c main_v16 (by decide))

end Cert.KernelIdeal.Fold

end
-- ==== Proof.Stages.lean ====
/-
  The layers' values at the boundaries, one layer after the other.

  Per layer: the dense-product launch finds its left operand (the node features, or the previous layer's output) and this
  layer's weight matrix, and leaves the product; the next stretch of host operations aggregates the product along the
  edges and slices the layer's bias, scale and shift; the fused launch finds those, the product, the nodes' factor column
  and (from the second layer on) the layer's input, and leaves the layer's output.  After the third layer the result buffer
  holds `Gcn.forward` of the arguments.
-/
import proofs.«167512_j63471026700852_1_alg».proof.Proof.Fold

set_option maxRecDepth 16384

noncomputable section

namespace Cert.KernelIdeal.Fold

open Idealize.ShloMosaic Idealize.ShloMosaic.TcCoe Idealize.ShloMosaic.ValueIdx Idealize.SL.Sem Idealize.ShloMosaic.StableHlo
open Cert.KernelIdeal Cert.KernelIdeal.Gen Cert.KernelIdeal.Facts₀ Cert.KernelIdeal.Keep

/-- The factor column read at a node is the factor vector at that node, and a one-row matrix read at a feature is the
    vector at that feature: so the fused launch's row function of the column and rows is the layer's row function of the
    vectors. -/
theorem fused_glue (agg hmm : Gcn.FArr S50000x128) (d : Gcn.FArr S50000) (b g be : Gcn.FArr S128) :
    Gcn.fused agg hmm (fun r => (shapeCast _ d Facts₀.shapeCasts_S50000_S50000x1 : Gcn.FArr S50000x1) (ix2 r (0 : Fin 1)))
        (fun k => asRow b (ix2 (0 : Fin 1) k)) (fun k => asRow g (ix2 (0 : Fin 1) k)) (fun k => asRow be (ix2 (0 : Fin 1) k))
      = Gcn.fused agg hmm (Gcn.atNode d) (Gcn.atFeat b) (Gcn.atFeat g) (Gcn.atFeat be) := by
  have hd : (fun r : Fin 50000 => (shapeCast _ d Facts₀.shapeCasts_S50000_S50000x1 : Gcn.FArr S50000x1) (ix2 r (0 : Fin 1))) = Gcn.atNode d :=
    funext fun r => Cert.LibColumnCast.shapeCast_a_a1_apply d Facts₀.shapeCasts_S50000_S50000x1 r 0
  have hrow : ∀ v : Gcn.FArr S128, (fun k : Fin 128 => asRow v (ix2 (0 : Fin 1) k)) = Gcn.atFeat v :=
    fun v => funext fun k => shapeCast_a_1a_apply v Facts₀.shapeCasts_S128_S1x128 0 k
  rw [hd, hrow b, hrow g, hrow be]

theorem fusedRes_glue (agg hmm hin : Gcn.FArr S50000x128) (d : Gcn.FArr S50000) (b g be : Gcn.FArr S128) :
    Gcn.fusedRes agg hmm hin (fun r => (shapeCast _ d Facts₀.shapeCasts_S50000_S50000x1 : Gcn.FArr S50000x1) (ix2 r (0 : Fin 1)))
        (fun k => asRow b (ix2 (0 : Fin 1) k)) (fun k => asRow g (ix2 (0 : Fin 1) k)) (fun k => asRow be (ix2 (0 : Fin 1) k))
      = Gcn.fusedRes agg hmm hin (Gcn.atNode d) (Gcn.atFeat b) (Gcn.atFeat g) (Gcn.atFeat be) := by
  unfold Gcn.fusedRes
  rw [fused_glue]

variable (m : (ℓ : Loc nD τ sig) → Buf (Elt Ideal) ℓ) (ρ : Dev nD → PrngReg) (c : Dev nD)

/-! ## Layer 0 -/

/-- The layer's output as a function of the argument arrays. -/
abbrev H0 : Gcn.FArr S50000x128 :=
  Gcn.layer0 (A0 m c) (A1 m c) (Gcn.wOf0 (A2 m c)) (Gcn.vecOf0 (A3 m c)) (Gcn.vecOf0 (A4 m c)) (Gcn.vecOf0 (A5 m c))

/-- The dense product's left operand is the node features as launched. -/
theorem lhs0 : W1 m ρ c (Proc.devRef .tc main_arg0) = A0 m c := keepH0 m ρ c main_arg0 (by decide)

/-- Its right operand is the first layer's weight matrix. -/
theorem rhs0 : W1 m ρ c (Proc.devRef .tc main_v18) = Gcn.wOf0 (A2 m c) := by
  dsimp only [W1, hostOps0]; after_results_simp <;> rfl

/-- After the dense-product launch its result array is the product. -/
theorem prod0 : W2 m ρ c (Proc.devRef .tc main_v19) = Gcn.mmA (A0 m c) (Gcn.wOf0 (A2 m c)) := by
  refine ((W2_arr m ρ c 2).trans (RegionsMM.final0 (V1 m ρ) c)).trans ?_
  dsimp only [V1]
  rw [lhs0 m ρ c, rhs0 m ρ c]

/-- The stretch before the fused launch aggregates the product along the edges. -/
theorem agg0 : W3 m ρ c (Proc.devRef .tc main_v47)
    = Gcn.aggOf (Gcn.mmA (A0 m c) (Gcn.wOf0 (A2 m c))) (Gcn.srcOf (A1 m c)) (Gcn.dstOf (A1 m c)) (Gcn.dinvOf (A1 m c)) := by
  have e : W3 m ρ c (Proc.devRef .tc main_v47)
      = Gcn.aggOf (W2 m ρ c (Proc.devRef .tc main_v19)) (W2 m ρ c (Proc.devRef .tc main_v1)) (W2 m ρ c (Proc.devRef .tc main_v3)) (W2 m ρ c (Proc.devRef .tc main_v15)) := by
    dsimp only [W3, hostOps1]; after_results_simp <;> rfl
  rw [e, prod0 m ρ c, (persist2 m ρ c).1, (persist2 m ρ c).2.1, (persist2 m ρ c).2.2.1]

/-- It also slices the layer's bias, scale and shift rows. -/
theorem rowb0 : W3 m ρ c (Proc.devRef .tc main_v54) = asRow (Gcn.vecOf0 (A3 m c)) := by
  have e : W3 m ρ c (Proc.devRef .tc main_v54) = asRow (Gcn.vecOf0 (W2 m ρ c (Proc.devRef .tc main_arg3))) := by
    dsimp only [W3, hostOps1]; after_results_simp <;> rfl
  rw [e, (persist2 m ρ c).2.2.2.2.2.1]
theorem rowg0 : W3 m ρ c (Proc.devRef .tc main_v55) = asRow (Gcn.vecOf0 (A4 m c)) := by
  have e : W3 m ρ c (Proc.devRef .tc main_v55) = asRow (Gcn.vecOf0 (W2 m ρ c (Proc.devRef .tc main_arg4))) := by
    dsimp only [W3, hostOps1]; after_results_simp <;> rfl
  rw [e, (persist2 m ρ c).2.2.2.2.2.2.1]
theorem rowbe0 : W3 m ρ c (Proc.devRef .tc main_v56) = asRow (Gcn.vecOf0 (A5 m c)) := by
  have e : W3 m ρ c (Proc.devRef .tc main_v56) = asRow (Gcn.vecOf0 (W2 m ρ c (Proc.devRef .tc main_arg5))) := by
    dsimp only [W3, hostOps1]; after_results_simp <;> rfl
  rw [e, (persist2 m ρ c).2.2.2.2.2.2.2]

/-- and leaves the product alone. -/
theorem prodKept0 : W3 m ρ c (Proc.devRef .tc main_v19) = Gcn.mmA (A0 m c) (Gcn.wOf0 (A2 m c)) :=
  (keepH1 m ρ c main_v19 (by decide)).trans (prod0 m ρ c)

/-- After the fused launch its result array is the layer's output. -/
theorem out0 : W4 m ρ c (Proc.devRef .tc main_v57) = H0 m c := by
  refine ((W4_arr m ρ c 6).trans (RegionsLN.final1 (V3 m ρ) c)).trans ?_
  dsimp only [V3]
  rw [agg0 m ρ c, prodKept0 m ρ c, (persist3 m ρ c).2.2.2.1, rowb0 m ρ c, rowg0 m ρ c, rowbe0 m ρ c]
  exact fused_glue _ _ _ _ _ _

/-! ## Layer 1 -/

/-- The layer's output as a function of the argument arrays. -/
abbrev H1 : Gcn.FArr S50000x128 :=
  Gcn.layerR (H0 m c) (A1 m c) (Gcn.wOf1 (A2 m c)) (Gcn.vecOf1 (A3 m c)) (Gcn.vecOf1 (A4 m c)) (Gcn.vecOf1 (A5 m c))

/-- The dense product's left operand is the previous layer's output, which the stretch before it leaves alone. -/
theorem lhs1 : W5 m ρ c (Proc.devRef .tc main_v57) = H0 m c :=
  (keepH2 m ρ c main_v57 (by decide)).trans (out0 m ρ c)

/-- Its right operand is this layer's weight matrix, sliced from the stacked weights the boundary still holds. -/
theorem rhs1 : W5 m ρ c (Proc.devRef .tc main_v59) = Gcn.wOf1 (A2 m c) := by
  have e : W5 m ρ c (Proc.devRef .tc main_v59) = Gcn.wOf1 (W4 m ρ c (Proc.devRef .tc main_arg2)) := by
    dsimp only [W5, hostOps2]; after_results_simp <;> rfl
  rw [e, (persist4 m ρ c).2.2.2.2.1]

/-- After the dense-product launch its result array is the product. -/
theorem prod1 : W6 m ρ c (Proc.devRef .tc main_v60) = Gcn.mmA (H0 m c) (Gcn.wOf1 (A2 m c)) := by
  refine ((W6_arr m ρ c 2).trans (RegionsMM.final2 (V5 m ρ) c)).trans ?_
  dsimp only [V5]
  rw [lhs1 m ρ c, rhs1 m ρ c]

/-- The stretch before the fused launch aggregates the product along the edges. -/
theorem agg1 : W7 m ρ c (Proc.devRef .tc main_v88)
    = Gcn.aggOf (Gcn.mmA (H0 m c) (Gcn.wOf1 (A2 m c))) (Gcn.srcOf (A1 m c)) (Gcn.dstOf (A1 m c)) (Gcn.dinvOf (A1 m c)) := by
  have e : W7 m ρ c (Proc.devRef .tc main_v88)
      = Gcn.aggOf (W6 m ρ c (Proc.devRef .tc main_v60)) (W6 m ρ c (Proc.devRef .tc main_v1)) (W6 m ρ c (Proc.devRef .tc main_v3)) (W6 m ρ c (Proc.devRef .tc main_v15)) := by
    dsimp only [W7, hostOps3]; after_results_simp <;> rfl
  rw [e, prod1 m ρ c, (persist6 m ρ c).1, (persist6 m ρ c).2.1, (persist6 m ρ c).2.2.1]

/-- It also slices the layer's bias, scale and shift rows. -/
theorem rowb1 : W7 m ρ c (Proc.devRef .tc main_v95) = asRow (Gcn.vecOf1 (A3 m c)) := by
  have e : W7 m ρ c (Proc.devRef .tc main_v95) = asRow (Gcn.vecOf1 (W6 m ρ c (Proc.devRef .tc main_arg3))) := by
    dsimp only [W7, hostOps3]; after_results_simp <;> rfl
  rw [e, (persist6 m ρ c).2.2.2.2.2.1]
theorem rowg1 : W7 m ρ c (Proc.devRef .tc main_v96) = asRow (Gcn.vecOf1 (A4 m c)) := by
  have e : W7 m ρ c (Proc.devRef .tc main_v96) = asRow (Gcn.vecOf1 (W6 m ρ c (Proc.devRef .tc main_arg4))) := by
    dsimp only [W7, hostOps3]; after_results_simp <;> rfl
  rw [e, (persist6 m ρ c).2.2.2.2.2.2.1]
theorem rowbe1 : W7 m ρ c (Proc.devRef .tc main_v97) = asRow (Gcn.vecOf1 (A5 m c)) := by
  have e : W7 m ρ c (Proc.devRef .tc main_v97) = asRow (Gcn.vecOf1 (W6 m ρ c (Proc.devRef .tc main_arg5))) := by
    dsimp only [W7, hostOps3]; after_results_simp <;> rfl
  rw [e, (persist6 m ρ c).2.2.2.2.2.2.2]

/-- and leaves the product alone. -/
theorem prodKept1 : W7 m ρ c (Proc.devRef .tc main_v60) = Gcn.mmA (H0 m c) (Gcn.wOf1 (A2 m c)) :=
  (keepH3 m ρ c main_v60 (by decide)).trans (prod1 m ρ c)

/-- The layer's input is still in its buffer when the fused launch reads it: the dense-product launch only read it. -/
theorem hin1 : W7 m ρ c (Proc.devRef .tc main_v57) = H0 m c :=
  (keepH3 m ρ c main_v57 (by decide)).trans
    (((W6_arr m ρ c 0).trans (((dat2 (V5 m ρ) c).arrAt_in 0 rfl _).trans (A_eq2 (V5 m ρ) c 0))).trans (lhs1 m ρ c))

/-- After the fused launch its result array is the layer's output. -/
theorem out1 : W8 m ρ c (Proc.devRef .tc main_v98) = H1 m c := by
  refine ((W8_arr m ρ c 7).trans (RegionsLN.final3 (V7 m ρ) c)).trans ?_
  dsimp only [V7]
  rw [agg1 m ρ c, prodKept1 m ρ c, hin1 m ρ c, (persist7 m ρ c).2.2.2.1, rowb1 m ρ c, rowg1 m ρ c, rowbe1 m ρ c]
  exact fusedRes_glue _ _ _ _ _ _ _

/-! ## Layer 2 -/

/-- The layer's output as a function of the argument arrays. -/
abbrev H2 : Gcn.FArr S50000x128 :=
  Gcn.layerR (H1 m c) (A1 m c) (Gcn.wOf2 (A2 m c)) (Gcn.vecOf2 (A3 m c)) (Gcn.vecOf2 (A4 m c)) (Gcn.vecOf2 (A5 m c))

/-- The dense product's left operand is the previous layer's output, which the stretch before it leaves alone. -/
theorem lhs2 : W9 m ρ c (Proc.devRef .tc main_v98) = H1 m c :=
  (keepH4 m ρ c main_v98 (by decide)).trans (out1 m ρ c)

/-- Its right operand is this layer's weight matrix, sliced from the stacked weights the boundary still holds. -/
theorem rhs2 : W9 m ρ c (Proc.devRef .tc main_v100) = Gcn.wOf2 (A2 m c) := by
  have e : W9 m ρ c (Proc.devRef .tc main_v100) = Gcn.wOf2 (W8 m ρ c (Proc.devRef .tc main_arg2)) := by
    dsimp only [W9, hostOps4]; after_results_simp <;> rfl
  rw [e, (persist8 m ρ c).2.2.2.2.1]

/-- After the dense-product launch its result array is the product. -/
theorem prod2 : W10 m ρ c (Proc.devRef .tc main_v101) = Gcn.mmA (H1 m c) (Gcn.wOf2 (A2 m c)) := by
  refine ((W10_arr m ρ c 2).trans (RegionsMM.final4 (V9 m ρ) c)).trans ?_
  dsimp only [V9]
  rw [lhs2 m ρ c, rhs2 m ρ c]

/-- The stretch before the fused launch aggregates the product along the edges. -/
theorem agg2 : W11 m ρ c (Proc.devRef .tc main_v129)
    = Gcn.aggOf (Gcn.mmA (H1 m c) (Gcn.wOf2 (A2 m c))) (Gcn.srcOf (A1 m c)) (Gcn.dstOf (A1 m c)) (Gcn.dinvOf (A1 m c)) := by
  have e : W11 m ρ c (Proc.devRef .tc main_v129)
      = Gcn.aggOf (W10 m ρ c (Proc.devRef .tc main_v101)) (W10 m ρ c (Proc.devRef .tc main_v1)) (W10 m ρ c (Proc.devRef .tc main_v3)) (W10 m ρ c (Proc.devRef .tc main_v15)) := by
    dsimp only [W11, hostOps5]; after_results_simp <;> rfl
  rw [e, prod2 m ρ c, (persist10 m ρ c).1, (persist10 m ρ c).2.1, (persist10 m ρ c).2.2.1]

/-- It also slices the layer's bias, scale and shift rows. -/
theorem rowb2 : W11 m ρ c (Proc.devRef .tc main_v136) = asRow (Gcn.vecOf2 (A3 m c)) := by
  have e : W11 m ρ c (Proc.devRef .tc main_v136) = asRow (Gcn.vecOf2 (W10 m ρ c (Proc.devRef .tc main_arg3))) := by
    dsimp only [W11, hostOps5]; after_results_simp <;> rfl
  rw [e, (persist10 m ρ c).2.2.2.2.2.1]
theorem rowg2 : W11 m ρ c (Proc.devRef .tc main_v137) = asRow (Gcn.vecOf2 (A4 m c)) := by
  have e : W11 m ρ c (Proc.devRef .tc main_v137) = asRow (Gcn.vecOf2 (W10 m ρ c (Proc.devRef .tc main_arg4))) := by
    dsimp only [W11, hostOps5]; after_results_simp <;> rfl
  rw [e, (persist10 m ρ c).2.2.2.2.2.2.1]
theorem rowbe2 : W11 m ρ c (Proc.devRef .tc main_v138) = asRow (Gcn.vecOf2 (A5 m c)) := by
  have e : W11 m ρ c (Proc.devRef .tc main_v138) = asRow (Gcn.vecOf2 (W10 m ρ c (Proc.devRef .tc main_arg5))) := by
    dsimp only [W11, hostOps5]; after_results_simp <;> rfl
  rw [e, (persist10 m ρ c).2.2.2.2.2.2.2]

/-- and leaves the product alone. -/
theorem prodKept2 : W11 m ρ c (Proc.devRef .tc main_v101) = Gcn.mmA (H1 m c) (Gcn.wOf2 (A2 m c)) :=
  (keepH5 m ρ c main_v101 (by decide)).trans (prod2 m ρ c)

/-- The layer's input is still in its buffer when the fused launch reads it: the dense-product launch only read it. -/
theorem hin2 : W11 m ρ c (Proc.devRef .tc main_v98) = H1 m c :=
  (keepH5 m ρ c main_v98 (by decide)).trans
    (((W10_arr m ρ c 0).trans (((dat4 (V9 m ρ) c).arrAt_in 0 rfl _).trans (A_eq4 (V9 m ρ) c 0))).trans (lhs2 m ρ c))

/-- After the fused launch its result array is the layer's output. -/
theorem out2 : W12 m ρ c (Proc.devRef .tc main_v139) = H2 m c := by
  refine ((W12_arr m ρ c 7).trans (RegionsLN.final5 (V11 m ρ) c)).trans ?_
  dsimp only [V11]
  rw [agg2 m ρ c, prodKept2 m ρ c, hin2 m ρ c, (persist11 m ρ c).2.2.2.1, rowb2 m ρ c, rowg2 m ρ c, rowbe2 m ρ c]
  exact fusedRes_glue _ _ _ _ _ _ _

/-- The result buffer at the last boundary holds the network's value of the argument arrays. -/
theorem result : W12 m ρ c (Proc.devRef .tc main_v139) = Gcn.forward (A0 m c) (A1 m c) (A2 m c) (A3 m c) (A4 m c) (A5 m c) :=
  out2 m ρ c

end Cert.KernelIdeal.Fold

end
-- ==== Proof.RefTerm.lean ====
/-
  One layer of the reference, as the term of host operations it is, over abstract operands.

  The reference computes a layer from its input `h`, the edges' sources and destinations, the nodes' factors, the layer's
  weight matrix and its bias, scale and shift vectors: the dense product, the aggregation along the edges (gather, scale,
  scatter-add), the self-loop term and the bias, then the row normalisation (two row sums, each divided by 128, the
  reciprocal square root of the variance plus epsilon, scale, shift) and the clamp at zero.  `layerT` is that composition,
  operation for operation and in the reference's order; from the second layer on the input is added in front (`layerTR`).
-/
import proofs.«167512_j63471026700852_1_alg».proof.ReferenceIdeal
import proofs.«167512_j63471026700852_1_alg».proof.Proof.Glue

noncomputable section

namespace Cert.ReferenceIdeal.RefTerm

open Idealize.ShloMosaic Cert.ReferenceIdeal Cert.ReferenceIdeal.Facts₀
open Cert.Gcn (FArr IArr)

variable [Cert.ReferenceIdeal.Facts]

/-- An index vector with negative entries wrapped around by 50000, as a column of indices (the reference's spelling). -/
def wrapT (v : IArr S800000) : IArr S800000x1 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The layer's products aggregated along the edges (the reference's spelling of the shared host operations). -/
def aggT (hmm : FArr S50000x128) (src dst : IArr S800000) (dinv : FArr S50000) : FArr S50000x128 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (mulf (Host.gather gather_S50000x128_S800000x1_S800000x128_1_0_n_n_0_1_1128 hmm (wrapT src))
      (broadcastInDim S800000x128 ![0, 1] bcast_S800000x1_S800000x128_0_1
        (broadcastInDim S800000x1 ![0] bcast_S800000_S800000x1_0
          (mulf (Host.gather gather_S50000_S800000x1_S800000_n_0_n_n_0_1_1 dinv (wrapT src))
            (Host.gather gather_S50000_S800000x1_S800000_n_0_n_n_0_1_1 dinv (wrapT dst))))))

/-- A per-feature vector spread over the 50000 rows. -/
def featT (v : FArr S128) : FArr S50000x128 :=
  broadcastInDim S50000x128 ![0, 1] bcast_S1x128_S50000x128_0_1 (broadcastInDim S1x128 ![1] bcast_S128_S1x128_1 v)

/-- A per-node column spread over the 128 features. -/
def nodeT (v : FArr S50000x1) : FArr S50000x128 :=
  broadcastInDim S50000x128 ![0, 1] bcast_S50000x1_S50000x128_0_1 v

/-- A row sum (from zero) as a column, divided by 128: the row mean. -/
def meanT (p : FArr S50000x128) : FArr S50000x1 :=
  Host.divf (broadcastInDim S50000x1 ![0] bcast_S50000_S50000x1_0
      (Host.reduceAdd p (constant S_ .f32 0x00000000#32) reducesTo_S50000x128_S50000_d1 h_S_))
    (broadcastInDim S50000x1 ![] bcast_S_S50000x1 (constant S_ .f32 0x43000000#32))

/-- The rows before normalisation: aggregated messages, plus the self-loop term, plus the bias. -/
def preT (h : FArr S50000x128) (src dst : IArr S800000) (dinv : FArr S50000) (w : FArr S128x128) (b : FArr S128) : FArr S50000x128 :=
  let hmm : FArr S50000x128 := Host.dotGeneral dot_S50000x128_S128x128_S50000x128_1_0_0_1_n_n none h w
  addf (addf (aggT hmm src dst dinv)
      (mulf hmm (nodeT (broadcastInDim S50000x1 ![0] bcast_S50000_S50000x1_0 (mulf dinv dinv)))))
    (featT b)

/-- The row normalisation, scale, shift and clamp of an array of rows. -/
def lnT (p : FArr S50000x128) (g be : FArr S128) : FArr S50000x128 :=
  let dev : FArr S50000x128 := subf p (nodeT (meanT p))
  let rs : FArr S50000x1 := Host.rsqrt (addf (meanT (mulf dev dev))
    (broadcastInDim S50000x1 ![] bcast_S_S50000x1 (constant S_ .f32 0x3727C5AC#32)))
  maximumf (addf (mulf (mulf dev (nodeT rs)) (featT g)) (featT be))
    (broadcastInDim S50000x128 ![] bcast_S_S50000x128 (constant S_ .f32 0x00000000#32))

/-- A layer without the residual. -/
def layerT (h : FArr S50000x128) (src dst : IArr S800000) (dinv : FArr S50000) (w : FArr S128x128) (b g be : FArr S128) : FArr S50000x128 :=
  lnT (preT h src dst dinv w b) g be

/-- A layer with the residual: the input first. -/
def layerTR (h : FArr S50000x128) (src dst : IArr S800000) (dinv : FArr S50000) (w : FArr S128x128) (b g be : FArr S128) : FArr S50000x128 :=
  addf h (layerT h src dst dinv w b g be)

end Cert.ReferenceIdeal.RefTerm

end
-- ==== Proof.RefLayer.lean ====
/-
  One layer of the reference is the specification's layer.

  The reference spells a layer as host operations on whole arrays (RefTerm.lean).  Read at an index (r, j), every
  layout operation of that term picks one element of its operand: a per-node column spread over the features reads the
  column at r, a per-feature vector spread over the rows reads the vector at j, a scalar constant reads itself.  The two
  reductions are sums over the 128 features of row r, and the dense product is the sum over the contraction index.
  Putting these readings together, the layer's term at (r, j) is the specification's normalised, clamped entry j of row
  r.  The aggregation along the edges is the same composition of gathers and a scatter in both spellings and is carried
  along unopened.
-/
import proofs.«167512_j63471026700852_1_alg».proof.Proof.RefTerm
import Idealize.ShloMosaic.Lib.Pipeline.Value
import Idealize.ShloMosaic.Lib.ValueIdx
import Idealize.ShloMosaic.PureOps.Ideal.Laws

noncomputable section

namespace Cert.ReferenceIdeal.RefLayer

open Idealize.ShloMosaic Idealize.ShloMosaic.ValueIdx Cert.ReferenceIdeal Cert.ReferenceIdeal.Facts₀
open Cert.Gcn (FArr IArr)
open Cert.ReferenceIdeal.RefTerm

variable [Cert.ReferenceIdeal.Facts]

/-! ### The layout operations of a layer, read at an index -/

/-- A per-node vector written as a column reads the vector at the row. -/
theorem col_apply (d : FArr S50000) (j : S50000x1.Idx) :
    broadcastInDim S50000x1 ![0] bcast_S50000_S50000x1_0 d j = d (ix1 (j 0)) :=
  broadcastInDim_apply _ bcast_S50000_S50000x1_0 d j (ix1 (j 0)) (fun a => match a with
    | ⟨0, _⟩ => by show (j 0).val = if (50000 : Nat) = 1 then 0 else (j 0).val; rw [if_neg (by decide)])

/-- A column spread over the 128 features reads the column at the row. -/
theorem nodeT_apply (c : FArr S50000x1) (i : S50000x128.Idx) : nodeT c i = c (ix2 (i 0) 0) := by
  unfold nodeT
  exact broadcastInDim_apply _ bcast_S50000x1_S50000x128_0_1 c i (ix2 (i 0) 0) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])

/-- A per-feature vector written as a row reads the vector at the feature. -/
theorem feat_apply (v : FArr S128) (j : S1x128.Idx) :
    broadcastInDim S1x128 ![1] bcast_S128_S1x128_1 v j = v (ix1 (j 1)) :=
  broadcastInDim_apply _ bcast_S128_S1x128_1 v j (ix1 (j 1)) (fun a => match a with
    | ⟨0, _⟩ => by show (j 1).val = if (128 : Nat) = 1 then 0 else (j 1).val; rw [if_neg (by decide)])

/-- A row spread over the 50000 nodes reads the row at the feature. -/
theorem featRow_apply (r : FArr S1x128) (i : S50000x128.Idx) :
    broadcastInDim S50000x128 ![0, 1] bcast_S1x128_S50000x128_0_1 r i = r (ix2 0 (i 1)) :=
  broadcastInDim_apply _ bcast_S1x128_S50000x128_0_1 r i (ix2 0 (i 1)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

/-- A per-feature vector spread over the rows reads the vector at the feature. -/
theorem featT_apply (v : FArr S128) (i : S50000x128.Idx) : featT v i = v (ix1 (i 1)) := by
  unfold featT
  rw [featRow_apply, feat_apply]

/-- A scalar constant spread over a column. -/
theorem scalCol_apply (b : BitVec 32) (j : S50000x1.Idx) :
    broadcastInDim S50000x1 ![] bcast_S_S50000x1 (constant S_ .f32 b : FArr S_) j = Ideal.ofBits .f32 b :=
  (broadcastInDim_apply _ bcast_S_S50000x1 (constant S_ .f32 b : FArr S_) j (fun a => a.elim0)
    (fun a => a.elim0)).trans rfl

/-- A scalar constant spread over the whole array. -/
theorem scalMat_apply (b : BitVec 32) (i : S50000x128.Idx) :
    broadcastInDim S50000x128 ![] bcast_S_S50000x128 (constant S_ .f32 b : FArr S_) i = Ideal.ofBits .f32 b :=
  (broadcastInDim_apply _ bcast_S_S50000x128 (constant S_ .f32 b : FArr S_) i (fun a => a.elim0)
    (fun a => a.elim0)).trans rfl

/-- The host's reduction over the feature axis, from the constant zero, is the sum of the row. -/
theorem rowSum_apply (p : FArr S50000x128) (j : S50000.Idx) :
    Host.reduceAdd p (constant S_ .f32 0x00000000#32) reducesTo_S50000x128_S50000_d1 h_S_ j
      = ∑ k : Fin 128, p (ix2 (j 0) k) := by
  simp only [Host.reduceAdd, Ideal.hostReduceAdd_def]
  rw [Ideal.hostReduceAdd_single reducesTo_S50000x128_S50000_d1 (by decide)]
  refine (congrArg (· + _) Ideal.ofBits_zero_f32).trans ((zero_add _).trans (Finset.sum_congr rfl fun k _ => ?_))
  exact congrArg p (funext fun a => Fin.ext (by match a with | ⟨0, _⟩ => rfl | ⟨1, _⟩ => rfl))

/-! ### The product with a weight matrix -/

/-- On the product's row axis (not contracted) the left operand is read at the output's row. -/
theorem dot_lhs0 (i : S50000x128.Idx) (q : dot_S50000x128_S128x128_S50000x128_1_0_0_1_n_n.contr.Idx) : (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch from
        (by decide : ¬(0 : Fin 2) ∈ ([] : List (Fin 2)))),
    dif_pos (show (0 : Fin S50000x128.rank) ∈ dot_S50000x128_S128x128_S50000x128_1_0_0_1_n_n.lhsNonContracting from
        (by decide : (0 : Fin 2) ∈ ([0] : List (Fin 2))))]
  rfl
/-- On the product's column axis (not contracted) the right operand is read at the output's column. -/
theorem dot_rhs1 (i : S50000x128.Idx) (q : dot_S50000x128_S128x128_S50000x128_1_0_0_1_n_n.contr.Idx) : (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch from
        (by decide : ¬(1 : Fin 2) ∈ ([] : List (Fin 2)))),
    dif_pos (show (1 : Fin S128x128.rank) ∈ dot_S50000x128_S128x128_S50000x128_1_0_0_1_n_n.rhsNonContracting from
        (by decide : (1 : Fin 2) ∈ ([1] : List (Fin 2))))]
  rfl

/-- The host's dot_general of the features with a weight matrix is the matrix product, entry by entry: the sum over
    the contraction index, re-indexed by the 128 values of that index. -/
theorem dot_eq_mmA (x : FArr S50000x128) (w : FArr S128x128) :
    Host.dotGeneral dot_S50000x128_S128x128_S50000x128_1_0_0_1_n_n none x w = Cert.Gcn.mmA x w := by
  funext i
  show _ = ∑ k : Fin 128, x (ix2 (i 0) k) * w (ix2 k (i 1))
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = ix2 (i 0) k :=
    funext fun a => Fin.ext (by
      match a with
      | ⟨0, _⟩ => exact dot_lhs0 _ _
      | ⟨1, _⟩ => exact (dot_S50000x128_S128x128_S50000x128_1_0_0_1_n_n.lhsIdx_val_of_single rfl i _).trans hk)
  have er : dot_S50000x128_S128x128_S50000x128_1_0_0_1_n_n.rhsIdx i ((ValueIdx.contrEquiv1 dot_S50000x128_S128x128_S50000x128_1_0_0_1_n_n 128 rfl rfl).symm k) = ix2 k (i 1) :=
    funext fun a => Fin.ext (by
      match a with
      | ⟨0, _⟩ => exact (dot_S50000x128_S128x128_S50000x128_1_0_0_1_n_n.rhsIdx_val_of_single rfl i _).trans hk
      | ⟨1, _⟩ => exact dot_rhs1 _ _)
  rw [el, er]
  rfl

/-! ### The row normalisation -/

/-- The column of row means reads the mean of the row. -/
theorem meanT_apply (p : FArr S50000x128) (j : S50000x1.Idx) :
    meanT p j = Cert.Gcn.mean (fun k => p (ix2 (j 0) k)) := by
  unfold meanT Host.divf
  rw [Ideal.hostDivf_def, col_apply, scalCol_apply, rowSum_apply]
  rfl

/-- Every entry minus its row's mean. -/
def devT (p : FArr S50000x128) : FArr S50000x128 := subf p (nodeT (meanT p))

theorem devT_apply (p : FArr S50000x128) (i : S50000x128.Idx) :
    devT p i = p i - Cert.Gcn.mean (fun k => p (ix2 (i 0) k)) := by
  show p i - nodeT (meanT p) i = _
  rw [nodeT_apply, meanT_apply]

/-- The column of reciprocal standard deviations: the reciprocal square root of the mean of the squared deviations
    plus epsilon. -/
def rstdT (p : FArr S50000x128) : FArr S50000x1 :=
  Host.rsqrt (addf (meanT (mulf (devT p) (devT p)))
    (broadcastInDim S50000x1 ![] bcast_S_S50000x1 (constant S_ .f32 0x3727C5AC#32)))

theorem rstdT_apply (p : FArr S50000x128) (j : S50000x1.Idx) :
    rstdT p j = Ideal.rsqrt (Cert.Gcn.mean (fun k =>
        (p (ix2 (j 0) k) - Cert.Gcn.mean (fun k' => p (ix2 (j 0) k')))
          * (p (ix2 (j 0) k) - Cert.Gcn.mean (fun k' => p (ix2 (j 0) k')))) + Cert.Gcn.eps) := by
  show Ideal.rsqrt (meanT (mulf (devT p) (devT p)) j
    + broadcastInDim S50000x1 ![] bcast_S_S50000x1 (constant S_ .f32 0x3727C5AC#32 : FArr S_) j) = _
  rw [meanT_apply, scalCol_apply]
  refine congrArg (fun m => Ideal.rsqrt (Cert.Gcn.mean m + Cert.Gcn.eps)) (funext fun k => ?_)
  show devT p _ * devT p _ = _
  rw [devT_apply]

/-- The normalised, scaled, shifted and clamped array read at (r, j) is the specification's entry j of row r. -/
theorem lnT_apply (p : FArr S50000x128) (g be : FArr S128) (i : S50000x128.Idx) :
    lnT p g be i
      = Cert.Gcn.lnRelu (fun k => p (ix2 (i 0) k)) (Cert.Gcn.atFeat g) (Cert.Gcn.atFeat be) (i 1) := by
  show max ((devT p i * nodeT (rstdT p) i) * featT g i + featT be i)
    (broadcastInDim S50000x128 ![] bcast_S_S50000x128 (constant S_ .f32 0x00000000#32 : FArr S_) i) = _
  rw [devT_apply, nodeT_apply, rstdT_apply, featT_apply, featT_apply, scalMat_apply,
    show p i = p (ix2 (i 0) (i 1)) from congrArg p (eq_ix2 i)]
  rfl

/-- The same, as an equation between arrays. -/
theorem lnT_eq (p : FArr S50000x128) (g be : FArr S128) :
    lnT p g be
      = fun i => Cert.Gcn.lnRelu (fun k => p (ix2 (i 0) k)) (Cert.Gcn.atFeat g) (Cert.Gcn.atFeat be) (i 1) :=
  funext fun i => lnT_apply p g be i

/-! ### The rows before normalisation -/

/-- Aggregated messages plus the self-loop term plus the bias, read at (r, k). -/
theorem pre_apply (agg hmm : FArr S50000x128) (dinv : FArr S50000) (b : FArr S128) (r : Fin 50000) (k : Fin 128) :
    addf (addf agg (mulf hmm (nodeT (broadcastInDim S50000x1 ![0] bcast_S50000_S50000x1_0 (mulf dinv dinv)))))
        (featT b) (ix2 r k)
      = Cert.Gcn.pre agg hmm (Cert.Gcn.atNode dinv) (Cert.Gcn.atFeat b) r k := by
  show (agg (ix2 r k) + hmm (ix2 r k)
        * nodeT (broadcastInDim S50000x1 ![0] bcast_S50000_S50000x1_0 (mulf dinv dinv)) (ix2 r k))
      + featT b (ix2 r k) = _
  rw [nodeT_apply, col_apply, featT_apply]
  rfl

variable [Cert.KernelIdeal.Facts]

/-- The aggregation along the edges: the same host operations in both spellings. -/
theorem aggT_eq (hmm : FArr S50000x128) (src dst : IArr S800000) (dinv : FArr S50000) :
    aggT hmm src dst dinv = Cert.Gcn.aggOf hmm src dst dinv := rfl

theorem preT_apply (h : FArr S50000x128) (src dst : IArr S800000) (dinv : FArr S50000) (w : FArr S128x128)
    (b : FArr S128) (r : Fin 50000) (k : Fin 128) :
    preT h src dst dinv w b (ix2 r k)
      = Cert.Gcn.pre (Cert.Gcn.aggOf (Cert.Gcn.mmA h w) src dst dinv) (Cert.Gcn.mmA h w) (Cert.Gcn.atNode dinv)
          (Cert.Gcn.atFeat b) r k := by
  rw [← dot_eq_mmA h w, ← aggT_eq]
  exact pre_apply (aggT (Host.dotGeneral dot_S50000x128_S128x128_S50000x128_1_0_0_1_n_n none h w) src dst dinv) (Host.dotGeneral dot_S50000x128_S128x128_S50000x128_1_0_0_1_n_n none h w) dinv b r k

/-- A layer of the reference without the residual is the specification's layer. -/
theorem layerT_eq (h : FArr S50000x128) (src dst : IArr S800000) (dinv : FArr S50000) (w : FArr S128x128)
    (b g be : FArr S128) :
    RefTerm.layerT h src dst dinv w b g be
      = Cert.Gcn.fused (Cert.Gcn.aggOf (Cert.Gcn.mmA h w) src dst dinv) (Cert.Gcn.mmA h w) (Cert.Gcn.atNode dinv)
          (Cert.Gcn.atFeat b) (Cert.Gcn.atFeat g) (Cert.Gcn.atFeat be) := by
  funext i
  show lnT (preT h src dst dinv w b) g be i = Cert.Gcn.lnRelu _ _ _ _
  rw [lnT_apply]
  exact congrArg (fun f => Cert.Gcn.lnRelu f (Cert.Gcn.atFeat g) (Cert.Gcn.atFeat be) (i 1))
    (funext fun k => preT_apply h src dst dinv w b (i 0) k)

/-- A layer of the reference with the residual (the input first) is the specification's layer with the residual. -/
theorem layerTR_eq (h : FArr S50000x128) (src dst : IArr S800000) (dinv : FArr S50000) (w : FArr S128x128)
    (b g be : FArr S128) :
    RefTerm.layerTR h src dst dinv w b g be
      = Cert.Gcn.fusedRes (Cert.Gcn.aggOf (Cert.Gcn.mmA h w) src dst dinv) (Cert.Gcn.mmA h w) h
          (Cert.Gcn.atNode dinv) (Cert.Gcn.atFeat b) (Cert.Gcn.atFeat g) (Cert.Gcn.atFeat be) := by
  unfold layerTR
  rw [layerT_eq]
  rfl

end Cert.ReferenceIdeal.RefLayer

end
-- ==== Proof.LibAfterSplit.lean ====
/-
  A straight line of host operations run in two parts: the contents after the whole line are the contents after its tail
  run from the contents after its head.
-/
import Idealize.ShloMosaic.Lib.StableHlo.Run

noncomputable section

namespace Cert.Lib.AfterSplit

open Idealize.ShloMosaic Idealize.ShloMosaic.StableHlo

variable {τ : Topo} {sig : RefSig} {Val : EltTy → Type}

/-- Running a concatenated line is running the second part from where the first part ends. -/
theorem after_append (L₁ L₂ : List (HloOp τ sig Val)) (V : Valuation τ sig Val) :
    StableHlo.after (L₁ ++ L₂) V = StableHlo.after L₂ (StableHlo.after L₁ V) := by
  induction L₁ generalizing V with
  | nil => rfl
  | cons op ops ih => exact ih (op.result V)

/-- Any line splits after its first `n` operations. -/
theorem after_take_drop (n : Nat) (L : List (HloOp τ sig Val)) (V : Valuation τ sig Val) :
    StableHlo.after L V = StableHlo.after (L.drop n) (StableHlo.after (L.take n) V) := by
  rw [← after_append, List.take_append_drop]

end Cert.Lib.AfterSplit

end
-- ==== Proof.RefSeg1.lean ====
/-
  Layer 0 of the reference, read in four steps.

  The layer's operations are taken in four consecutive groups: the slices and the dense product; the aggregation along the
  edges; the self-loop term and the bias; the row normalisation with the clamp.  Each group, run from any contents,
  leaves its result as a short term of what those contents hold in a few buffers, and leaves the buffers later groups
  read alone.  Chained, the layer's result buffer holds the layer's term (`RefTerm.layerT`) of the layer's input, the edge rows,
  the nodes' factors and the stacked parameters; and the layer leaves the long-lived buffers alone.
-/
import proofs.«167512_j63471026700852_1_alg».proof.Proof.Gen.KernelIdeal
import proofs.«167512_j63471026700852_1_alg».proof.Proof.RefRun
import proofs.«167512_j63471026700852_1_alg».proof.Proof.RefTerm
import proofs.«167512_j63471026700852_1_alg».proof.Proof.LibAfterSplit

set_option maxRecDepth 16384

noncomputable section

namespace Cert.ReferenceIdeal.RefSeg1

open Idealize.ShloMosaic Idealize.ShloMosaic.TcCoe Idealize.SL.Sem Idealize.ShloMosaic.StableHlo
open Cert.ReferenceIdeal Cert.ReferenceIdeal.Facts₀ Cert.ReferenceIdeal.ValueP

set_option maxHeartbeats 4000000 in
/-- The slices and the dense product. -/
theorem grpA (X : Valuation τ sig (Elt Ideal)) :
    after ((ops1 (F := Ideal)).take 5) X (Proc.devRef .tc main_v20) = (Host.dotGeneral (φ₁ := .f32) dot_S50000x128_S128x128_S50000x128_1_0_0_1_n_n none (X (Proc.devRef .tc main_arg0) : Gcn.FArr S50000x128) (Gcn.wOf0 (X (Proc.devRef .tc main_arg2))) : Gcn.FArr S50000x128)
    ∧ after ((ops1 (F := Ideal)).take 5) X (Proc.devRef .tc main_v19) = Gcn.vecOf0 (X (Proc.devRef .tc main_arg3))
    ∧ after ((ops1 (F := Ideal)).take 5) X (Proc.devRef .tc main_v1) = X (Proc.devRef .tc main_v1)
    ∧ after ((ops1 (F := Ideal)).take 5) X (Proc.devRef .tc main_v3) = X (Proc.devRef .tc main_v3)
    ∧ after ((ops1 (F := Ideal)).take 5) X (Proc.devRef .tc main_v15) = X (Proc.devRef .tc main_v15)
    ∧ after ((ops1 (F := Ideal)).take 5) X (Proc.devRef .tc main_arg4) = X (Proc.devRef .tc main_arg4)
    ∧ after ((ops1 (F := Ideal)).take 5) X (Proc.devRef .tc main_arg5) = X (Proc.devRef .tc main_arg5)
    ∧ after ((ops1 (F := Ideal)).take 5) X (Proc.devRef .tc main_arg0) = X (Proc.devRef .tc main_arg0) := by
  refine ⟨?_, ?_, ?_, ?_, ?_, ?_, ?_, ?_⟩ <;> (show after (_ :: _ :: _ :: _ :: _ :: []) _ _ = _; after_results_simp <;> rfl)

set_option maxHeartbeats 4000000 in
/-- The aggregation along the edges. -/
theorem grpB (Y : Valuation τ sig (Elt Ideal)) :
    after (((ops1 (F := Ideal)).drop 5).take 35) Y (Proc.devRef .tc main_v48) = RefTerm.aggT (Y (Proc.devRef .tc main_v20)) (Y (Proc.devRef .tc main_v1)) (Y (Proc.devRef .tc main_v3)) (Y (Proc.devRef .tc main_v15)) := by
  show after (_ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: []) _ _ = _
  after_results_simp <;> rfl

set_option maxHeartbeats 4000000 in
theorem keepB (Y : Valuation τ sig (Elt Ideal)) :
    after (((ops1 (F := Ideal)).drop 5).take 35) Y (Proc.devRef .tc main_v20) = Y (Proc.devRef .tc main_v20)
    ∧ after (((ops1 (F := Ideal)).drop 5).take 35) Y (Proc.devRef .tc main_v15) = Y (Proc.devRef .tc main_v15)
    ∧ after (((ops1 (F := Ideal)).drop 5).take 35) Y (Proc.devRef .tc main_v19) = Y (Proc.devRef .tc main_v19)
    ∧ after (((ops1 (F := Ideal)).drop 5).take 35) Y (Proc.devRef .tc main_arg4) = Y (Proc.devRef .tc main_arg4)
    ∧ after (((ops1 (F := Ideal)).drop 5).take 35) Y (Proc.devRef .tc main_arg5) = Y (Proc.devRef .tc main_arg5)
    ∧ after (((ops1 (F := Ideal)).drop 5).take 35) Y (Proc.devRef .tc main_arg0) = Y (Proc.devRef .tc main_arg0) := by
  refine ⟨?_, ?_, ?_, ?_, ?_, ?_⟩ <;> (show after (_ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: []) _ _ = _; after_results_simp <;> rfl)

set_option maxHeartbeats 4000000 in
/-- The self-loop term and the bias. -/
theorem grpC (Z : Valuation τ sig (Elt Ideal)) :
    after ((((ops1 (F := Ideal)).drop 5).drop 35).take 8) Z (Proc.devRef .tc main_v56)
      = addf (addf (Z (Proc.devRef .tc main_v48)) (mulf (Z (Proc.devRef .tc main_v20)) (RefTerm.nodeT (broadcastInDim S50000x1 ![0] bcast_S50000_S50000x1_0 (mulf (Z (Proc.devRef .tc main_v15)) (Z (Proc.devRef .tc main_v15)))))))
          (RefTerm.featT (Z (Proc.devRef .tc main_v19)))
    ∧ after ((((ops1 (F := Ideal)).drop 5).drop 35).take 8) Z (Proc.devRef .tc main_arg4) = Z (Proc.devRef .tc main_arg4)
    ∧ after ((((ops1 (F := Ideal)).drop 5).drop 35).take 8) Z (Proc.devRef .tc main_arg5) = Z (Proc.devRef .tc main_arg5)
    ∧ after ((((ops1 (F := Ideal)).drop 5).drop 35).take 8) Z (Proc.devRef .tc main_arg0) = Z (Proc.devRef .tc main_arg0) := by
  refine ⟨?_, ?_, ?_, ?_⟩ <;> (show after (_ :: _ :: _ :: _ :: _ :: _ :: _ :: _ :: []) _ _ = _; after_results_simp <;> rfl)

set_option maxHeartbeats 8000000 in
/-- The row normalisation and the clamp. -/
theorem grpD (U : Valuation τ sig (Elt Ideal)) :
    after ((((ops1 (F := Ideal)).drop 5).drop 35).drop 8) U (Proc.devRef .tc main_v85) = RefTerm.lnT (U (Proc.devRef .tc main_v56)) (Gcn.vecOf0 (U (Proc.devRef .tc main_arg4))) (Gcn.vecOf0 (U (Proc.devRef .tc main_arg5))) := by
  show after (_ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: []) _ _ = _
  after_results_simp <;> rfl

/-- The layer's result buffer after the layer's operations. -/
theorem step (X : Valuation τ sig (Elt Ideal)) :
    after (ops1 (F := Ideal)) X (Proc.devRef .tc main_v85)
      = RefTerm.layerT (X (Proc.devRef .tc main_arg0)) (X (Proc.devRef .tc main_v1)) (X (Proc.devRef .tc main_v3)) (X (Proc.devRef .tc main_v15))
          (Gcn.wOf0 (X (Proc.devRef .tc main_arg2))) (Gcn.vecOf0 (X (Proc.devRef .tc main_arg3))) (Gcn.vecOf0 (X (Proc.devRef .tc main_arg4))) (Gcn.vecOf0 (X (Proc.devRef .tc main_arg5))) := by
  rw [Cert.Lib.AfterSplit.after_take_drop 5 (ops1 (F := Ideal)) X, Cert.Lib.AfterSplit.after_take_drop 35 ((ops1 (F := Ideal)).drop 5), Cert.Lib.AfterSplit.after_take_drop 8 (((ops1 (F := Ideal)).drop 5).drop 35)]
  obtain ⟨c1, c4, c5, -⟩ := grpC (after (((ops1 (F := Ideal)).drop 5).take 35) (after ((ops1 (F := Ideal)).take 5) X))
  obtain ⟨b1, b15, bb, b4, b5, bh⟩ := keepB (after ((ops1 (F := Ideal)).take 5) X)
  obtain ⟨a1, ab, k1, k3, k15, k4, k5, kh⟩ := grpA X
  rw [grpD, c1, c4, c5, grpB, b1, b15, bb, b4, b5, a1, ab, k1, k3, k15, k4, k5]
  rfl

/-- The buffers the layer's operations write. -/
abbrev writes : List (Ref sig .tc) := [main_v16, main_v17, main_v18, main_v19, main_v20, main_c_3, main_v21, main_v22, main_c_4, main_v23, main_v24, main_v25, main_v26, main_v27, main_c_5, main_v28, main_v29, main_c_6, main_v30, main_v31, main_v32, main_v33, main_v34, main_v35, main_c_7, main_v36, main_v37, main_c_8, main_v38, main_v39, main_v40, main_v41, main_v42, main_v43, main_v44, main_v45, main_cst_9, main_v46, main_v47, main_v48, main_v49, main_v50, main_v51, main_v52, main_v53, main_v54, main_v55, main_v56, main_v57, main_v58, main_v59, main_v60, main_cst_10, main_v61, main_v62, main_cst_11, main_v63, main_v64, main_v65, main_v66, main_v67, main_cst_12, main_v68, main_v69, main_cst_13, main_v70, main_v71, main_v72, main_v73, main_cst_14, main_v74, main_v75, main_v76, main_v77, main_v78, main_v79, main_v80, main_v81, main_v82, main_v83, main_v84, main_call0_cst, main_call0_v0, main_v85]
set_option maxHeartbeats 4000000 in
theorem writes_sub : (ops1 (F := Ideal)).Forall fun op => op.writes ⊆ (writes.map (Proc.devRef (τ := τ) .tc)).toFinset := by
  simp only [ops1, List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))

/-- A buffer the layer does not write holds after it what it held before. -/
theorem keep (X : Valuation τ sig (Elt Ideal)) (r : Ref sig .tc) (h : r ∉ writes) :
    after (ops1 (F := Ideal)) X (Proc.devRef .tc r) = X (Proc.devRef .tc r) :=
  after_of_writes_sub (ops1 (F := Ideal)) X writes_sub h

end Cert.ReferenceIdeal.RefSeg1

end
-- ==== Proof.RefSeg2.lean ====
/-
  Layer 1 of the reference, read in four steps.

  The layer's operations are taken in four consecutive groups: the slices and the dense product; the aggregation along the
  edges; the self-loop term and the bias; the row normalisation with the clamp and the residual.  Each group, run from any contents,
  leaves its result as a short term of what those contents hold in a few buffers, and leaves the buffers later groups
  read alone.  Chained, the layer's result buffer holds the layer's term (`RefTerm.layerTR`) of the layer's input, the edge rows,
  the nodes' factors and the stacked parameters; and the layer leaves the long-lived buffers alone.
-/
import proofs.«167512_j63471026700852_1_alg».proof.Proof.Gen.KernelIdeal
import proofs.«167512_j63471026700852_1_alg».proof.Proof.RefRun
import proofs.«167512_j63471026700852_1_alg».proof.Proof.RefTerm
import proofs.«167512_j63471026700852_1_alg».proof.Proof.LibAfterSplit

set_option maxRecDepth 16384

noncomputable section

namespace Cert.ReferenceIdeal.RefSeg2

open Idealize.ShloMosaic Idealize.ShloMosaic.TcCoe Idealize.SL.Sem Idealize.ShloMosaic.StableHlo
open Cert.ReferenceIdeal Cert.ReferenceIdeal.Facts₀ Cert.ReferenceIdeal.ValueP

set_option maxHeartbeats 4000000 in
/-- The slices and the dense product. -/
theorem grpA (X : Valuation τ sig (Elt Ideal)) :
    after ((ops2 (F := Ideal)).take 5) X (Proc.devRef .tc main_v90) = (Host.dotGeneral (φ₁ := .f32) dot_S50000x128_S128x128_S50000x128_1_0_0_1_n_n none (X (Proc.devRef .tc main_v85) : Gcn.FArr S50000x128) (Gcn.wOf1 (X (Proc.devRef .tc main_arg2))) : Gcn.FArr S50000x128)
    ∧ after ((ops2 (F := Ideal)).take 5) X (Proc.devRef .tc main_v89) = Gcn.vecOf1 (X (Proc.devRef .tc main_arg3))
    ∧ after ((ops2 (F := Ideal)).take 5) X (Proc.devRef .tc main_v1) = X (Proc.devRef .tc main_v1)
    ∧ after ((ops2 (F := Ideal)).take 5) X (Proc.devRef .tc main_v3) = X (Proc.devRef .tc main_v3)
    ∧ after ((ops2 (F := Ideal)).take 5) X (Proc.devRef .tc main_v15) = X (Proc.devRef .tc main_v15)
    ∧ after ((ops2 (F := Ideal)).take 5) X (Proc.devRef .tc main_arg4) = X (Proc.devRef .tc main_arg4)
    ∧ after ((ops2 (F := Ideal)).take 5) X (Proc.devRef .tc main_arg5) = X (Proc.devRef .tc main_arg5)
    ∧ after ((ops2 (F := Ideal)).take 5) X (Proc.devRef .tc main_v85) = X (Proc.devRef .tc main_v85) := by
  refine ⟨?_, ?_, ?_, ?_, ?_, ?_, ?_, ?_⟩ <;> (show after (_ :: _ :: _ :: _ :: _ :: []) _ _ = _; after_results_simp <;> rfl)

set_option maxHeartbeats 4000000 in
/-- The aggregation along the edges. -/
theorem grpB (Y : Valuation τ sig (Elt Ideal)) :
    after (((ops2 (F := Ideal)).drop 5).take 35) Y (Proc.devRef .tc main_v118) = RefTerm.aggT (Y (Proc.devRef .tc main_v90)) (Y (Proc.devRef .tc main_v1)) (Y (Proc.devRef .tc main_v3)) (Y (Proc.devRef .tc main_v15)) := by
  show after (_ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: []) _ _ = _
  after_results_simp <;> rfl

set_option maxHeartbeats 4000000 in
theorem keepB (Y : Valuation τ sig (Elt Ideal)) :
    after (((ops2 (F := Ideal)).drop 5).take 35) Y (Proc.devRef .tc main_v90) = Y (Proc.devRef .tc main_v90)
    ∧ after (((ops2 (F := Ideal)).drop 5).take 35) Y (Proc.devRef .tc main_v15) = Y (Proc.devRef .tc main_v15)
    ∧ after (((ops2 (F := Ideal)).drop 5).take 35) Y (Proc.devRef .tc main_v89) = Y (Proc.devRef .tc main_v89)
    ∧ after (((ops2 (F := Ideal)).drop 5).take 35) Y (Proc.devRef .tc main_arg4) = Y (Proc.devRef .tc main_arg4)
    ∧ after (((ops2 (F := Ideal)).drop 5).take 35) Y (Proc.devRef .tc main_arg5) = Y (Proc.devRef .tc main_arg5)
    ∧ after (((ops2 (F := Ideal)).drop 5).take 35) Y (Proc.devRef .tc main_v85) = Y (Proc.devRef .tc main_v85) := by
  refine ⟨?_, ?_, ?_, ?_, ?_, ?_⟩ <;> (show after (_ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: []) _ _ = _; after_results_simp <;> rfl)

set_option maxHeartbeats 4000000 in
/-- The self-loop term and the bias. -/
theorem grpC (Z : Valuation τ sig (Elt Ideal)) :
    after ((((ops2 (F := Ideal)).drop 5).drop 35).take 8) Z (Proc.devRef .tc main_v126)
      = addf (addf (Z (Proc.devRef .tc main_v118)) (mulf (Z (Proc.devRef .tc main_v90)) (RefTerm.nodeT (broadcastInDim S50000x1 ![0] bcast_S50000_S50000x1_0 (mulf (Z (Proc.devRef .tc main_v15)) (Z (Proc.devRef .tc main_v15)))))))
          (RefTerm.featT (Z (Proc.devRef .tc main_v89)))
    ∧ after ((((ops2 (F := Ideal)).drop 5).drop 35).take 8) Z (Proc.devRef .tc main_arg4) = Z (Proc.devRef .tc main_arg4)
    ∧ after ((((ops2 (F := Ideal)).drop 5).drop 35).take 8) Z (Proc.devRef .tc main_arg5) = Z (Proc.devRef .tc main_arg5)
    ∧ after ((((ops2 (F := Ideal)).drop 5).drop 35).take 8) Z (Proc.devRef .tc main_v85) = Z (Proc.devRef .tc main_v85) := by
  refine ⟨?_, ?_, ?_, ?_⟩ <;> (show after (_ :: _ :: _ :: _ :: _ :: _ :: _ :: _ :: []) _ _ = _; after_results_simp <;> rfl)

set_option maxHeartbeats 8000000 in
/-- The row normalisation and the clamp, then the residual. -/
theorem grpD (U : Valuation τ sig (Elt Ideal)) :
    after ((((ops2 (F := Ideal)).drop 5).drop 35).drop 8) U (Proc.devRef .tc main_v156) = addf (U (Proc.devRef .tc main_v85)) (RefTerm.lnT (U (Proc.devRef .tc main_v126)) (Gcn.vecOf1 (U (Proc.devRef .tc main_arg4))) (Gcn.vecOf1 (U (Proc.devRef .tc main_arg5)))) := by
  show after (_ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: []) _ _ = _
  after_results_simp <;> rfl

/-- The layer's result buffer after the layer's operations. -/
theorem step (X : Valuation τ sig (Elt Ideal)) :
    after (ops2 (F := Ideal)) X (Proc.devRef .tc main_v156)
      = RefTerm.layerTR (X (Proc.devRef .tc main_v85)) (X (Proc.devRef .tc main_v1)) (X (Proc.devRef .tc main_v3)) (X (Proc.devRef .tc main_v15))
          (Gcn.wOf1 (X (Proc.devRef .tc main_arg2))) (Gcn.vecOf1 (X (Proc.devRef .tc main_arg3))) (Gcn.vecOf1 (X (Proc.devRef .tc main_arg4))) (Gcn.vecOf1 (X (Proc.devRef .tc main_arg5))) := by
  rw [Cert.Lib.AfterSplit.after_take_drop 5 (ops2 (F := Ideal)) X, Cert.Lib.AfterSplit.after_take_drop 35 ((ops2 (F := Ideal)).drop 5), Cert.Lib.AfterSplit.after_take_drop 8 (((ops2 (F := Ideal)).drop 5).drop 35)]
  obtain ⟨c1, c4, c5, ch⟩ := grpC (after (((ops2 (F := Ideal)).drop 5).take 35) (after ((ops2 (F := Ideal)).take 5) X))
  obtain ⟨b1, b15, bb, b4, b5, bh⟩ := keepB (after ((ops2 (F := Ideal)).take 5) X)
  obtain ⟨a1, ab, k1, k3, k15, k4, k5, kh⟩ := grpA X
  rw [grpD, c1, c4, c5, ch, grpB, b1, b15, bb, b4, b5, bh, a1, ab, k1, k3, k15, k4, k5, kh]
  rfl

/-- The buffers the layer's operations write. -/
abbrev writes : List (Ref sig .tc) := [main_v86, main_v87, main_v88, main_v89, main_v90, main_c_15, main_v91, main_v92, main_c_16, main_v93, main_v94, main_v95, main_v96, main_v97, main_c_17, main_v98, main_v99, main_c_18, main_v100, main_v101, main_v102, main_v103, main_v104, main_v105, main_c_19, main_v106, main_v107, main_c_20, main_v108, main_v109, main_v110, main_v111, main_v112, main_v113, main_v114, main_v115, main_cst_21, main_v116, main_v117, main_v118, main_v119, main_v120, main_v121, main_v122, main_v123, main_v124, main_v125, main_v126, main_v127, main_v128, main_v129, main_v130, main_cst_22, main_v131, main_v132, main_cst_23, main_v133, main_v134, main_v135, main_v136, main_v137, main_cst_24, main_v138, main_v139, main_cst_25, main_v140, main_v141, main_v142, main_v143, main_cst_26, main_v144, main_v145, main_v146, main_v147, main_v148, main_v149, main_v150, main_v151, main_v152, main_v153, main_v154, main_call1_cst, main_call1_v0, main_v155, main_v156]
set_option maxHeartbeats 4000000 in
theorem writes_sub : (ops2 (F := Ideal)).Forall fun op => op.writes ⊆ (writes.map (Proc.devRef (τ := τ) .tc)).toFinset := by
  simp only [ops2, List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))

/-- A buffer the layer does not write holds after it what it held before. -/
theorem keep (X : Valuation τ sig (Elt Ideal)) (r : Ref sig .tc) (h : r ∉ writes) :
    after (ops2 (F := Ideal)) X (Proc.devRef .tc r) = X (Proc.devRef .tc r) :=
  after_of_writes_sub (ops2 (F := Ideal)) X writes_sub h

end Cert.ReferenceIdeal.RefSeg2

end
-- ==== Proof.RefSeg3.lean ====
/-
  Layer 2 of the reference, read in four steps.

  The layer's operations are taken in four consecutive groups: the slices and the dense product; the aggregation along the
  edges; the self-loop term and the bias; the row normalisation with the clamp and the residual.  Each group, run from any contents,
  leaves its result as a short term of what those contents hold in a few buffers, and leaves the buffers later groups
  read alone.  Chained, the layer's result buffer holds the layer's term (`RefTerm.layerTR`) of the layer's input, the edge rows,
  the nodes' factors and the stacked parameters; and the layer leaves the long-lived buffers alone.
-/
import proofs.«167512_j63471026700852_1_alg».proof.Proof.Gen.KernelIdeal
import proofs.«167512_j63471026700852_1_alg».proof.Proof.RefRun
import proofs.«167512_j63471026700852_1_alg».proof.Proof.RefTerm
import proofs.«167512_j63471026700852_1_alg».proof.Proof.LibAfterSplit

set_option maxRecDepth 16384

noncomputable section

namespace Cert.ReferenceIdeal.RefSeg3

open Idealize.ShloMosaic Idealize.ShloMosaic.TcCoe Idealize.SL.Sem Idealize.ShloMosaic.StableHlo
open Cert.ReferenceIdeal Cert.ReferenceIdeal.Facts₀ Cert.ReferenceIdeal.ValueP

set_option maxHeartbeats 4000000 in
/-- The slices and the dense product. -/
theorem grpA (X : Valuation τ sig (Elt Ideal)) :
    after ((ops3 (F := Ideal)).take 5) X (Proc.devRef .tc main_v161) = (Host.dotGeneral (φ₁ := .f32) dot_S50000x128_S128x128_S50000x128_1_0_0_1_n_n none (X (Proc.devRef .tc main_v156) : Gcn.FArr S50000x128) (Gcn.wOf2 (X (Proc.devRef .tc main_arg2))) : Gcn.FArr S50000x128)
    ∧ after ((ops3 (F := Ideal)).take 5) X (Proc.devRef .tc main_v160) = Gcn.vecOf2 (X (Proc.devRef .tc main_arg3))
    ∧ after ((ops3 (F := Ideal)).take 5) X (Proc.devRef .tc main_v1) = X (Proc.devRef .tc main_v1)
    ∧ after ((ops3 (F := Ideal)).take 5) X (Proc.devRef .tc main_v3) = X (Proc.devRef .tc main_v3)
    ∧ after ((ops3 (F := Ideal)).take 5) X (Proc.devRef .tc main_v15) = X (Proc.devRef .tc main_v15)
    ∧ after ((ops3 (F := Ideal)).take 5) X (Proc.devRef .tc main_arg4) = X (Proc.devRef .tc main_arg4)
    ∧ after ((ops3 (F := Ideal)).take 5) X (Proc.devRef .tc main_arg5) = X (Proc.devRef .tc main_arg5)
    ∧ after ((ops3 (F := Ideal)).take 5) X (Proc.devRef .tc main_v156) = X (Proc.devRef .tc main_v156) := by
  refine ⟨?_, ?_, ?_, ?_, ?_, ?_, ?_, ?_⟩ <;> (show after (_ :: _ :: _ :: _ :: _ :: []) _ _ = _; after_results_simp <;> rfl)

set_option maxHeartbeats 4000000 in
/-- The aggregation along the edges. -/
theorem grpB (Y : Valuation τ sig (Elt Ideal)) :
    after (((ops3 (F := Ideal)).drop 5).take 35) Y (Proc.devRef .tc main_v189) = RefTerm.aggT (Y (Proc.devRef .tc main_v161)) (Y (Proc.devRef .tc main_v1)) (Y (Proc.devRef .tc main_v3)) (Y (Proc.devRef .tc main_v15)) := by
  show after (_ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: []) _ _ = _
  after_results_simp <;> rfl

set_option maxHeartbeats 4000000 in
theorem keepB (Y : Valuation τ sig (Elt Ideal)) :
    after (((ops3 (F := Ideal)).drop 5).take 35) Y (Proc.devRef .tc main_v161) = Y (Proc.devRef .tc main_v161)
    ∧ after (((ops3 (F := Ideal)).drop 5).take 35) Y (Proc.devRef .tc main_v15) = Y (Proc.devRef .tc main_v15)
    ∧ after (((ops3 (F := Ideal)).drop 5).take 35) Y (Proc.devRef .tc main_v160) = Y (Proc.devRef .tc main_v160)
    ∧ after (((ops3 (F := Ideal)).drop 5).take 35) Y (Proc.devRef .tc main_arg4) = Y (Proc.devRef .tc main_arg4)
    ∧ after (((ops3 (F := Ideal)).drop 5).take 35) Y (Proc.devRef .tc main_arg5) = Y (Proc.devRef .tc main_arg5)
    ∧ after (((ops3 (F := Ideal)).drop 5).take 35) Y (Proc.devRef .tc main_v156) = Y (Proc.devRef .tc main_v156) := by
  refine ⟨?_, ?_, ?_, ?_, ?_, ?_⟩ <;> (show after (_ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: []) _ _ = _; after_results_simp <;> rfl)

set_option maxHeartbeats 4000000 in
/-- The self-loop term and the bias. -/
theorem grpC (Z : Valuation τ sig (Elt Ideal)) :
    after ((((ops3 (F := Ideal)).drop 5).drop 35).take 8) Z (Proc.devRef .tc main_v197)
      = addf (addf (Z (Proc.devRef .tc main_v189)) (mulf (Z (Proc.devRef .tc main_v161)) (RefTerm.nodeT (broadcastInDim S50000x1 ![0] bcast_S50000_S50000x1_0 (mulf (Z (Proc.devRef .tc main_v15)) (Z (Proc.devRef .tc main_v15)))))))
          (RefTerm.featT (Z (Proc.devRef .tc main_v160)))
    ∧ after ((((ops3 (F := Ideal)).drop 5).drop 35).take 8) Z (Proc.devRef .tc main_arg4) = Z (Proc.devRef .tc main_arg4)
    ∧ after ((((ops3 (F := Ideal)).drop 5).drop 35).take 8) Z (Proc.devRef .tc main_arg5) = Z (Proc.devRef .tc main_arg5)
    ∧ after ((((ops3 (F := Ideal)).drop 5).drop 35).take 8) Z (Proc.devRef .tc main_v156) = Z (Proc.devRef .tc main_v156) := by
  refine ⟨?_, ?_, ?_, ?_⟩ <;> (show after (_ :: _ :: _ :: _ :: _ :: _ :: _ :: _ :: []) _ _ = _; after_results_simp <;> rfl)

set_option maxHeartbeats 8000000 in
/-- The row normalisation and the clamp, then the residual. -/
theorem grpD (U : Valuation τ sig (Elt Ideal)) :
    after ((((ops3 (F := Ideal)).drop 5).drop 35).drop 8) U (Proc.devRef .tc main_v227) = addf (U (Proc.devRef .tc main_v156)) (RefTerm.lnT (U (Proc.devRef .tc main_v197)) (Gcn.vecOf2 (U (Proc.devRef .tc main_arg4))) (Gcn.vecOf2 (U (Proc.devRef .tc main_arg5)))) := by
  show after (_ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: []) _ _ = _
  after_results_simp <;> rfl

/-- The layer's result buffer after the layer's operations. -/
theorem step (X : Valuation τ sig (Elt Ideal)) :
    after (ops3 (F := Ideal)) X (Proc.devRef .tc main_v227)
      = RefTerm.layerTR (X (Proc.devRef .tc main_v156)) (X (Proc.devRef .tc main_v1)) (X (Proc.devRef .tc main_v3)) (X (Proc.devRef .tc main_v15))
          (Gcn.wOf2 (X (Proc.devRef .tc main_arg2))) (Gcn.vecOf2 (X (Proc.devRef .tc main_arg3))) (Gcn.vecOf2 (X (Proc.devRef .tc main_arg4))) (Gcn.vecOf2 (X (Proc.devRef .tc main_arg5))) := by
  rw [Cert.Lib.AfterSplit.after_take_drop 5 (ops3 (F := Ideal)) X, Cert.Lib.AfterSplit.after_take_drop 35 ((ops3 (F := Ideal)).drop 5), Cert.Lib.AfterSplit.after_take_drop 8 (((ops3 (F := Ideal)).drop 5).drop 35)]
  obtain ⟨c1, c4, c5, ch⟩ := grpC (after (((ops3 (F := Ideal)).drop 5).take 35) (after ((ops3 (F := Ideal)).take 5) X))
  obtain ⟨b1, b15, bb, b4, b5, bh⟩ := keepB (after ((ops3 (F := Ideal)).take 5) X)
  obtain ⟨a1, ab, k1, k3, k15, k4, k5, kh⟩ := grpA X
  rw [grpD, c1, c4, c5, ch, grpB, b1, b15, bb, b4, b5, bh, a1, ab, k1, k3, k15, k4, k5, kh]
  rfl

/-- The buffers the layer's operations write. -/
abbrev writes : List (Ref sig .tc) := [main_v157, main_v158, main_v159, main_v160, main_v161, main_c_27, main_v162, main_v163, main_c_28, main_v164, main_v165, main_v166, main_v167, main_v168, main_c_29, main_v169, main_v170, main_c_30, main_v171, main_v172, main_v173, main_v174, main_v175, main_v176, main_c_31, main_v177, main_v178, main_c_32, main_v179, main_v180, main_v181, main_v182, main_v183, main_v184, main_v185, main_v186, main_cst_33, main_v187, main_v188, main_v189, main_v190, main_v191, main_v192, main_v193, main_v194, main_v195, main_v196, main_v197, main_v198, main_v199, main_v200, main_v201, main_cst_34, main_v202, main_v203, main_cst_35, main_v204, main_v205, main_v206, main_v207, main_v208, main_cst_36, main_v209, main_v210, main_cst_37, main_v211, main_v212, main_v213, main_v214, main_cst_38, main_v215, main_v216, main_v217, main_v218, main_v219, main_v220, main_v221, main_v222, main_v223, main_v224, main_v225, main_call2_cst, main_call2_v0, main_v226, main_v227]
set_option maxHeartbeats 4000000 in
theorem writes_sub : (ops3 (F := Ideal)).Forall fun op => op.writes ⊆ (writes.map (Proc.devRef (τ := τ) .tc)).toFinset := by
  simp only [ops3, List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))

/-- A buffer the layer does not write holds after it what it held before. -/
theorem keep (X : Valuation τ sig (Elt Ideal)) (r : Ref sig .tc) (h : r ∉ writes) :
    after (ops3 (F := Ideal)) X (Proc.devRef .tc r) = X (Proc.devRef .tc r) :=
  after_of_writes_sub (ops3 (F := Ideal)) X writes_sub h

end Cert.ReferenceIdeal.RefSeg3

end
-- ==== Proof.RefStages.lean ====
/-
  The reference's fold read one part at a time.

  The reference is one straight line of host operations; its result buffer ends at the line's fold from the launch
  memory.  The line is a prologue (the edge list's rows and the nodes' factors) followed by the three layers.  Each part,
  run from ANY contents, leaves its result as a fixed term of a few buffers of those contents and leaves the long-lived
  buffers alone; chaining the four parts, the result buffer holds the third layer's term of the second's of the first's —
  which, by the layer lemma, is `Gcn.forward` of the arguments.
-/
import proofs.«167512_j63471026700852_1_alg».proof.Proof.Gen.KernelIdeal
import proofs.«167512_j63471026700852_1_alg».proof.Proof.RefRun
import proofs.«167512_j63471026700852_1_alg».proof.Proof.RefTerm
import proofs.«167512_j63471026700852_1_alg».proof.Proof.RefLayer
import proofs.«167512_j63471026700852_1_alg».proof.Proof.RefSeg1
import proofs.«167512_j63471026700852_1_alg».proof.Proof.RefSeg2
import proofs.«167512_j63471026700852_1_alg».proof.Proof.RefSeg3
import proofs.«167512_j63471026700852_1_alg».proof.Proof.LibAfterSplit

set_option maxRecDepth 16384

noncomputable section

namespace Cert.ReferenceIdeal.RefStages

open Idealize.ShloMosaic Idealize.ShloMosaic.TcCoe Idealize.SL.Sem Idealize.ShloMosaic.StableHlo
open Cert.ReferenceIdeal Cert.ReferenceIdeal.ValueP

/-- The prologue, run from any contents `X`, leaves the edges' sources and destinations and the nodes' factors as the
    named host functions of the edge list `X` holds, and leaves the arguments alone. -/
theorem step0 (X : Valuation τ sig (Elt Ideal)) :
    after (ops0 (F := Ideal)) X (Proc.devRef .tc main_v1) = Gcn.srcOf (X (Proc.devRef .tc main_arg1))
    ∧ after (ops0 (F := Ideal)) X (Proc.devRef .tc main_v3) = Gcn.dstOf (X (Proc.devRef .tc main_arg1))
    ∧ after (ops0 (F := Ideal)) X (Proc.devRef .tc main_v15) = Gcn.dinvOf (X (Proc.devRef .tc main_arg1)) := by
  refine ⟨?_, ?_, ?_⟩ <;> (dsimp only [ops0]; after_results_simp <;> rfl)

theorem keep0 (X : Valuation τ sig (Elt Ideal)) :
    after (ops0 (F := Ideal)) X (Proc.devRef .tc main_arg0) = X (Proc.devRef .tc main_arg0)
    ∧ after (ops0 (F := Ideal)) X (Proc.devRef .tc main_arg2) = X (Proc.devRef .tc main_arg2)
    ∧ after (ops0 (F := Ideal)) X (Proc.devRef .tc main_arg3) = X (Proc.devRef .tc main_arg3)
    ∧ after (ops0 (F := Ideal)) X (Proc.devRef .tc main_arg4) = X (Proc.devRef .tc main_arg4)
    ∧ after (ops0 (F := Ideal)) X (Proc.devRef .tc main_arg5) = X (Proc.devRef .tc main_arg5) := by
  refine ⟨?_, ?_, ?_, ?_, ?_⟩ <;> (dsimp only [ops0]; after_results_simp <;> rfl)

/-- The reference's result buffer holds the network's value of the argument arrays. -/
theorem result (m : (ℓ : Loc nD τ sig) → Buf (Elt Ideal) ℓ) (c : Dev nD) :
    after (ops (F := Ideal)) (launchContents m c) (Proc.devRef .tc main_v227)
      = Gcn.forward (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rw [ops_split, Cert.Lib.AfterSplit.after_append, Cert.Lib.AfterSplit.after_append, Cert.Lib.AfterSplit.after_append]
  obtain ⟨s1, s3, s15⟩ := step0 (launchContents m c)
  obtain ⟨k0a0, k0a2, k0a3, k0a4, k0a5⟩ := keep0 (launchContents m c)
  rw [RefSeg3.step, RefSeg2.keep _ main_v1 (by decide), RefSeg2.keep _ main_v3 (by decide), RefSeg2.keep _ main_v15 (by decide), RefSeg2.keep _ main_arg2 (by decide), RefSeg2.keep _ main_arg3 (by decide), RefSeg2.keep _ main_arg4 (by decide), RefSeg2.keep _ main_arg5 (by decide), RefSeg2.step,
    RefSeg1.keep _ main_v1 (by decide), RefSeg1.keep _ main_v3 (by decide), RefSeg1.keep _ main_v15 (by decide), RefSeg1.keep _ main_arg2 (by decide), RefSeg1.keep _ main_arg3 (by decide), RefSeg1.keep _ main_arg4 (by decide), RefSeg1.keep _ main_arg5 (by decide), RefSeg1.step,
    s1, s3, s15, k0a0, k0a2, k0a3, k0a4, k0a5]
  rw [RefLayer.layerTR_eq, RefLayer.layerTR_eq, RefLayer.layerT_eq]
  rfl

end Cert.ReferenceIdeal.RefStages

end
-- ==== Proof.lean ====
/-
  The certificate of a three-layer graph-convolution network: a pipelined kernel program against a plain reference.

  Each layer multiplies the node features by a weight matrix, aggregates the products along the graph's edges (scaled by
  the two endpoints' normalising factors), adds the node's own product scaled by the square of its factor and a bias,
  normalises each row (mean, variance, reciprocal square root), scales, shifts and clamps it at zero; from the second layer
  on the layer's input is added back.  The kernel program does the product and the row-wise part in pipelined launches over
  blocks of 2000 rows and everything else with host operations; the reference does everything with host operations.

  Over the extended reals the two compute the same array, and for a plain reason: they perform the same operations in the
  same order — a launch's zero-initialised matrix product against the host's product, a lane sum from zero against the
  host's sum from zero, the same constants (128, the epsilon, 0) — and the gather / scatter-add steps are literally the same
  host operations applied to equal arrays.  No law beyond 0 + x = x is used, so the finiteness of the inputs is never needed.

  The pieces: `Spec` (one layer's arithmetic, row by row), `Glue` (the shared host operations, named, and the network as
  their composition, `Gcn.forward`), `Blocks` (each launch's body at an entry of its block), `RegionsMM` / `RegionsLN` (from
  blocks to whole arrays), `Keep` / `Fold` / `Stages` (the kernel program's buffers followed through its twelve segments:
  the result buffer ends at `Gcn.forward` of the arguments), `KRun` (the kernel program's run with its result named),
  `RefRun` / `RefTerm` / `RefLayer` / `RefStages` (the same for the reference), and the claims below.
-/
import proofs.«167512_j63471026700852_1_alg».proof.Defs
import proofs.«167512_j63471026700852_1_alg».proof.Proof.Gen.Kernel
import proofs.«167512_j63471026700852_1_alg».proof.Proof.Gen.Kernel.Skeleton
import proofs.«167512_j63471026700852_1_alg».proof.Proof.Gen.Kernel.Launch
import proofs.«167512_j63471026700852_1_alg».proof.Proof.Gen.Kernel.Points
import proofs.«167512_j63471026700852_1_alg».proof.Proof.Gen.Kernel.Frame
import proofs.«167512_j63471026700852_1_alg».proof.Proof.Gen.KernelIdeal
import proofs.«167512_j63471026700852_1_alg».proof.Proof.Gen.KernelIdeal.Skeleton
import proofs.«167512_j63471026700852_1_alg».proof.Proof.Gen.KernelIdeal.Launch
import proofs.«167512_j63471026700852_1_alg».proof.Proof.Gen.KernelIdeal.Points
import proofs.«167512_j63471026700852_1_alg».proof.Proof.Gen.KernelIdeal.Frame
import proofs.«167512_j63471026700852_1_alg».proof.Proof.Gen.ReferenceIdeal
import proofs.«167512_j63471026700852_1_alg».proof.Proof.Gen.Pre_finite_inputs
import proofs.«167512_j63471026700852_1_alg».proof.Proof.KRun
import proofs.«167512_j63471026700852_1_alg».proof.Proof.Stages
import proofs.«167512_j63471026700852_1_alg».proof.Proof.RefRun
import proofs.«167512_j63471026700852_1_alg».proof.Proof.RefStages
import Idealize.ShloMosaic.Adequacy
import Idealize.ShloMosaic.Init

noncomputable section

namespace Cert.Proof

open Idealize.ShloMosaic Idealize.ShloMosaic.TcCoe Idealize.SL.Sem

/-- The kernel program as printed terminates, faults nowhere and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing, so there is nothing to preserve. -/
theorem preserves : Cert.preserves_Kernel_KernelIdeal := trivial

/-- Both idealized programs end with their result buffers at the network's value of the (agreeing) arguments. -/
theorem algebraic : Cert.algebraic_KernelIdeal_ReferenceIdeal := by
  intro m ρ m' ρ' _ hagree
  refine ⟨fun c => Cert.Gcn.forward (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3))
      (m ((c.tc : Thread _ _).loc Cert.KernelIdeal.main_arg4)) (m ((c.tc : Thread _ _).loc Cert.KernelIdeal.main_arg5)), ?_, ?_⟩
  · exact (θ_run Cert.KernelIdeal.defs _ _).mono (fun _ h c => ⟨(h c).1.trans (Cert.KernelIdeal.Fold.result m ρ c), (h c).2⟩)
      (Cert.KernelIdeal.RunValue.run_value (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefStages.result m' c, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
